-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v139) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S20000x128 : Shape := ⟨2, ![20000, 128]⟩
abbrev S800000 : Shape := ⟨1, ![800000]⟩
abbrev S320000 : Shape := ⟨1, ![320000]⟩
abbrev S400000 : Shape := ⟨1, ![400000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S800000 : S_.BroadcastsInDim S800000 (![] : Fin 0 → Fin S800000.rank)
  reducesTo_S800000_S_d0 : S800000.ReducesTo [0] S_
  bcast_S_S320000 : S_.BroadcastsInDim S320000 (![] : Fin 0 → Fin S320000.rank)
  reducesTo_S320000_S_d0 : S320000.ReducesTo [0] S_
  bcast_S_S400000 : S_.BroadcastsInDim S400000 (![] : Fin 0 → Fin S400000.rank)
  reducesTo_S400000_S_d0 : S400000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg27 : FVec F S128x128 .f32) (main_arg28 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128x128 .f32 := Host.absf main_arg27
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg28
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  main_v113

def fn_part5 {F : FTy → Type} [FloatOps F] (main_arg24 : FVec F S128x128 .f32) (main_arg25 : FVec F S128 .f32) (main_arg26 : FVec F S128x128 .f32) (main_arg27 : FVec F S128x128 .f32) (main_arg28 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg24
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg25
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg26
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg27 main_arg28 main_v98 main_v101 main_c_39

def fn_part4 {F : FTy → Type} [FloatOps F] (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128x128 .f32) (main_arg28 : FVec F S128 .f32) (main_v63 : IVec S_ 1) (main_v67 : IVec S_ 1) : IVec S_ 1 :=
  let main_v68 : IVec S_ 1 := andi main_v63 main_v67
  let main_v69 : FVec F S128x128 .f32 := Host.absf main_arg20
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg21
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg22
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg23
  let main_cst_32 : FVec F S_ .f32 := constant S_ .f32 0x7F800000#32
  fn_part5 (F := F) main_arg24 main_arg25 main_arg26 main_arg27 main_arg28 main_v83 main_v84 main_cst_32

def fn_part3 {F : FTy → Type} [FloatOps F] (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128x128 .f32) (main_arg28 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg18
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg20 main_arg21 main_arg22 main_arg23 main_arg24 main_arg25 main_arg26 main_arg27 main_arg28 main_v63 main_v67

def fn_part2 {F : FTy → Type} [FloatOps F] (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128x128 .f32) (main_arg28 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S400000 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128x128 .f32) (main_arg28 : FVec F S128 .f32) (main_v13 : IVec S_ 1) (main_v16 : IVec S320000 1) : IVec S_ 1 :=
  let main_c_5 : IVec S_ 1 := constantI S_ 1 1#1
  let main_v17 : IVec S_ 1 := (fun x v => Host.reduce IntOp.andi x v reducesTo_S320000_S_d0 h_S_) main_v16 main_c_5
  let main_v18 : IVec S_ 1 := andi main_v13 main_v17
  let main_v19 : FVec F S400000 .f32 := Host.absf main_arg4
  let main_cst_6 : FVec F S_ .f32 := constant S_ .f32 0x7F800000#32
  let main_v20 : FVec F S400000 .f32 := broadcastInDim S400000 ![] bcast_S_S400000 main_cst_6
  let main_v21 : IVec S400000 1 := cmpf .olt main_v19 main_v20
  let main_c_7 : IVec S_ 1 := constantI S_ 1 1#1
  let main_v22 : IVec S_ 1 := (fun x v => Host.reduce IntOp.andi x v reducesTo_S400000_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x128 .f32) (main_arg1 : FVec F S20000x128 .f32) (main_arg2 : FVec F S800000 .f32) (main_arg3 : FVec F S320000 .f32) (main_arg4 : FVec F S400000 .f32) (main_arg5 : IVec S800000 32) (main_arg6 : IVec S800000 32) (main_arg7 : IVec S320000 32) (main_arg8 : IVec S320000 32) (main_arg9 : IVec S400000 32) (main_arg10 : IVec S400000 32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128x128 .f32) (main_arg28 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S320000 .f32 := Host.absf main_arg3
  let main_cst_4 : FVec F S_ .f32 := constant S_ .f32 0x7F800000#32
  let main_v15 : FVec F S320000 .f32 := broadcastInDim S320000 ![] bcast_S_S320000 main_cst_4
  let main_v16 : IVec S320000 1 := cmpf .olt main_v14 main_v15
  fn_part1 (F := F) main_arg4 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x128 : Shape := ⟨2, ![50000, 128]⟩
abbrev S20000x128 : Shape := ⟨2, ![20000, 128]⟩
abbrev S800000 : Shape := ⟨1, ![800000]⟩
abbrev S320000 : Shape := ⟨1, ![320000]⟩
abbrev S400000 : Shape := ⟨1, ![400000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S320000x1 : Shape := ⟨2, ![320000, 1]⟩
abbrev S320000x128 : Shape := ⟨2, ![320000, 128]⟩
abbrev S20000 : Shape := ⟨1, ![20000]⟩
abbrev S20000x1 : Shape := ⟨2, ![20000, 1]⟩
abbrev S4000x128 : Shape := ⟨2, ![4000, 128]⟩
abbrev S400000x1 : Shape := ⟨2, ![400000, 1]⟩
abbrev S400000x128 : Shape := ⟨2, ![400000, 128]⟩

abbrev nBuf : Space → Nat
  | .hbm => 205
  | .vmem => 66
  | .smem => 0
  | _ => 0

abbrev hbmTy0_0 (i : Nat) : BufTy := match i % 128 with
  | 0 => ⟨S50000x128, .f32⟩
  | 1 => ⟨S20000x128, .f32⟩
  | 2 => ⟨S800000, .f32⟩
  | 3 => ⟨S320000, .f32⟩
  | 4 => ⟨S400000, .f32⟩
  | 5 => ⟨S800000, .i32⟩
  | 6 => ⟨S800000, .i32⟩
  | 7 => ⟨S320000, .i32⟩
  | 8 => ⟨S320000, .i32⟩
  | 9 => ⟨S400000, .i32⟩
  | 10 => ⟨S400000, .i32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S128x128, .f32⟩
  | 22 => ⟨S128, .f32⟩
  | 23 => ⟨S128x128, .f32⟩
  | 24 => ⟨S128x128, .f32⟩
  | 25 => ⟨S128, .f32⟩
  | 26 => ⟨S128x128, .f32⟩
  | 27 => ⟨S128x128, .f32⟩
  | 28 => ⟨S128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x1, .f32⟩
  | 39 => ⟨S800000x128, .f32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S_, .f32⟩
  | 46 => ⟨S800000, .f32⟩
  | 47 => ⟨S_, .f32⟩
  | 48 => ⟨S50000, .f32⟩
  | 49 => ⟨S800000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S50000x128, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x128, .f32⟩
  | 67 => ⟨S320000x1, .f32⟩
  | 68 => ⟨S320000x128, .f32⟩
  | 69 => ⟨S320000x128, .f32⟩
  | 70 => ⟨S_, .f32⟩
  | 71 => ⟨S20000x128, .f32⟩
  | 72 => ⟨S320000x1, .i32⟩
  | 73 => ⟨S20000x128, .f32⟩
  | 74 => ⟨S_, .f32⟩
  | 75 => ⟨S320000, .f32⟩
  | 76 => ⟨S_, .f32⟩
  | 77 => ⟨S20000, .f32⟩
  | 78 => ⟨S320000x1, .i32⟩
  | 79 => ⟨S20000, .f32⟩
  | 80 => ⟨S_, .f32⟩
  | 81 => ⟨S20000, .f32⟩
  | 82 => ⟨S20000, .f32⟩
  | 83 => ⟨S20000x1, .f32⟩
  | 84 => ⟨S20000x128, .f32⟩
  | 85 => ⟨S20000x128, .f32⟩
  | 86 => ⟨S20000x128, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x128, .f32⟩
  | 96 => ⟨S400000x1, .f32⟩
  | 97 => ⟨S400000x128, .f32⟩
  | 98 => ⟨S400000x128, .f32⟩
  | 99 => ⟨S_, .f32⟩
  | 100 => ⟨S20000x128, .f32⟩
  | 101 => ⟨S400000x1, .i32⟩
  | 102 => ⟨S20000x128, .f32⟩
  | 103 => ⟨S_, .f32⟩
  | 104 => ⟨S400000, .f32⟩
  | 105 => ⟨S_, .f32⟩
  | 106 => ⟨S20000, .f32⟩
  | 107 => ⟨S400000x1, .i32⟩
  | 108 => ⟨S20000, .f32⟩
  | 109 => ⟨S_, .f32⟩
  | 110 => ⟨S20000, .f32⟩
  | 111 => ⟨S20000, .f32⟩
  | 112 => ⟨S20000x1, .f32⟩
  | 113 => ⟨S20000x128, .f32⟩
  | 114 => ⟨S20000x128, .f32⟩
  | 115 => ⟨S20000x128, .f32⟩
  | 116 => ⟨S20000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x1, .f32⟩
  | 127 => ⟨S800000x128, .f32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S_, .f32⟩
  | 6 => ⟨S800000, .f32⟩
  | 7 => ⟨S_, .f32⟩
  | 8 => ⟨S50000, .f32⟩
  | 9 => ⟨S800000x1, .i32⟩
  | 10 => ⟨S50000, .f32⟩
  | 11 => ⟨S_, .f32⟩
  | 12 => ⟨S50000, .f32⟩
  | 13 => ⟨S50000, .f32⟩
  | 14 => ⟨S50000x1, .f32⟩
  | 15 => ⟨S50000x128, .f32⟩
  | 16 => ⟨S50000x128, .f32⟩
  | 17 => ⟨S50000x128, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S320000x128, .f32⟩
  | 27 => ⟨S320000x1, .f32⟩
  | 28 => ⟨S320000x128, .f32⟩
  | 29 => ⟨S320000x128, .f32⟩
  | 30 => ⟨S_, .f32⟩
  | 31 => ⟨S20000x128, .f32⟩
  | 32 => ⟨S320000x1, .i32⟩
  | 33 => ⟨S20000x128, .f32⟩
  | 34 => ⟨S_, .f32⟩
  | 35 => ⟨S320000, .f32⟩
  | 36 => ⟨S_, .f32⟩
  | 37 => ⟨S20000, .f32⟩
  | 38 => ⟨S320000x1, .i32⟩
  | 39 => ⟨S20000, .f32⟩
  | 40 => ⟨S_, .f32⟩
  | 41 => ⟨S20000, .f32⟩
  | 42 => ⟨S20000, .f32⟩
  | 43 => ⟨S20000x1, .f32⟩
  | 44 => ⟨S20000x128, .f32⟩
  | 45 => ⟨S20000x128, .f32⟩
  | 46 => ⟨S20000x128, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x128, .f32⟩
  | 56 => ⟨S400000x1, .f32⟩
  | 57 => ⟨S400000x128, .f32⟩
  | 58 => ⟨S400000x128, .f32⟩
  | 59 => ⟨S_, .f32⟩
  | 60 => ⟨S20000x128, .f32⟩
  | 61 => ⟨S400000x1, .i32⟩
  | 62 => ⟨S20000x128, .f32⟩
  | 63 => ⟨S_, .f32⟩
  | 64 => ⟨S400000, .f32⟩
  | 65 => ⟨S_, .f32⟩
  | 66 => ⟨S20000, .f32⟩
  | 67 => ⟨S400000x1, .i32⟩
  | 68 => ⟨S20000, .f32⟩
  | 69 => ⟨S_, .f32⟩
  | 70 => ⟨S20000, .f32⟩
  | 71 => ⟨S20000, .f32⟩
  | 72 => ⟨S20000x1, .f32⟩
  | 73 => ⟨S20000x128, .f32⟩
  | 74 => ⟨S20000x128, .f32⟩
  | 75 => ⟨S20000x128, .f32⟩
  | 76 => ⟨S20000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S128x128, .f32⟩
  | .local _ .vmem, ⟨47, _⟩ => ⟨S128x128, .f32⟩
  | .local _ .vmem, ⟨48, _⟩ => ⟨S128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S128x128, .f32⟩
  | .local _ .vmem, ⟨56, _⟩ => ⟨S128x128, .f32⟩
  | .local _ .vmem, ⟨57, _⟩ => ⟨S128, .f32⟩
  | .local _ .vmem, ⟨58, _⟩ => ⟨S4000x128, .f32⟩
  | .local _ .vmem, ⟨59, _⟩ => ⟨S4000x128, .f32⟩
  | .local _ .vmem, ⟨60, _⟩ => ⟨S4000x128, .f32⟩
  | .local _ .vmem, ⟨61, _⟩ => ⟨S4000x128, .f32⟩
  | .local _ .vmem, ⟨62, _⟩ => ⟨S4000x128, .f32⟩
  | .local _ .vmem, ⟨63, _⟩ => ⟨S4000x128, .f32⟩
  | .local _ .vmem, ⟨64, _⟩ => ⟨S4000x128, .f32⟩
  | .local _ .vmem, ⟨65, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_cst_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_3 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_4 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_6 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_7 : Ref sig .tc := ⟨.hbm, 74, rfl⟩
abbrev main_v36 : Ref sig .tc := ⟨.hbm, 75, rfl⟩
abbrev main_cst_8 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_9 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_c_10 : Ref sig .tc := ⟨.hbm, 87, rfl⟩
abbrev main_v46 : Ref sig .tc := ⟨.hbm, 88, rfl⟩
abbrev main_v47 : Ref sig .tc := ⟨.hbm, 89, rfl⟩
abbrev main_c_11 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_12 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_13 : Ref sig .tc := ⟨.hbm, 103, rfl⟩
abbrev main_v59 : Ref sig .tc := ⟨.hbm, 104, rfl⟩
abbrev main_cst_14 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_15 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_16 : Ref sig .tc := ⟨.hbm, 117, rfl⟩
abbrev main_v70 : Ref sig .tc := ⟨.hbm, 118, rfl⟩
abbrev main_v71 : Ref sig .tc := ⟨.hbm, 119, rfl⟩
abbrev main_c_17 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_18 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_19 : Ref sig .tc := ⟨.hbm, 133, rfl⟩
abbrev main_v83 : Ref sig .tc := ⟨.hbm, 134, rfl⟩
abbrev main_cst_20 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_21 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_22 : Ref sig .tc := ⟨.hbm, 146, rfl⟩
abbrev main_v93 : Ref sig .tc := ⟨.hbm, 147, rfl⟩
abbrev main_v94 : Ref sig .tc := ⟨.hbm, 148, rfl⟩
abbrev main_c_23 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_24 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_25 : Ref sig .tc := ⟨.hbm, 162, rfl⟩
abbrev main_v106 : Ref sig .tc := ⟨.hbm, 163, rfl⟩
abbrev main_cst_26 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_cst_27 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_28 : Ref sig .tc := ⟨.hbm, 175, rfl⟩
abbrev main_v116 : Ref sig .tc := ⟨.hbm, 176, rfl⟩
abbrev main_v117 : Ref sig .tc := ⟨.hbm, 177, rfl⟩
abbrev main_c_29 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_30 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_31 : Ref sig .tc := ⟨.hbm, 191, rfl⟩
abbrev main_v129 : Ref sig .tc := ⟨.hbm, 192, rfl⟩
abbrev main_cst_32 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_cst_33 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem2_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  scatter_S20000_S320000x1_S320000_n_0_0_1_wf : ScatterDims.WF S20000 S320000x1 S320000 [] [0] [0] 1
  dot_S4000x128_S128x128_S4000x128_1_0_0_1_n_n_wf : DotDims.WF S4000x128 S128x128 S4000x128 [1] [0] [0] [1] [] []
  gather_S50000x128_S400000x1_S400000x128_1_0_n_n_0_1_1128_wf : GatherDims.WF S50000x128 S400000x1 S400000x128 [1] [0] [] [0] [] 1 ![1, 128]
  scatter_S20000x128_S400000x1_S400000x128_1_0_0_1_wf : ScatterDims.WF S20000x128 S400000x1 S400000x128 [1] [0] [0] 1
  scatter_S20000_S400000x1_S400000_n_0_0_1_wf : ScatterDims.WF S20000 S400000x1 S400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S20000x128.size a
  hwx1_5 : ∀ i : grid1.Coords, EltTy.bits .f32 = 32 ∨ (Rect.block (s := S20000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S20000x128.size a
  hwx2_1 : ∀ i : grid2.Coords, EltTy.bits .f32 = 32 ∨ (Rect.block (s := S20000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S20000x128.size a
  hwx2_5 : ∀ i : grid2.Coords, EltTy.bits .f32 = 32 ∨ (Rect.block (s := S20000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S20000x128.size a
  hwx3_1 : ∀ i : grid3.Coords, EltTy.bits .f32 = 32 ∨ (Rect.block (s := S20000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S20000x128.size a
  hwx3_2 : ∀ i : grid3.Coords, EltTy.bits .f32 = 32 ∨ (Rect.block (s := S20000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S20000x128.size a
  hwx5_0 : ∀ i : grid5.Coords, EltTy.bits .f32 = 32 ∨ (Rect.block (s := S20000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S20000x128.size a
  hwx5_1 : ∀ i : grid5.Coords, EltTy.bits .f32 = 32 ∨ (Rect.block (s := S20000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S20000x128.size a
  hwx5_5 : ∀ i : grid5.Coords, EltTy.bits .f32 = 32 ∨ (Rect.block (s := S20000x128) S4000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S20000x128.size a
  hwx6_0 : ∀ i : grid6.Coords, EltTy.bits .f32 = 32 ∨ (Rect.block (s := S20000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S20000x128.size a
  hwx6_1 : ∀ i : grid6.Coords, EltTy.bits .f32 = 32 ∨ (Rect.block (s := S20000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S20000x128.size a
  hwx6_5 : ∀ i : grid6.Coords, EltTy.bits .f32 = 32 ∨ (Rect.block (s := S20000x128) S4000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S20000x128.size a
  hwx7_0 : ∀ i : grid7.Coords, EltTy.bits .f32 = 32 ∨ (Rect.block (s := S20000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S20000x128.size a
  hwx7_1 : ∀ i : grid7.Coords, EltTy.bits .f32 = 32 ∨ (Rect.block (s := S20000x128) S4000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S20000x128.size a
  hwx7_2 : ∀ i : grid7.Coords, EltTy.bits .f32 = 32 ∨ (Rect.block (s := S20000x128) S4000x128.size (cc7_transform_2 i) (hinb7_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v22) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg20) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg21) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg22) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v69) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v114) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg23) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg24) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg25) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v115) S4000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v69) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v137) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg26) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg27) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg28) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v138) S4000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v115) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v138) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v139) S4000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S20000x128 : Shape := ⟨2, ![20000, 128]⟩
abbrev S800000 : Shape := ⟨1, ![800000]⟩
abbrev S320000 : Shape := ⟨1, ![320000]⟩
abbrev S400000 : Shape := ⟨1, ![400000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S320000x1 : Shape := ⟨2, ![320000, 1]⟩
abbrev S320000x128 : Shape := ⟨2, ![320000, 128]⟩
abbrev S20000 : Shape := ⟨1, ![20000]⟩
abbrev S20000x1 : Shape := ⟨2, ![20000, 1]⟩
abbrev S400000x1 : Shape := ⟨2, ![400000, 1]⟩
abbrev S400000x128 : Shape := ⟨2, ![400000, 128]⟩

abbrev nBuf : Space → Nat
  | .hbm => 247
  | .vmem => 0
  | .smem => 0
  | _ => 0

abbrev hbmTy0_0 (i : Nat) : BufTy := match i % 128 with
  | 0 => ⟨S50000x128, .f32⟩
  | 1 => ⟨S20000x128, .f32⟩
  | 2 => ⟨S800000, .f32⟩
  | 3 => ⟨S320000, .f32⟩
  | 4 => ⟨S400000, .f32⟩
  | 5 => ⟨S800000, .i32⟩
  | 6 => ⟨S800000, .i32⟩
  | 7 => ⟨S320000, .i32⟩
  | 8 => ⟨S320000, .i32⟩
  | 9 => ⟨S400000, .i32⟩
  | 10 => ⟨S400000, .i32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S128x128, .f32⟩
  | 22 => ⟨S128, .f32⟩
  | 23 => ⟨S128x128, .f32⟩
  | 24 => ⟨S128x128, .f32⟩
  | 25 => ⟨S128, .f32⟩
  | 26 => ⟨S128x128, .f32⟩
  | 27 => ⟨S128x128, .f32⟩
  | 28 => ⟨S128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x1, .f32⟩
  | 39 => ⟨S800000x128, .f32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S_, .f32⟩
  | 46 => ⟨S800000, .f32⟩
  | 47 => ⟨S_, .f32⟩
  | 48 => ⟨S50000, .f32⟩
  | 49 => ⟨S800000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S50000x128, .f32⟩
  | 62 => ⟨S50000x128, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x128, .f32⟩
  | 72 => ⟨S320000x1, .f32⟩
  | 73 => ⟨S320000x128, .f32⟩
  | 74 => ⟨S320000x128, .f32⟩
  | 75 => ⟨S_, .f32⟩
  | 76 => ⟨S20000x128, .f32⟩
  | 77 => ⟨S320000x1, .i32⟩
  | 78 => ⟨S20000x128, .f32⟩
  | 79 => ⟨S_, .f32⟩
  | 80 => ⟨S320000, .f32⟩
  | 81 => ⟨S_, .f32⟩
  | 82 => ⟨S20000, .f32⟩
  | 83 => ⟨S320000x1, .i32⟩
  | 84 => ⟨S20000, .f32⟩
  | 85 => ⟨S_, .f32⟩
  | 86 => ⟨S20000, .f32⟩
  | 87 => ⟨S20000, .f32⟩
  | 88 => ⟨S20000x1, .f32⟩
  | 89 => ⟨S20000x128, .f32⟩
  | 90 => ⟨S20000x128, .f32⟩
  | 91 => ⟨S20000x128, .f32⟩
  | 92 => ⟨S1x128, .f32⟩
  | 93 => ⟨S20000x128, .f32⟩
  | 94 => ⟨S20000x128, .f32⟩
  | 95 => ⟨S20000x128, .f32⟩
  | 96 => ⟨S20000x128, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x128, .f32⟩
  | 106 => ⟨S400000x1, .f32⟩
  | 107 => ⟨S400000x128, .f32⟩
  | 108 => ⟨S400000x128, .f32⟩
  | 109 => ⟨S_, .f32⟩
  | 110 => ⟨S20000x128, .f32⟩
  | 111 => ⟨S400000x1, .i32⟩
  | 112 => ⟨S20000x128, .f32⟩
  | 113 => ⟨S_, .f32⟩
  | 114 => ⟨S400000, .f32⟩
  | 115 => ⟨S_, .f32⟩
  | 116 => ⟨S20000, .f32⟩
  | 117 => ⟨S400000x1, .i32⟩
  | 118 => ⟨S20000, .f32⟩
  | 119 => ⟨S_, .f32⟩
  | 120 => ⟨S20000, .f32⟩
  | 121 => ⟨S20000, .f32⟩
  | 122 => ⟨S20000x1, .f32⟩
  | 123 => ⟨S20000x128, .f32⟩
  | 124 => ⟨S20000x128, .f32⟩
  | 125 => ⟨S20000x128, .f32⟩
  | 126 => ⟨S1x128, .f32⟩
  | 127 => ⟨S20000x128, .f32⟩
  | _ => ⟨S50000x128, .f32⟩

abbrev hbmTy0_1 (i : Nat) : BufTy := match i % 128 with
  | 0 => ⟨S20000x128, .f32⟩
  | 1 => ⟨S20000x128, .f32⟩
  | 2 => ⟨S20000x128, .f32⟩
  | 3 => ⟨S20000x128, .f32⟩
  | 4 => ⟨S_, .f32⟩
  | 5 => ⟨S20000x128, .f32⟩
  | 6 => ⟨S20000x128, .f32⟩
  | 7 => ⟨S_, .f32⟩
  | 8 => ⟨S50000x128, .f32⟩
  | 9 => ⟨S50000x128, .f32⟩
  | 10 => ⟨S_, .f32⟩
  | 11 => ⟨S20000x128, .f32⟩
  | 12 => ⟨S20000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x1, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x128, .f32⟩
  | 56 => ⟨S320000x1, .f32⟩
  | 57 => ⟨S320000x128, .f32⟩
  | 58 => ⟨S320000x128, .f32⟩
  | 59 => ⟨S_, .f32⟩
  | 60 => ⟨S20000x128, .f32⟩
  | 61 => ⟨S320000x1, .i32⟩
  | 62 => ⟨S20000x128, .f32⟩
  | 63 => ⟨S_, .f32⟩
  | 64 => ⟨S320000, .f32⟩
  | 65 => ⟨S_, .f32⟩
  | 66 => ⟨S20000, .f32⟩
  | 67 => ⟨S320000x1, .i32⟩
  | 68 => ⟨S20000, .f32⟩
  | 69 => ⟨S_, .f32⟩
  | 70 => ⟨S20000, .f32⟩
  | 71 => ⟨S20000, .f32⟩
  | 72 => ⟨S20000x1, .f32⟩
  | 73 => ⟨S20000x128, .f32⟩
  | 74 => ⟨S20000x128, .f32⟩
  | 75 => ⟨S20000x128, .f32⟩
  | 76 => ⟨S1x128, .f32⟩
  | 77 => ⟨S20000x128, .f32⟩
  | 78 => ⟨S20000x128, .f32⟩
  | 79 => ⟨S20000x128, .f32⟩
  | 80 => ⟨S20000x128, .f32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x128, .f32⟩
  | 90 => ⟨S400000x1, .f32⟩
  | 91 => ⟨S400000x128, .f32⟩
  | 92 => ⟨S400000x128, .f32⟩
  | 93 => ⟨S_, .f32⟩
  | 94 => ⟨S20000x128, .f32⟩
  | 95 => ⟨S400000x1, .i32⟩
  | 96 => ⟨S20000x128, .f32⟩
  | 97 => ⟨S_, .f32⟩
  | 98 => ⟨S400000, .f32⟩
  | 99 => ⟨S_, .f32⟩
  | 100 => ⟨S20000, .f32⟩
  | 101 => ⟨S400000x1, .i32⟩
  | 102 => ⟨S20000, .f32⟩
  | 103 => ⟨S_, .f32⟩
  | 104 => ⟨S20000, .f32⟩
  | 105 => ⟨S20000, .f32⟩
  | 106 => ⟨S20000x1, .f32⟩
  | 107 => ⟨S20000x128, .f32⟩
  | 108 => ⟨S20000x128, .f32⟩
  | 109 => ⟨S20000x128, .f32⟩
  | 110 => ⟨S1x128, .f32⟩
  | 111 => ⟨S20000x128, .f32⟩
  | 112 => ⟨S20000x128, .f32⟩
  | 113 => ⟨S20000x128, .f32⟩
  | 114 => ⟨S20000x128, .f32⟩
  | 115 => ⟨S20000x128, .f32⟩
  | 116 => ⟨S_, .f32⟩
  | 117 => ⟨S20000x128, .f32⟩
  | 118 => ⟨S20000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_1 : Ref sig .tc := ⟨.hbm, 45, rfl⟩
abbrev main_v13 : Ref sig .tc := ⟨.hbm, 46, rfl⟩
abbrev main_cst_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_3 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_4 : Ref sig .tc := ⟨.hbm, 63, rfl⟩
abbrev main_v28 : Ref sig .tc := ⟨.hbm, 64, rfl⟩
abbrev main_v29 : Ref sig .tc := ⟨.hbm, 65, rfl⟩
abbrev main_c_5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_6 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_7 : Ref sig .tc := ⟨.hbm, 79, rfl⟩
abbrev main_v41 : Ref sig .tc := ⟨.hbm, 80, rfl⟩
abbrev main_cst_8 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_9 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_10 : Ref sig .tc := ⟨.hbm, 97, rfl⟩
abbrev main_v56 : Ref sig .tc := ⟨.hbm, 98, rfl⟩
abbrev main_v57 : Ref sig .tc := ⟨.hbm, 99, rfl⟩
abbrev main_c_11 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_12 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_13 : Ref sig .tc := ⟨.hbm, 113, rfl⟩
abbrev main_v69 : Ref sig .tc := ⟨.hbm, 114, rfl⟩
abbrev main_cst_14 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_15 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_16 : Ref sig .tc := ⟨.hbm, 132, rfl⟩
abbrev main_v85 : Ref sig .tc := ⟨.hbm, 133, rfl⟩
abbrev main_v86 : Ref sig .tc := ⟨.hbm, 134, rfl⟩
abbrev main_call0_cst : Ref sig .tc := ⟨.hbm, 135, rfl⟩
abbrev main_call0_v0 : Ref sig .tc := ⟨.hbm, 136, rfl⟩
abbrev main_v87 : Ref sig .tc := ⟨.hbm, 137, rfl⟩
abbrev main_call1_cst : Ref sig .tc := ⟨.hbm, 138, rfl⟩
abbrev main_call1_v0 : Ref sig .tc := ⟨.hbm, 139, rfl⟩
abbrev main_v88 : Ref sig .tc := ⟨.hbm, 140, rfl⟩
abbrev main_c_17 : Ref sig .tc := ⟨.hbm, 141, rfl⟩
abbrev main_v89 : Ref sig .tc := ⟨.hbm, 142, rfl⟩
abbrev main_v90 : Ref sig .tc := ⟨.hbm, 143, rfl⟩
abbrev main_c_18 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_19 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_20 : Ref sig .tc := ⟨.hbm, 157, rfl⟩
abbrev main_v102 : Ref sig .tc := ⟨.hbm, 158, rfl⟩
abbrev main_cst_21 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_22 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_c_23 : Ref sig .tc := ⟨.hbm, 175, rfl⟩
abbrev main_v117 : Ref sig .tc := ⟨.hbm, 176, rfl⟩
abbrev main_v118 : Ref sig .tc := ⟨.hbm, 177, rfl⟩
abbrev main_c_24 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_25 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_26 : Ref sig .tc := ⟨.hbm, 191, rfl⟩
abbrev main_v130 : Ref sig .tc := ⟨.hbm, 192, rfl⟩
abbrev main_cst_27 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_28 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_c_29 : Ref sig .tc := ⟨.hbm, 209, rfl⟩
abbrev main_v145 : Ref sig .tc := ⟨.hbm, 210, rfl⟩
abbrev main_v146 : Ref sig .tc := ⟨.hbm, 211, rfl⟩
abbrev main_c_30 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_31 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_32 : Ref sig .tc := ⟨.hbm, 225, rfl⟩
abbrev main_v158 : Ref sig .tc := ⟨.hbm, 226, rfl⟩
abbrev main_cst_33 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_cst_34 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_35 : Ref sig .tc := ⟨.hbm, 244, rfl⟩
abbrev main_v174 : Ref sig .tc := ⟨.hbm, 245, rfl⟩
abbrev main_v175 : Ref sig .tc := ⟨.hbm, 246, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  scatter_S20000_S320000x1_S320000_n_0_0_1_wf : ScatterDims.WF S20000 S320000x1 S320000 [] [0] [0] 1
  dot_S20000x128_S128x128_S20000x128_1_0_0_1_n_n_wf : DotDims.WF S20000x128 S128x128 S20000x128 [1] [0] [0] [1] [] []
  gather_S50000x128_S400000x1_S400000x128_1_0_n_n_0_1_1128_wf : GatherDims.WF S50000x128 S400000x1 S400000x128 [1] [0] [] [0] [] 1 ![1, 128]
  scatter_S20000x128_S400000x1_S400000x128_1_0_0_1_wf : ScatterDims.WF S20000x128 S400000x1 S400000x128 [1] [0] [0] 1
  scatter_S20000_S400000x1_S400000_n_0_0_1_wf : ScatterDims.WF S20000 S400000x1 S400000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf

class Facts : Prop extends Facts₀ where

variable [Facts]
-- ==== Proof.KernelRun.lean ====
/-
  The idealized kernel's whole run with every buffer named. The program is eight kernel launches among stretches of
  host operations; its generated frame follows the buffer contents from the launch memory through every stretch and
  every launch to the contents at the return. This module states the same run keeping, for every buffer that outlives
  its launch, what it holds at the return: the last of those contents. The results' values are read off it elsewhere.
-/
import proofs.«172717_j57543971832738_1_alg».proof.Proof.Gen.KernelIdeal.Frame

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and at the return every buffer that is
    not scoped to a launch holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- The same, read at a reference of the TensorCore that no launch scopes. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W14 m ρ c (Proc.devRef .tc b)) :=
  (θ_run defs _ _).mono (fun _ h c b hb => h c _ (mem_uc b hb)) (run_all m ρ)

end Cert.KernelIdeal.Whole

end
-- ==== Proof.LibDotPlain.lean ====
/-
  The plain product of two matrices, `[a, K] · [K, b]` (the left operand contracted on its last axis, the right one on
  its first, no batch axes), read at an entry on the extended reals: `(x · y)[p, c] = Σₖ x[p, k] · y[k, c]`, the sum
  over `Fin K`. Stated for any dimension record of that form, then for the host's `dot_general`.
-/
import Idealize.ShloMosaic.PureOps.Ideal.Laws
import Idealize.ShloMosaic.Lib.ValueIdx

noncomputable section

namespace Cert.LibDotPlain

open Idealize.ShloMosaic Idealize.ShloMosaic.ValueIdx

/-- The dimension numbers of a plain product: contract the left operand's axis 1 with the right operand's axis 0,
    keep the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the inner product of row `p` with column `c`. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- The host's plain `dot_general`, at an entry. -/
theorem hostDot_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    Host.dotGeneral D prec x y (ix2 p c) = ∑ k : Fin K, x (ix2 p k) * y (ix2 k c) := by
  simp only [Host.dotGeneral]
  rw [Ideal.dotGeneral_apply]
  exact sum_plain D h x y p c

end Cert.LibDotPlain

end
-- ==== Proof.LibSageDense.lean ====
/-
  One dense step of a graph convolution with mean aggregation, read at an entry on the extended reals.
  For node features `x` and aggregated neighbour features `n` (both `[a, K]`), weights `Ws`, `Wn` (`[K, b]`) and a
  bias row `β` (`[b]`), the entry `(p, c)` of the step is
      Σₖ x[p,k]·Ws[k,c] + Σₖ n[p,k]·Wn[k,c] + β[c].
  A kernel computes it as `(x·Ws + n·Wn) + β`, its operands narrowed to a shorter float format first (the identity on
  the extended reals), each product into a zero accumulator, the bias row cast to `[1, b]` and spread over the rows.
  The host computes it as `(x·Ws + β) + n·Wn`, the bias row spread by two broadcasts. The two are the same number:
  addition on the extended reals is commutative and associative (no finiteness is used).
  Also here: the half sum `w·(u + v)` of two arrays, and what an entry of the dense step depends on.
-/
import Idealize.ShloMosaic.PureOps.Ideal.Laws
import Idealize.ShloMosaic.Lib.ValueIdx
import Idealize.ShloMosaic.Lib.Pipeline.Value
import proofs.«172717_j57543971832738_1_alg».proof.Proof.LibDotPlain

noncomputable section

namespace Cert.LibSageDense

open Idealize.ShloMosaic Idealize.ShloMosaic.ValueIdx Cert.LibDotPlain

variable {a K b : ℕ}

/-- The dense step at the entry `(p, c)`. -/
def denseAt (x nb : (⟨2, ![a, K]⟩ : Shape).Idx → EReal) (ws wn : (⟨2, ![K, b]⟩ : Shape).Idx → EReal)
    (β : (⟨1, ![b]⟩ : Shape).Idx → EReal) (p : Fin a) (c : Fin b) : EReal :=
  (∑ k : Fin K, x (ix2 p k) * ws (ix2 k c)) + (∑ k : Fin K, nb (ix2 p k) * wn (ix2 k c)) + β (ix1 c)

/-- An entry of the dense step depends on row `p` of the features, column `c` of the weights and entry `c` of the
    bias only: two sets of operands that agree there (the first read at `(p, c)`, the second at `(p', c')`) give the
    same entry. -/
theorem denseAt_congr {a' : ℕ} (x nb : (⟨2, ![a, K]⟩ : Shape).Idx → EReal) (ws wn : (⟨2, ![K, b]⟩ : Shape).Idx → EReal)
    (β : (⟨1, ![b]⟩ : Shape).Idx → EReal) (x' nb' : (⟨2, ![a', K]⟩ : Shape).Idx → EReal)
    (ws' wn' : (⟨2, ![K, b]⟩ : Shape).Idx → EReal) (β' : (⟨1, ![b]⟩ : Shape).Idx → EReal)
    (p : Fin a) (p' : Fin a') (c c' : Fin b)
    (hx : ∀ k, x (ix2 p k) = x' (ix2 p' k)) (hn : ∀ k, nb (ix2 p k) = nb' (ix2 p' k))
    (hws : ∀ k, ws (ix2 k c) = ws' (ix2 k c')) (hwn : ∀ k, wn (ix2 k c) = wn' (ix2 k c'))
    (hβ : β (ix1 c) = β' (ix1 c')) :
    denseAt x nb ws wn β p c = denseAt x' nb' ws' wn' β' p' c' := by
  unfold denseAt
  rw [hβ]
  refine congrArg (· + β' (ix1 c')) (congrArg₂ (· + ·) ?_ ?_)
  · exact Finset.sum_congr rfl fun k _ => by rw [hx k, hws k]
  · exact Finset.sum_congr rfl fun k _ => by rw [hn k, hwn k]

/-- A bias row cast to `[1, b]` and spread over `a` rows (the kernel's way), at an entry. -/
theorem rowBias_kernel (β : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ β h1) h2 (ix2 p c) = β (ix1 c) := by
  rw [broadcastTo_apply _ h2 (ix2 p c) (ix2 (⟨0, Nat.one_pos⟩ : Fin 1) c) (fun ax => by
    match ax with
    | ⟨0, _⟩ => rfl
    | ⟨1, _⟩ =>
      show c.val = if b = 1 then 0 else c.val
      have := c.isLt
      split <;> omega)]
  rw [shapeCast_addUnit_apply ![b] β h1]
  exact congrArg β (funext fun d => by match d with | ⟨0, _⟩ => rfl)

/-- A bias row spread to `[1, b]` and then over `a` rows by two broadcasts (the host's way), at an entry. -/
theorem rowBias_host (β : (⟨1, ![b]⟩ : Shape).Idx → EReal) (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 β) (ix2 p c) = β (ix1 c) := by
  rw [broadcastInDim_apply ![0, 1] h2 _ (ix2 p c) (ix2 (⟨0, Nat.one_pos⟩ : Fin 1) c) (fun ax => by
    match ax with
    | ⟨0, _⟩ => rfl
    | ⟨1, _⟩ =>
      show c.val = if b = 1 then 0 else c.val
      have := c.isLt
      split <;> omega)]
  rw [broadcastInDim_apply ![1] h1 β (ix2 (⟨0, Nat.one_pos⟩ : Fin 1) c) (ix1 c) (fun ax => by
    match ax with
    | ⟨0, _⟩ =>
      show c.val = if b = 1 then 0 else c.val
      have := c.isLt
      split <;> omega)]

/-- The host's dense step `(x·Ws + β) + n·Wn` at an entry. -/
theorem hostDense_apply (D : DotDims ⟨2, ![a, K]⟩ ⟨2, ![K, b]⟩ ⟨2, ![a, b]⟩) (hD : IsPlain D)
    (x nb : FVec Ideal ⟨2, ![a, K]⟩ .f32) (ws wn : FVec Ideal ⟨2, ![K, b]⟩ .f32) (β : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    addf (addf (Host.dotGeneral D none x ws) (broadcastInDim ⟨2, ![a, b]⟩ ![0, 1] h2 (broadcastInDim ⟨2, ![1, b]⟩ ![1] h1 β)))
        (Host.dotGeneral D none nb wn) (ix2 p c)
      = denseAt x nb ws wn β p c := by
  rw [addf_apply, addf_apply, hostDot_apply D hD, hostDot_apply D hD, rowBias_host]
  unfold denseAt
  exact add_right_comm _ _ _

/-- The kernel's dense step `(x·Ws + n·Wn) + β`, operands narrowed to `bf16`, each product into a zero accumulator, at
    an entry. -/
theorem kernelDense_apply (D : DotDims ⟨2, ![a, K]⟩ ⟨2, ![K, b]⟩ ⟨2, ![a, b]⟩) (hD : IsPlain D)
    (x nb : FVec Ideal ⟨2, ![a, K]⟩ .f32) (ws wn : FVec Ideal ⟨2, ![K, b]⟩ .f32) (β : FVec Ideal ⟨1, ![b]⟩ .f32)
    (hlt : FTy.bf16.bits < FTy.f32.bits)
    (h1 : (⟨1, ![b]⟩ : Shape).ShapeCasts ⟨2, ![1, b]⟩) (h2 : (⟨2, ![1, b]⟩ : Shape).Broadcasts ⟨2, ![a, b]⟩)
    (p : Fin a) (c : Fin b) :
    addf (addf (matmul D none (truncf .bf16 x hlt) (truncf .bf16 ws hlt) (constant (F := Ideal) ⟨2, ![a, b]⟩ .f32 0x00000000#32))
          (matmul D none (truncf .bf16 nb hlt) (truncf .bf16 wn hlt) (constant (F := Ideal) ⟨2, ![a, b]⟩ .f32 0x00000000#32)))
        (broadcastTo ⟨2, ![a, b]⟩ (shapeCast ⟨2, ![1, b]⟩ β h1) h2) (ix2 p c)
      = denseAt x nb ws wn β p c := by
  rw [addf_apply, addf_apply, rowBias_kernel]
  refine congrArg (· + β (ix1 c)) (congrArg₂ (· + ·) ?_ ?_)
  · exact (Ideal.matmul_constant_zero_apply D none _ _ _).trans (sum_plain D hD x ws p c)
  · exact (Ideal.matmul_constant_zero_apply D none _ _ _).trans (sum_plain D hD nb wn p c)

end Cert.LibSageDense

end
-- ==== Proof.Forms.lean ====
/-
  The network as a composition of whole-array functions on the extended reals.
  Two node types: 50000 nodes of the first type, 20000 of the second, 128 features each. Three edge types:
  first → first (800000 edges), second → second (320000 edges), first → second (400000 edges). For an edge type with
  sources `src`, targets `dst` and edge weights `w`, a target node's neighbour feature is the weighted sum of its
  in-neighbours' features over its (at least 1) in-degree; the program computes it by a row gather, a scatter-add, a
  scatter-add of ones, a maximum and a quotient, and both programs compute it by the SAME host operations, so here it
  is one opaque function per edge type (the generated reading of the reference program supplies the three).
  A layer: `o = x·Ws + β + n·Wn` per edge type at the target's node type; the second node type takes the half sum of its
  two edge types. Two layers, a rectifier `max(·, 0)` between them.
-/
import proofs.«172717_j57543971832738_1_alg».proof.Proof.Gen.ReferenceIdeal.Read
import proofs.«172717_j57543971832738_1_alg».proof.Proof.LibSageDense

noncomputable section

namespace Cert.Forms

open Idealize.ShloMosaic Idealize.ShloMosaic.ValueIdx Cert.ReferenceIdeal Cert.ReferenceIdeal.Gen Cert.LibSageDense Cert.LibDotPlain

/-- The plain product of `[50000, 128]` by `[128, 128]`. -/
theorem plain50 : IsPlain dot_S50000x128_S128x128_S50000x128_1_0_0_1_n_n := ⟨rfl, rfl, rfl, rfl, rfl, rfl⟩
/-- The plain product of `[20000, 128]` by `[128, 128]`. -/
theorem plain20 : IsPlain dot_S20000x128_S128x128_S20000x128_1_0_0_1_n_n := ⟨rfl, rfl, rfl, rfl, rfl, rfl⟩

/-- The zero every rectifier compares with, as the word both programs print. -/
abbrev zeroWord : EReal := Ideal.ofBits .f32 0x00000000#32
/-- One half, as the word both programs print. -/
abbrev halfWord : EReal := Ideal.ofBits .f32 0x3F000000#32

/-- The dense step on the first node type, in the host's spelling: `(x·Ws + β) + n·Wn`. -/
def sage50 (x nb : FVec Ideal S50000x128 .f32) (ws wn : FVec Ideal S128x128 .f32) (β : FVec Ideal S128 .f32) :
    FVec Ideal S50000x128 .f32 :=
  addf (addf (Host.dotGeneral dot_S50000x128_S128x128_S50000x128_1_0_0_1_n_n none x ws)
      (broadcastInDim S50000x128 ![0, 1] bcast_S1x128_S50000x128_0_1 (broadcastInDim S1x128 ![1] bcast_S128_S1x128_1 β)))
    (Host.dotGeneral dot_S50000x128_S128x128_S50000x128_1_0_0_1_n_n none nb wn)

/-- The dense step on the second node type. -/
def sage20 (x nb : FVec Ideal S20000x128 .f32) (ws wn : FVec Ideal S128x128 .f32) (β : FVec Ideal S128 .f32) :
    FVec Ideal S20000x128 .f32 :=
  addf (addf (Host.dotGeneral dot_S20000x128_S128x128_S20000x128_1_0_0_1_n_n none x ws)
      (broadcastInDim S20000x128 ![0, 1] bcast_S1x128_S20000x128_0_1 (broadcastInDim S1x128 ![1] bcast_S128_S1x128_1 β)))
    (Host.dotGeneral dot_S20000x128_S128x128_S20000x128_1_0_0_1_n_n none nb wn)

/-- The rectifier on the first node type: the maximum with a splat zero. -/
def relu50 (y : FVec Ideal S50000x128 .f32) : FVec Ideal S50000x128 .f32 :=
  maximumf y (broadcastInDim S50000x128 ![] bcast_S_S50000x128 (constant (F := Ideal) S_ .f32 0x00000000#32))

/-- The rectifier on the second node type. -/
def relu20 (y : FVec Ideal S20000x128 .f32) : FVec Ideal S20000x128 .f32 :=
  maximumf y (broadcastInDim S20000x128 ![] bcast_S_S20000x128 (constant (F := Ideal) S_ .f32 0x00000000#32))

/-- The half sum of the second node type's two edge types. -/
def half20 (u v : FVec Ideal S20000x128 .f32) : FVec Ideal S20000x128 .f32 :=
  mulf (broadcastInDim S20000x128 ![] bcast_S_S20000x128 (constant (F := Ideal) S_ .f32 0x3F000000#32)) (addf u v)

theorem sage50_apply (x nb : FVec Ideal S50000x128 .f32) (ws wn : FVec Ideal S128x128 .f32) (β : FVec Ideal S128 .f32)
    (i : S50000x128.Idx) : sage50 x nb ws wn β i = denseAt x nb ws wn β (i 0) (i 1) := by
  obtain ⟨p, c, rfl⟩ : ∃ (p : Fin 50000) (c : Fin 128), i = ix2 p c := ⟨i 0, i 1, eq_ix2 i⟩
  exact hostDense_apply _ plain50 x nb ws wn β _ _ p c

theorem sage20_apply (x nb : FVec Ideal S20000x128 .f32) (ws wn : FVec Ideal S128x128 .f32) (β : FVec Ideal S128 .f32)
    (i : S20000x128.Idx) : sage20 x nb ws wn β i = denseAt x nb ws wn β (i 0) (i 1) := by
  obtain ⟨p, c, rfl⟩ : ∃ (p : Fin 20000) (c : Fin 128), i = ix2 p c := ⟨i 0, i 1, eq_ix2 i⟩
  exact hostDense_apply _ plain20 x nb ws wn β _ _ p c

theorem relu50_apply (y : FVec Ideal S50000x128 .f32) (i : S50000x128.Idx) : relu50 y i = max (y i) zeroWord := rfl
theorem relu20_apply (y : FVec Ideal S20000x128 .f32) (i : S20000x128.Idx) : relu20 y i = max (y i) zeroWord := rfl
theorem half20_apply (u v : FVec Ideal S20000x128 .f32) (i : S20000x128.Idx) :
    half20 u v i = halfWord * (u i + v i) := rfl

/-! ## The three aggregations, and the network -/

open Cert.ReferenceIdeal.Read in
/-- First → first edges: neighbour features of the first node type from features of the first. -/
abbrev aggA (x : FVec Ideal S50000x128 .f32) (w : FVec Ideal S800000 .f32) (src dst : IVec S800000 32) :
    FVec Ideal S50000x128 .f32 := val_main_v21 (F := Ideal) x w src dst
open Cert.ReferenceIdeal.Read in
/-- Second → second edges. -/
abbrev aggB (x : FVec Ideal S20000x128 .f32) (w : FVec Ideal S320000 .f32) (src dst : IVec S320000 32) :
    FVec Ideal S20000x128 .f32 := val_main_v49 (F := Ideal) x w src dst
open Cert.ReferenceIdeal.Read in
/-- First → second edges: neighbour features of the second node type from features of the first. -/
abbrev aggC (x : FVec Ideal S50000x128 .f32) (w : FVec Ideal S400000 .f32) (src dst : IVec S400000 32) :
    FVec Ideal S20000x128 .f32 := val_main_v77 (F := Ideal) x w src dst

/-! ## The two results as functions of the argument arrays -/

/-- First node type after the first layer and the rectifier. -/
def hidA (x0 : FVec Ideal S50000x128 .f32) (w2 : FVec Ideal S800000 .f32) (s5 d6 : IVec S800000 32)
    (W11 W12 : FVec Ideal S128x128 .f32) (b13 : FVec Ideal S128 .f32) : FVec Ideal S50000x128 .f32 :=
  relu50 (sage50 x0 (aggA x0 w2 s5 d6) W11 W12 b13)

/-- Second node type after the first layer and the rectifier. -/
def hidB (x0 : FVec Ideal S50000x128 .f32) (x1 : FVec Ideal S20000x128 .f32) (w3 : FVec Ideal S320000 .f32) (w4 : FVec Ideal S400000 .f32)
    (s7 d8 : IVec S320000 32) (s9 d10 : IVec S400000 32)
    (W14 W15 : FVec Ideal S128x128 .f32) (b16 : FVec Ideal S128 .f32) (W17 W18 : FVec Ideal S128x128 .f32) (b19 : FVec Ideal S128 .f32) :
    FVec Ideal S20000x128 .f32 :=
  relu20 (half20 (sage20 x1 (aggB x1 w3 s7 d8) W14 W15 b16) (sage20 x1 (aggC x0 w4 s9 d10) W17 W18 b19))

/-- The first result: the first node type after the second layer. -/
def netA (x0 : FVec Ideal S50000x128 .f32) (w2 : FVec Ideal S800000 .f32) (s5 d6 : IVec S800000 32)
    (W11 W12 : FVec Ideal S128x128 .f32) (b13 : FVec Ideal S128 .f32) (W20 W21 : FVec Ideal S128x128 .f32) (b22 : FVec Ideal S128 .f32) :
    FVec Ideal S50000x128 .f32 :=
  sage50 (hidA x0 w2 s5 d6 W11 W12 b13) (aggA (hidA x0 w2 s5 d6 W11 W12 b13) w2 s5 d6) W20 W21 b22

/-- The second result: the second node type after the second layer. -/
def netB (x0 : FVec Ideal S50000x128 .f32) (x1 : FVec Ideal S20000x128 .f32) (w2 : FVec Ideal S800000 .f32) (w3 : FVec Ideal S320000 .f32)
    (w4 : FVec Ideal S400000 .f32) (s5 d6 : IVec S800000 32) (s7 d8 : IVec S320000 32) (s9 d10 : IVec S400000 32)
    (W11 W12 : FVec Ideal S128x128 .f32) (b13 : FVec Ideal S128 .f32) (W14 W15 : FVec Ideal S128x128 .f32) (b16 : FVec Ideal S128 .f32)
    (W17 W18 : FVec Ideal S128x128 .f32) (b19 : FVec Ideal S128 .f32) (W23 W24 : FVec Ideal S128x128 .f32) (b25 : FVec Ideal S128 .f32)
    (W26 W27 : FVec Ideal S128x128 .f32) (b28 : FVec Ideal S128 .f32) : FVec Ideal S20000x128 .f32 :=
  half20
    (sage20 (hidB x0 x1 w3 w4 s7 d8 s9 d10 W14 W15 b16 W17 W18 b19)
      (aggB (hidB x0 x1 w3 w4 s7 d8 s9 d10 W14 W15 b16 W17 W18 b19) w3 s7 d8) W23 W24 b25)
    (sage20 (hidB x0 x1 w3 w4 s7 d8 s9 d10 W14 W15 b16 W17 W18 b19)
      (aggC (hidA x0 w2 s5 d6 W11 W12 b13) w4 s9 d10) W26 W27 b28)

/-- The reference's first result, stage by stage, is `netA` of its arguments: the same operations. -/
theorem ref_netA (x0 : FVec Ideal S50000x128 .f32) (w2 : FVec Ideal S800000 .f32) (s5 d6 : IVec S800000 32)
    (W11 W12 : FVec Ideal S128x128 .f32) (b13 : FVec Ideal S128 .f32) (W20 W21 : FVec Ideal S128x128 .f32) (b22 : FVec Ideal S128 .f32) :
    Cert.ReferenceIdeal.Read.val_main_v116 (F := Ideal) x0 w2 s5 d6 W11 W12 b13 W20 W21 b22 = netA x0 w2 s5 d6 W11 W12 b13 W20 W21 b22 := rfl

/-- The reference's second result, stage by stage, is `netB` of its arguments. -/
theorem ref_netB (x0 : FVec Ideal S50000x128 .f32) (x1 : FVec Ideal S20000x128 .f32) (w2 : FVec Ideal S800000 .f32) (w3 : FVec Ideal S320000 .f32)
    (w4 : FVec Ideal S400000 .f32) (s5 d6 : IVec S800000 32) (s7 d8 : IVec S320000 32) (s9 d10 : IVec S400000 32)
    (W11 W12 : FVec Ideal S128x128 .f32) (b13 : FVec Ideal S128 .f32) (W14 W15 : FVec Ideal S128x128 .f32) (b16 : FVec Ideal S128 .f32)
    (W17 W18 : FVec Ideal S128x128 .f32) (b19 : FVec Ideal S128 .f32) (W23 W24 : FVec Ideal S128x128 .f32) (b25 : FVec Ideal S128 .f32)
    (W26 W27 : FVec Ideal S128x128 .f32) (b28 : FVec Ideal S128 .f32) :
    Cert.ReferenceIdeal.Read.val_main_v175 (F := Ideal) x0 x1 w2 w3 w4 s5 d6 s7 d8 s9 d10 W11 W12 b13 W14 W15 b16 W17 W18 b19 W23 W24 b25 W26 W27 b28
      = netB x0 x1 w2 w3 w4 s5 d6 s7 d8 s9 d10 W11 W12 b13 W14 W15 b16 W17 W18 b19 W23 W24 b25 W26 W27 b28 := rfl

end Cert.Forms

end
-- ==== Proof.Region0.lean ====
/-
  Launch 0 of the program: the rectified dense step on the first node type, 5000 rows at a time.
  The grid has 10 points; point `t` reads rows `5000·t … 5000·t + 4999` of the node features and of the neighbour
  features, the whole of both weight matrices and of the bias row, and writes the same rows of the result. An entry
  `(r, q)` of the point's block is
      Σₖ x[5000·t + r, k]·Ws[k, q] + Σₖ n[5000·t + r, k]·Wn[k, q] + β[q], its maximum with zero taken,
  which depends on row `5000·t + r` of the features only: the block is the restriction of ONE function of the whole
  arrays, the host's dense step followed by the rectifier. The 10 blocks tile the 50000 rows, so the result array is that
  function of the arrays as the launch finds them.
-/
import proofs.«172717_j57543971832738_1_alg».proof.Proof.Gen.KernelIdeal.Frame
import proofs.«172717_j57543971832738_1_alg».proof.Proof.Forms

set_option maxRecDepth 16384

noncomputable section

namespace Cert.KernelIdeal.Blocks0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibSageDense Cert.LibDotPlain

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block product is a plain one: rows by columns. -/
theorem plainK : IsPlain dot_S5000x128_S128x128_S5000x128_1_0_0_1_n_n := ⟨rfl, rfl, rfl, rfl, rfl, rfl⟩

/-- The body's arithmetic at an entry of the block. -/
theorem pay_apply (x nb : Vec Ideal S5000x128 .f32) (ws wn : Vec Ideal S128x128 .f32) (β : Vec Ideal S128 .f32) (j : S5000x128.Idx) :
    k0_pay1 (F := Ideal) x nb ws wn β j = max (denseAt x nb ws wn β (j 0) (j 1)) Cert.Forms.zeroWord := by
  obtain ⟨r, q, rfl⟩ : ∃ (r : Fin 5000) (q : Fin 128), j = ix2 r q := ⟨j 0, j 1, eq_ix2 j⟩
  have e : k0_pay1 (F := Ideal) x nb ws wn β = maximumf (addf (addf (matmul dot_S5000x128_S128x128_S5000x128_1_0_0_1_n_n none (truncf .bf16 x bitsLt_bf16_f32) (truncf .bf16 ws bitsLt_bf16_f32) (constant (F := Ideal) S5000x128 .f32 0x00000000#32)) (matmul dot_S5000x128_S128x128_S5000x128_1_0_0_1_n_n none (truncf .bf16 (shapeCast S5000x128 nb shapeCasts_S5000x128_S5000x128) bitsLt_bf16_f32) (truncf .bf16 wn bitsLt_bf16_f32) (constant (F := Ideal) S5000x128 .f32 0x00000000#32))) (broadcastTo S5000x128 (shapeCast S1x128 β shapeCasts_S128_S1x128) broadcasts_S1x128_S5000x128)) (broadcast S5000x128 (Scalar.ofBits (F := Ideal) .f32 0x00000000#32)) := rfl
  rw [e, maximumf_apply, shapeCast_self, kernelDense_apply dot_S5000x128_S128x128_S5000x128_1_0_0_1_n_n plainK x nb ws wn β bitsLt_bf16_f32 shapeCasts_S128_S1x128 broadcasts_S1x128_S5000x128 r q]
  rfl

/-- Where each window's block sits at a point: the row blocks move with the point, the weights and the bias stay. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the host's dense step of the arrays as the launch finds them. -/
theorem flushed (c : Dev nD) (t : Fin cfg0.N) :
    (dat0 (F := Ideal) V c).flushed 5 t = ((cfg0.win 5).blk t).view.read (Elt Ideal)
      (Cert.Forms.relu50 (Cert.Forms.sage50 (V c main_arg0) (V c main_v21) (V c main_arg11) (V c main_arg12) (V c main_arg13))) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts t
  refine funext fun (j : S5000x128.Idx) => ?_
  obtain ⟨r, q, rfl⟩ : ∃ (r : Fin 5000) (q : Fin 128), j = ix2 r q := ⟨j 0, j 1, eq_ix2 j⟩
  show k0_pay1 (iblk0 V c 0 t) (iblk0 V c 1 t) (iblk0 V c 2 t) (iblk0 V c 3 t) (iblk0 V c 4 t) (ix2 r q)
      = (Cert.Forms.relu50 (Cert.Forms.sage50 (V c main_arg0) (V c main_v21) (V c main_arg11) (V c main_arg12) (V c main_arg13))) (((cfg0.win 5).blk t).view.emb (ix2 r q))
  refine (pay_apply (iblk0 V c 0 t) (iblk0 V c 1 t) (iblk0 V c 2 t) (iblk0 V c 3 t) (iblk0 V c 4 t) (ix2 r q)).trans ?_
  rw [Cert.Forms.relu50_apply, Cert.Forms.sage50_apply]
  refine congrArg (max · Cert.Forms.zeroWord) (denseAt_congr (iblk0 V c 0 t) (iblk0 V c 1 t) (iblk0 V c 2 t) (iblk0 V c 3 t) (iblk0 V c 4 t)
    (V c main_arg0) (V c main_v21) (V c main_arg11) (V c main_arg12) (V c main_arg13) r ((((cfg0.win 5).blk t).view.emb (ix2 r q)) 0) q ((((cfg0.win 5).blk t).view.emb (ix2 r q)) 1) ?_ ?_ ?_ ?_ ?_)
  · intro k
    show V c (Pipeline.arrRef spec0 0) (((cfg0.win 0).blk t).view.emb (ix2 r k)) = _
    refine congrArg (V c main_arg0) (funext fun a => Fin.ext ?_)
    match a with
    | ⟨0, _⟩ => show win0_0.index t (0 : Fin 2) * 5000 + 1 * r.val = win0_5.index t (0 : Fin 2) * 5000 + 1 * r.val; omega
    | ⟨1, _⟩ => show win0_0.index t (1 : Fin 2) * 128 + 1 * k.val = k.val; omega
  · intro k
    show V c (Pipeline.arrRef spec0 1) (((cfg0.win 1).blk t).view.emb (ix2 r k)) = _
    refine congrArg (V c main_v21) (funext fun a => Fin.ext ?_)
    match a with
    | ⟨0, _⟩ => show win0_1.index t (0 : Fin 2) * 5000 + 1 * r.val = win0_5.index t (0 : Fin 2) * 5000 + 1 * r.val; omega
    | ⟨1, _⟩ => show win0_1.index t (1 : Fin 2) * 128 + 1 * k.val = k.val; omega
  · intro k
    show V c (Pipeline.arrRef spec0 2) (((cfg0.win 2).blk t).view.emb (ix2 k q)) = _
    refine congrArg (V c main_arg11) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · intro k
    show V c (Pipeline.arrRef spec0 3) (((cfg0.win 3).blk t).view.emb (ix2 k q)) = _
    refine congrArg (V c main_arg12) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c (Pipeline.arrRef spec0 4) (((cfg0.win 4).blk t).view.emb (ix1 q)) = _
    refine congrArg (V c main_arg13) (funext fun a => Fin.ext ?_)
    match a with
    | ⟨0, _⟩ => show win0_4.index t (0 : Fin 1) * 128 + 1 * q.val = win0_5.index t (1 : Fin 2) * 128 + 1 * q.val; omega

/-- An index of the result array is in point `t`'s block iff its row is among the point's 5000 rows. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every row is some point's: row `i` belongs to point `i / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, -, -, -, e50, e51⟩ := idx_facts t
  refine ⟨t, flush0_5 t, (mem_blk t i).mpr fun a => ?_⟩
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the launch. -/
theorem out (c : Dev nD) : (dat0 (F := Ideal) V c).arrAt 5 cfg0.N = Cert.Forms.relu50 (Cert.Forms.sage50 (V c main_arg0) (V c main_v21) (V c main_arg11) (V c main_arg12) (V c main_arg13)) :=
  (dat0 V c).arrAt_eq_of_cover 5 _ (fun t _ => flushed V c t) cover

end Cert.KernelIdeal.Blocks0

end
-- ==== Proof.Region1.lean ====
/-
  Launch 1 of the program: the dense step on the second node type, 4000 rows at a time.
  The grid has 5 points; point `t` reads rows `4000·t … 4000·t + 3999` of the node features and of the neighbour
  features, the whole of both weight matrices and of the bias row, and writes the same rows of the result. An entry
  `(r, q)` of the point's block is
      Σₖ x[4000·t + r, k]·Ws[k, q] + Σₖ n[4000·t + r, k]·Wn[k, q] + β[q]
  which depends on row `4000·t + r` of the features only: the block is the restriction of ONE function of the whole
  arrays, the host's dense step. The 5 blocks tile the 20000 rows, so the result array is that
  function of the arrays as the launch finds them.
-/
import proofs.«172717_j57543971832738_1_alg».proof.Proof.Gen.KernelIdeal.Frame
import proofs.«172717_j57543971832738_1_alg».proof.Proof.Forms

set_option maxRecDepth 16384

noncomputable section

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibSageDense Cert.LibDotPlain

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block product is a plain one: rows by columns. -/
theorem plainK : IsPlain dot_S4000x128_S128x128_S4000x128_1_0_0_1_n_n := ⟨rfl, rfl, rfl, rfl, rfl, rfl⟩

/-- The body's arithmetic at an entry of the block. -/
theorem pay_apply (x nb : Vec Ideal S4000x128 .f32) (ws wn : Vec Ideal S128x128 .f32) (β : Vec Ideal S128 .f32) (j : S4000x128.Idx) :
    k1_pay1 (F := Ideal) x nb ws wn β j = denseAt x nb ws wn β (j 0) (j 1) := by
  obtain ⟨r, q, rfl⟩ : ∃ (r : Fin 4000) (q : Fin 128), j = ix2 r q := ⟨j 0, j 1, eq_ix2 j⟩
  have e : k1_pay1 (F := Ideal) x nb ws wn β = addf (addf (matmul dot_S4000x128_S128x128_S4000x128_1_0_0_1_n_n none (truncf .bf16 x bitsLt_bf16_f32) (truncf .bf16 ws bitsLt_bf16_f32) (constant (F := Ideal) S4000x128 .f32 0x00000000#32)) (matmul dot_S4000x128_S128x128_S4000x128_1_0_0_1_n_n none (truncf .bf16 (shapeCast S4000x128 nb shapeCasts_S4000x128_S4000x128) bitsLt_bf16_f32) (truncf .bf16 wn bitsLt_bf16_f32) (constant (F := Ideal) S4000x128 .f32 0x00000000#32))) (broadcastTo S4000x128 (shapeCast S1x128 β shapeCasts_S128_S1x128) broadcasts_S1x128_S4000x128) := rfl
  rw [e, shapeCast_self, kernelDense_apply dot_S4000x128_S128x128_S4000x128_1_0_0_1_n_n plainK x nb ws wn β bitsLt_bf16_f32 shapeCasts_S128_S1x128 broadcasts_S1x128_S4000x128 r q]

/-- Where each window's block sits at a point: the row blocks move with the point, the weights and the bias stay. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the host's dense step of the arrays as the launch finds them. -/
theorem flushed (c : Dev nD) (t : Fin cfg1.N) :
    (dat1 (F := Ideal) V c).flushed 5 t = ((cfg1.win 5).blk t).view.read (Elt Ideal)
      (Cert.Forms.sage20 (V c main_arg1) (V c main_v44) (V c main_arg14) (V c main_arg15) (V c main_arg16)) := by
  show (cfg1.win 5).cut (grid1.coords t) ((dat1 V c).after 5 t) = _
  rw [after1_5]
  unfold out1_5
  rw [View.canon_unit_zero hz2]
  simp only [View.ld_unit_zero (S := S4000x128) hz2, View.ld_unit_zero (S := S128x128) hz2, View.ld_unit_zero (S := S128) hz1]
  obtain ⟨e00, e01, e10, e11, e20, e21, e30, e31, e40, e50, e51⟩ := idx_facts t
  refine funext fun (j : S4000x128.Idx) => ?_
  obtain ⟨r, q, rfl⟩ : ∃ (r : Fin 4000) (q : Fin 128), j = ix2 r q := ⟨j 0, j 1, eq_ix2 j⟩
  show k1_pay1 (iblk1 V c 0 t) (iblk1 V c 1 t) (iblk1 V c 2 t) (iblk1 V c 3 t) (iblk1 V c 4 t) (ix2 r q)
      = (Cert.Forms.sage20 (V c main_arg1) (V c main_v44) (V c main_arg14) (V c main_arg15) (V c main_arg16)) (((cfg1.win 5).blk t).view.emb (ix2 r q))
  refine (pay_apply (iblk1 V c 0 t) (iblk1 V c 1 t) (iblk1 V c 2 t) (iblk1 V c 3 t) (iblk1 V c 4 t) (ix2 r q)).trans ?_
  rw [Cert.Forms.sage20_apply]
  refine (denseAt_congr (iblk1 V c 0 t) (iblk1 V c 1 t) (iblk1 V c 2 t) (iblk1 V c 3 t) (iblk1 V c 4 t)
    (V c main_arg1) (V c main_v44) (V c main_arg14) (V c main_arg15) (V c main_arg16) r ((((cfg1.win 5).blk t).view.emb (ix2 r q)) 0) q ((((cfg1.win 5).blk t).view.emb (ix2 r q)) 1) ?_ ?_ ?_ ?_ ?_)
  · intro k
    show V c (Pipeline.arrRef spec1 0) (((cfg1.win 0).blk t).view.emb (ix2 r k)) = _
    refine congrArg (V c main_arg1) (funext fun a => Fin.ext ?_)
    match a with
    | ⟨0, _⟩ => show win1_0.index t (0 : Fin 2) * 4000 + 1 * r.val = win1_5.index t (0 : Fin 2) * 4000 + 1 * r.val; omega
    | ⟨1, _⟩ => show win1_0.index t (1 : Fin 2) * 128 + 1 * k.val = k.val; omega
  · intro k
    show V c (Pipeline.arrRef spec1 1) (((cfg1.win 1).blk t).view.emb (ix2 r k)) = _
    refine congrArg (V c main_v44) (funext fun a => Fin.ext ?_)
    match a with
    | ⟨0, _⟩ => show win1_1.index t (0 : Fin 2) * 4000 + 1 * r.val = win1_5.index t (0 : Fin 2) * 4000 + 1 * r.val; omega
    | ⟨1, _⟩ => show win1_1.index t (1 : Fin 2) * 128 + 1 * k.val = k.val; omega
  · intro k
    show V c (Pipeline.arrRef spec1 2) (((cfg1.win 2).blk t).view.emb (ix2 k q)) = _
    refine congrArg (V c main_arg14) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · intro k
    show V c (Pipeline.arrRef spec1 3) (((cfg1.win 3).blk t).view.emb (ix2 k q)) = _
    refine congrArg (V c main_arg15) (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · show V c (Pipeline.arrRef spec1 4) (((cfg1.win 4).blk t).view.emb (ix1 q)) = _
    refine congrArg (V c main_arg16) (funext fun a => Fin.ext ?_)
    match a with
    | ⟨0, _⟩ => show win1_4.index t (0 : Fin 1) * 128 + 1 * q.val = win1_5.index t (1 : Fin 2) * 128 + 1 * q.val; omega

/-- An index of the result array is in point `t`'s block iff its row is among the point's 4000 rows. -/
theorem mem_blk (t : Fin cfg1.N) (i : S20000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v45).slice (win1_5.rect t)).set ↔ _
  rw [View.set_slice_whole, Rect.mem_set_unit]
  exact Iff.rfl

/-- Every row is some point's: row `i` belongs to point `i / 4000`. -/
theorem cover (i : S20000x128.Idx) : ∃ t : Fin cfg1.N, (cfg1.win 5).flush t = true ∧ i ∈ ((cfg1.win 5).blk t).view.set := by
  have hi0 : (i 0).val < 20000 := (i 0).isLt
  have hi1 : (i 1).val < 128 := (i 1).isLt
  obtain ⟨t, ht⟩ : ∃ t : Fin cfg1.N, t.val = (i 0).val / 4000 :=
    ⟨⟨(i 0).val / 4000, by show (i 0).val / 4000 < grid1.N; rw [N_1]; omega⟩, rfl⟩
  obtain ⟨-, -, -, -, -, -, -, -, -, e50, e51⟩ := idx_facts t
  refine ⟨t, flush1_5 t, (mem_blk t i).mpr fun a => ?_⟩
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- The result array after the launch. -/
theorem out (c : Dev nD) : (dat1 (F := Ideal) V c).arrAt 5 cfg1.N = Cert.Forms.sage20 (V c main_arg1) (V c main_v44) (V c main_arg14) (V c main_arg15) (V c main_arg16) :=
  (dat1 V c).arrAt_eq_of_cover 5 _ (fun t _ => flushed V c t) cover

end Cert.KernelIdeal.Blocks1

end
-- ==== Proof.Region2.lean ====
/-
  Launch 2 of the program: the dense step on the second node type, 4000 rows at a time.
  The grid has 5 points; point `t` reads rows `4000·t … 4000·t + 3999` of the node features and of the neighbour
  features, the whole of both weight matrices and of the bias row, and writes the same rows of the result. An entry
  `(r, q)` of the point's block is
      Σₖ x[4000·t + r, k]·Ws[k, q] + Σₖ n[4000·t + r, k]·Wn[k, q] + β[q]
  which depends on row `4000·t + r` of the features only: the block is the restriction of ONE function of the whole
  arrays, the host's dense step. The 5 blocks tile the 20000 rows, so the result array is that
  function of the arrays as the launch finds them.
-/
import proofs.«172717_j57543971832738_1_alg».proof.Proof.Gen.KernelIdeal.Frame
import proofs.«172717_j57543971832738_1_alg».proof.Proof.Forms

set_option maxRecDepth 16384

noncomputable section

namespace Cert.KernelIdeal.Blocks2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibSageDense Cert.LibDotPlain

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block product is a plain one: rows by columns. -/
theorem plainK : IsPlain dot_S4000x128_S128x128_S4000x128_1_0_0_1_n_n := ⟨rfl, rfl, rfl, rfl, rfl, rfl⟩

/-- The body's arithmetic at an entry of the block. -/
theorem pay_apply (x nb : Vec Ideal S4000x128 .f32) (ws wn : Vec Ideal S128x128 .f32) (β : Vec Ideal S128 .f32) (j : S4000x128.Idx) :
    k2_pay1 (F := Ideal) x nb ws wn β j = denseAt x nb ws wn β (j 0) (j 1) := by
  obtain ⟨r, q, rfl⟩ : ∃ (r : Fin 4000) (q : Fin 128), j = ix2 r q := ⟨j 0, j 1, eq_ix2 j⟩
  have e : k2_pay1 (F := Ideal) x nb ws wn β = addf (addf (matmul dot_S4000x128_S128x128_S4000x128_1_0_0_1_n_n none (truncf .bf16 x bitsLt_bf16_f32) (truncf .bf16 ws bitsLt_bf16_f32) (constant (F := Ideal) S4000x128 .f32 0x00000000#32)) (matmul dot_S4000x128_S128x128_S4000x128_1_0_0_1_n_n none (truncf .bf16 (shapeCast S4000x128 nb shapeCasts_S4000x128_S4000x128) bitsLt_bf16_f32) (truncf .bf16 wn bitsLt_bf16_f32) (constant (F := Ideal) S4000x128 .f32 0x00000000#32))) (broadcastTo S4000x128 (shapeCast S1x128 β shapeCasts_S128_S1x128) broadcasts_S1x128_S4000x128) := rfl
  rw [e, shapeCast_self, kernelDense_apply dot_S4000x128_S128x128_S4000x128_1_0_0_1_n_n plainK x nb ws wn β bitsLt_bf16_f32 shapeCasts_S128_S1x128 broadcasts_S1x128_S4000x128 r q]

/-- Where each window's block sits at a point: the row blocks move with the point, the weights and the bias stay. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- What point `t` writes back is block `t` of the host's dense step of the arrays as the launch finds them. -/
theorem flushed (c : Dev nD) (t : Fin cfg2.N) :
    (dat2 (F := Ideal) V c).flushed 5 t = ((cfg2.win 5).blk t).view.read (Elt Ideal)
      (Cert.Forms.sage20 (V c main_arg1) (V c main_v67) (V c main_arg17) (V c main_arg18) (V c main_arg19)) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S128x128) hz2, View.ld_unit_zero (S := S128) hz1]
  obtain ⟨e00, e01, e10, e11, e20, e21, e30, e31, e40, e50, e51⟩ := idx_facts t
  refine funext fun (j : S4000x128.Idx) => ?_
  obtain ⟨r, q, rfl⟩ : ∃ (r : Fin 4000) (q : Fin 128), j = ix2 r q := ⟨j 0, j 1, eq_ix2 j⟩
  show k2_pay1 (iblk2 V c 0 t) (iblk2 V c 1 t) (iblk2 V c 2 t) (iblk2 V c 3 t) (iblk2 V c 4 t) (ix2 r q)
      = (Cert.Forms.sage20 (V c main_arg1) (V c main_v67) (V c main_arg17) (V c main_arg18) (V c main_arg19)) (((cfg2.win 5).blk t).view.emb (ix2 r q))
  refine (pay_apply (iblk2 V c 0 t) (iblk2 V c 1 t) (iblk2 V c 2 t) (iblk2 V c 3 t) (iblk2 V c 4 t) (ix2 r q)).trans ?_
  rw [Cert.Forms.sage20_apply]
  refine (denseAt_congr (iblk2 V c 0 t) (iblk2 V c 1 t) (iblk2 V c 2 t) (iblk2 V c 3 t) (iblk2 V c 4 t)
    (V c main_arg1) (V c main_v67) (V c main_arg17) (V c main_arg18) (V c main_arg19) r ((((cfg2.win 5).blk t).view.emb (ix2 r q)) 0) q ((((cfg2.win 5).blk t).view.emb (ix2 r q)) 1) ?_ ?_ ?_ ?_ ?_)
  · intro k
    show V c (Pipeline.arrRef spec2 0) (((cfg2.win 0).blk t).view.emb (ix2 r k)) = _
    refine congrArg (V c main_arg1) (funext fun a => Fin.ext ?_)
    match a with
    | ⟨0, _⟩ => show win2_0.index t (0 : Fin 2) * 4000 + 1 * r.val = win2_5.index t (0 : Fin 2) * 4000 + 1 * r.val; omega
    | ⟨1, _⟩ => show win2_0.index t (1 : Fin 2) * 128 + 1 * k.val = k.val; omega
  · intro k
    show V c (Pipeline.arrRef spec2 1) (((cfg2.win 1).blk t).view.emb (ix2 r k)) = _
    refine congrArg (V c main_v67) (funext fun a => Fin.ext ?_)
    match a with
    | ⟨0, _⟩ => show win2_1.index t (0 : Fin 2) * 4000 + 1 * r.val = win2_5.index t (0 : Fin 2) * 4000 + 1 * r.val; omega
    | ⟨1, _⟩ => show win2_1.index t (1 : Fin 2) * 128 + 1 * k.val = k.val; omega
  · intro k
    show V c (Pipeline.arrRef spec2 2) (((cfg2.win 2).blk t).view.emb (ix2 k q)) = _
    refine congrArg (V c main_arg17) (funext fun a => Fin.ext ?_)
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  · intro k
    show V c (Pipeline.arrRef spec2 3) (((cfg2.win 3).blk t).view.emb (ix2 k q)) = _
    refine congrArg (V c main_arg18) (funext fun a => Fin.ext ?_)
    match a with
    | ⟨0, _⟩ => show win2_3.index t (0 : Fin 2) * 128 + 1 * k.val = k.val; omega
    | ⟨1, _⟩ => show win2_3.index t (1 : Fin 2) * 128 + 1 * q.val = win2_5.index t (1 : Fin 2) * 128 + 1 * q.val; omega
  · show V c (Pipeline.arrRef spec2 4) (((cfg2.win 4).blk t).view.emb (ix1 q)) = _
    refine congrArg (V c main_arg19) (funext fun a => Fin.ext ?_)
    match a with
    | ⟨0, _⟩ => show win2_4.index t (0 : Fin 1) * 128 + 1 * q.val = win2_5.index t (1 : Fin 2) * 128 + 1 * q.val; omega

/-- An index of the result array is in point `t`'s block iff its row is among the point's 4000 rows. -/
theorem mem_blk (t : Fin cfg2.N) (i : S20000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v68).slice (win2_5.rect t)).set ↔ _
  rw [View.set_slice_whole, Rect.mem_set_unit]
  exact Iff.rfl

/-- Every row is some point's: row `i` belongs to point `i / 4000`. -/
theorem cover (i : S20000x128.Idx) : ∃ t : Fin cfg2.N, (cfg2.win 5).flush t = true ∧ i ∈ ((cfg2.win 5).blk t).view.set := by
  have hi0 : (i 0).val < 20000 := (i 0).isLt
  have hi1 : (i 1).val < 128 := (i 1).isLt
  obtain ⟨t, ht⟩ : ∃ t : Fin cfg2.N, t.val = (i 0).val / 4000 :=
    ⟨⟨(i 0).val / 4000, by show (i 0).val / 4000 < grid2.N; rw [N_2]; omega⟩, rfl⟩
  obtain ⟨-, -, -, -, -, -, -, -, -, e50, e51⟩ := idx_facts t
  refine ⟨t, flush2_5 t, (mem_blk t i).mpr fun a => ?_⟩
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- The result array after the launch. -/
theorem out (c : Dev nD) : (dat2 (F := Ideal) V c).arrAt 5 cfg2.N = Cert.Forms.sage20 (V c main_arg1) (V c main_v67) (V c main_arg17) (V c main_arg18) (V c main_arg19) :=
  (dat2 V c).arrAt_eq_of_cover 5 _ (fun t _ => flushed V c t) cover

end Cert.KernelIdeal.Blocks2

end
-- ==== Proof.Region3.lean ====
/-
  Launch 3 of the program: the half sum of the second node type's two edge types, rectified, 4000 rows at a time.
  The grid has 5 points; point `t` reads rows `4000·t … 4000·t + 3999` of both operands and writes the same rows of the
  result, entry by entry `½·(u + v)` and then its maximum with zero: the block is the restriction of one entrywise function of the
  whole arrays, and the 5 blocks tile the 20000 rows.
-/
import proofs.«172717_j57543971832738_1_alg».proof.Proof.Gen.KernelIdeal.Frame
import proofs.«172717_j57543971832738_1_alg».proof.Proof.Forms

set_option maxRecDepth 16384

noncomputable section

namespace Cert.KernelIdeal.Blocks3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at an entry of the block. -/
theorem pay_apply (u v : Vec Ideal S4000x128 .f32) (j : S4000x128.Idx) :
    k3_pay1 (F := Ideal) u v j = max (Cert.Forms.halfWord * (u j + v j)) Cert.Forms.zeroWord := by
  have e : k3_pay1 (F := Ideal) u v = maximumf (mulf (broadcast S4000x128 (Scalar.ofBits (F := Ideal) .f32 0x3F000000#32)) (addf (shapeCast S4000x128 u shapeCasts_S4000x128_S4000x128) (shapeCast S4000x128 v shapeCasts_S4000x128_S4000x128))) (broadcast S4000x128 (Scalar.ofBits (F := Ideal) .f32 0x00000000#32)) := rfl
  rw [e, shapeCast_self, shapeCast_self]
  rfl

/-- Where each window's block sits at a point: all three move with the point. -/
theorem idx_facts : ∀ t : Fin cfg3.N,
    win3_0.index t (0 : Fin 2) = win3_2.index t (0 : Fin 2) ∧ win3_0.index t (1 : Fin 2) = win3_2.index t (1 : Fin 2)
    ∧ win3_1.index t (0 : Fin 2) = win3_2.index t (0 : Fin 2) ∧ win3_1.index t (1 : Fin 2) = win3_2.index t (1 : Fin 2)
    ∧ win3_2.index t (0 : Fin 2) = t.val ∧ win3_2.index t (1 : Fin 2) = 0 :=
  (by decide +kernel : ∀ t : Fin grid3.N, _)

/-- What point `t` writes back is block `t` of the half sum of the arrays as the launch finds them. -/
theorem flushed (c : Dev nD) (t : Fin cfg3.N) :
    (dat3 (F := Ideal) V c).flushed 2 t = ((cfg3.win 2).blk t).view.read (Elt Ideal)
      (Cert.Forms.relu20 (Cert.Forms.half20 (V c main_v45) (V c main_v68))) := by
  show (cfg3.win 2).cut (grid3.coords t) ((dat3 V c).after 2 t) = _
  rw [after3_2]
  unfold out3_2
  rw [View.canon_unit_zero hz2]
  simp only [View.ld_unit_zero (S := S4000x128) hz2]
  obtain ⟨e00, e01, e10, e11, e20, e21⟩ := idx_facts t
  refine funext fun (j : S4000x128.Idx) => ?_
  show k3_pay1 (iblk3 V c 0 t) (iblk3 V c 1 t) j
      = (Cert.Forms.relu20 (Cert.Forms.half20 (V c main_v45) (V c main_v68))) (((cfg3.win 2).blk t).view.emb j)
  refine (pay_apply (iblk3 V c 0 t) (iblk3 V c 1 t) j).trans ?_
  rw [Cert.Forms.relu20_apply, Cert.Forms.half20_apply]
  have hj0 : (j 0).val < 4000 := (j 0).isLt
  have hj1 : (j 1).val < 128 := (j 1).isLt
  have h0 : iblk3 V c 0 t j = V c main_v45 (((cfg3.win 2).blk t).view.emb j) := by
    show V c (Pipeline.arrRef spec3 0) (((cfg3.win 0).blk t).view.emb j) = _
    refine congrArg (V c main_v45) (funext fun a => Fin.ext ?_)
    match a with
    | ⟨0, _⟩ => show win3_0.index t (0 : Fin 2) * 4000 + 1 * (j 0).val = win3_2.index t (0 : Fin 2) * 4000 + 1 * (j 0).val; omega
    | ⟨1, _⟩ => show win3_0.index t (1 : Fin 2) * 128 + 1 * (j 1).val = win3_2.index t (1 : Fin 2) * 128 + 1 * (j 1).val; omega
  have h1 : iblk3 V c 1 t j = V c main_v68 (((cfg3.win 2).blk t).view.emb j) := by
    show V c (Pipeline.arrRef spec3 1) (((cfg3.win 1).blk t).view.emb j) = _
    refine congrArg (V c main_v68) (funext fun a => Fin.ext ?_)
    match a with
    | ⟨0, _⟩ => show win3_1.index t (0 : Fin 2) * 4000 + 1 * (j 0).val = win3_2.index t (0 : Fin 2) * 4000 + 1 * (j 0).val; omega
    | ⟨1, _⟩ => show win3_1.index t (1 : Fin 2) * 128 + 1 * (j 1).val = win3_2.index t (1 : Fin 2) * 128 + 1 * (j 1).val; omega
  rw [h0, h1]

/-- An index of the result array is in point `t`'s block iff its row is among the point's 4000 rows. -/
theorem mem_blk (t : Fin cfg3.N) (i : S20000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v69).slice (win3_2.rect t)).set ↔ _
  rw [View.set_slice_whole, Rect.mem_set_unit]
  exact Iff.rfl

/-- Every row is some point's: row `i` belongs to point `i / 4000`. -/
theorem cover (i : S20000x128.Idx) : ∃ t : Fin cfg3.N, (cfg3.win 2).flush t = true ∧ i ∈ ((cfg3.win 2).blk t).view.set := by
  have hi0 : (i 0).val < 20000 := (i 0).isLt
  have hi1 : (i 1).val < 128 := (i 1).isLt
  obtain ⟨t, ht⟩ : ∃ t : Fin cfg3.N, t.val = (i 0).val / 4000 :=
    ⟨⟨(i 0).val / 4000, by show (i 0).val / 4000 < grid3.N; rw [N_3]; omega⟩, rfl⟩
  obtain ⟨-, -, -, -, e20, e21⟩ := idx_facts t
  refine ⟨t, flush3_2 t, (mem_blk t i).mpr fun a => ?_⟩
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 128 ≤ (i 1).val ∧ (i 1).val < win3_2.index t (1 : Fin 2) * 128 + 128; omega

/-- The result array after the launch. -/
theorem out (c : Dev nD) : (dat3 (F := Ideal) V c).arrAt 2 cfg3.N = Cert.Forms.relu20 (Cert.Forms.half20 (V c main_v45) (V c main_v68)) :=
  (dat3 V c).arrAt_eq_of_cover 2 _ (fun t _ => flushed V c t) cover

end Cert.KernelIdeal.Blocks3

end
-- ==== Proof.Region4.lean ====
/-
  Launch 4 of the program: the dense step on the first node type, 5000 rows at a time.
  The grid has 10 points; point `t` reads rows `5000·t … 5000·t + 4999` of the node features and of the neighbour
  features, the whole of both weight matrices and of the bias row, and writes the same rows of the result. An entry
  `(r, q)` of the point's block is
      Σₖ x[5000·t + r, k]·Ws[k, q] + Σₖ n[5000·t + r, k]·Wn[k, q] + β[q]
  which depends on row `5000·t + r` of the features only: the block is the restriction of ONE function of the whole
  arrays, the host's dense step. The 10 blocks tile the 50000 rows, so the result array is that
  function of the arrays as the launch finds them.
-/
import proofs.«172717_j57543971832738_1_alg».proof.Proof.Gen.KernelIdeal.Frame
import proofs.«172717_j57543971832738_1_alg».proof.Proof.Forms

set_option maxRecDepth 16384

noncomputable section

namespace Cert.KernelIdeal.Blocks4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibSageDense Cert.LibDotPlain

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block product is a plain one: rows by columns. -/
theorem plainK : IsPlain dot_S5000x128_S128x128_S5000x128_1_0_0_1_n_n := ⟨rfl, rfl, rfl, rfl, rfl, rfl⟩

/-- The body's arithmetic at an entry of the block. -/
theorem pay_apply (x nb : Vec Ideal S5000x128 .f32) (ws wn : Vec Ideal S128x128 .f32) (β : Vec Ideal S128 .f32) (j : S5000x128.Idx) :
    k4_pay1 (F := Ideal) x nb ws wn β j = denseAt x nb ws wn β (j 0) (j 1) := by
  obtain ⟨r, q, rfl⟩ : ∃ (r : Fin 5000) (q : Fin 128), j = ix2 r q := ⟨j 0, j 1, eq_ix2 j⟩
  have e : k4_pay1 (F := Ideal) x nb ws wn β = addf (addf (matmul dot_S5000x128_S128x128_S5000x128_1_0_0_1_n_n none (truncf .bf16 (shapeCast S5000x128 x shapeCasts_S5000x128_S5000x128) bitsLt_bf16_f32) (truncf .bf16 ws bitsLt_bf16_f32) (constant (F := Ideal) S5000x128 .f32 0x00000000#32)) (matmul dot_S5000x128_S128x128_S5000x128_1_0_0_1_n_n none (truncf .bf16 (shapeCast S5000x128 nb shapeCasts_S5000x128_S5000x128) bitsLt_bf16_f32) (truncf .bf16 wn bitsLt_bf16_f32) (constant (F := Ideal) S5000x128 .f32 0x00000000#32))) (broadcastTo S5000x128 (shapeCast S1x128 β shapeCasts_S128_S1x128) broadcasts_S1x128_S5000x128) := rfl
  rw [e, shapeCast_self, shapeCast_self, kernelDense_apply dot_S5000x128_S128x128_S5000x128_1_0_0_1_n_n plainK x nb ws wn β bitsLt_bf16_f32 shapeCasts_S128_S1x128 broadcasts_S1x128_S5000x128 r q]

/-- Where each window's block sits at a point: the row blocks move with the point, the weights and the bias stay. -/
theorem idx_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- What point `t` writes back is block `t` of the host's dense step of the arrays as the launch finds them. -/
theorem flushed (c : Dev nD) (t : Fin cfg4.N) :
    (dat4 (F := Ideal) V c).flushed 5 t = ((cfg4.win 5).blk t).view.read (Elt Ideal)
      (Cert.Forms.sage50 (V c main_v22) (V c main_v91) (V c main_arg20) (V c main_arg21) (V c main_arg22)) := by
  show (cfg4.win 5).cut (grid4.coords t) ((dat4 V c).after 5 t) = _
  rw [after4_5]
  unfold out4_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts t
  refine funext fun (j : S5000x128.Idx) => ?_
  obtain ⟨r, q, rfl⟩ : ∃ (r : Fin 5000) (q : Fin 128), j = ix2 r q := ⟨j 0, j 1, eq_ix2 j⟩
  show k4_pay1 (iblk4 V c 0 t) (iblk4 V c 1 t) (iblk4 V c 2 t) (iblk4 V c 3 t) (iblk4 V c 4 t) (ix2 r q)
      = (Cert.Forms.sage50 (V c main_v22) (V c main_v91) (V c main_arg20) (V c main_arg21) (V c main_arg22)) (((cfg4.win 5).blk t).view.emb (ix2 r q))
  refine (pay_apply (iblk4 V c 0 t) (iblk4 V c 1 t) (iblk4 V c 2 t) (iblk4 V c 3 t) (iblk4 V c 4 t) (ix2 r q)).trans ?_
  rw [Cert.Forms.sage50_apply]
  refine (denseAt_congr (iblk4 V c 0 t) (iblk4 V c 1 t) (iblk4 V c 2 t) (iblk4 V c 3 t) (iblk4 V c 4 t)
    (V c main_v22) (V c main_v91) (V c main_arg20) (V c main_arg21) (V c main_arg22) r ((((cfg4.win 5).blk t).view.emb (ix2 r q)) 0) q ((((cfg4.win 5).blk t).view.emb (ix2 r q)) 1) ?_ ?_ ?_ ?_ ?_)
  · intro k
    show V c (Pipeline.arrRef spec4 0) (((cfg4.win 0).blk t).view.emb (ix2 r k)) = _
    refine congrArg (V c main_v22) (funext fun a => Fin.ext ?_)
    match a with
    | ⟨0, _⟩ => show win4_0.index t (0 : Fin 2) * 5000 + 1 * r.val = win4_5.index t (0 : Fin 2) * 5000 + 1 * r.val; omega
    | ⟨1, _⟩ => show win4_0.index t (1 : Fin 2) * 128 + 1 * k.val = k.val; omega
  · intro k
    show V c (Pipeline.arrRef spec4 1) (((cfg4.win 1).blk t).view.emb (ix2 r k)) = _
    refine congrArg (V c main_v91) (funext fun a => Fin.ext ?_)
    match a with
    | ⟨0, _⟩ => show win4_1.index t (0 : Fin 2) * 5000 + 1 * r.val = win4_5.index t (0 : Fin 2) * 5000 + 1 * r.val; omega
    | ⟨1, _⟩ => show win4_1.index t (1 : Fin 2) * 128 + 1 * k.val = k.val; omega
  · intro k
    show V c (Pipeline.arrRef spec4 2) (((cfg4.win 2).blk t).view.emb (ix2 k q)) = _
    refine congrArg (V c main_arg20) (funext fun a => Fin.ext ?_)
    match a with
    | ⟨0, _⟩ => show win4_2.index t (0 : Fin 2) * 128 + 1 * k.val = k.val; omega
    | ⟨1, _⟩ => show win4_2.index t (1 : Fin 2) * 128 + 1 * q.val = win4_5.index t (1 : Fin 2) * 128 + 1 * q.val; omega
  · intro k
    show V c (Pipeline.arrRef spec4 3) (((cfg4.win 3).blk t).view.emb (ix2 k q)) = _
    refine congrArg (V c main_arg21) (funext fun a => Fin.ext ?_)
    match a with
    | ⟨0, _⟩ => show win4_3.index t (0 : Fin 2) * 128 + 1 * k.val = k.val; omega
    | ⟨1, _⟩ => show win4_3.index t (1 : Fin 2) * 128 + 1 * q.val = win4_5.index t (1 : Fin 2) * 128 + 1 * q.val; omega
  · show V c (Pipeline.arrRef spec4 4) (((cfg4.win 4).blk t).view.emb (ix1 q)) = _
    refine congrArg (V c main_arg22) (funext fun a => Fin.ext ?_)
    match a with
    | ⟨0, _⟩ => show win4_4.index t (0 : Fin 1) * 128 + 1 * q.val = win4_5.index t (1 : Fin 2) * 128 + 1 * q.val; omega

/-- An index of the result array is in point `t`'s block iff its row is among the point's 5000 rows. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v92).slice (win4_5.rect t)).set ↔ _
  rw [View.set_slice_whole, Rect.mem_set_unit]
  exact Iff.rfl

/-- Every row is some point's: row `i` belongs to point `i / 5000`. -/
theorem cover (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by show (i 0).val / 5000 < grid4.N; rw [N_4]; omega⟩, rfl⟩
  obtain ⟨-, -, -, -, -, -, -, -, -, e50, e51⟩ := idx_facts t
  refine ⟨t, flush4_5 t, (mem_blk t i).mpr fun a => ?_⟩
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The result array after the launch. -/
theorem out (c : Dev nD) : (dat4 (F := Ideal) V c).arrAt 5 cfg4.N = Cert.Forms.sage50 (V c main_v22) (V c main_v91) (V c main_arg20) (V c main_arg21) (V c main_arg22) :=
  (dat4 V c).arrAt_eq_of_cover 5 _ (fun t _ => flushed V c t) cover

end Cert.KernelIdeal.Blocks4

end
-- ==== Proof.Region5.lean ====
/-
  Launch 5 of the program: the dense step on the second node type, 4000 rows at a time.
  The grid has 5 points; point `t` reads rows `4000·t … 4000·t + 3999` of the node features and of the neighbour
  features, the whole of both weight matrices and of the bias row, and writes the same rows of the result. An entry
  `(r, q)` of the point's block is
      Σₖ x[4000·t + r, k]·Ws[k, q] + Σₖ n[4000·t + r, k]·Wn[k, q] + β[q]
  which depends on row `4000·t + r` of the features only: the block is the restriction of ONE function of the whole
  arrays, the host's dense step. The 5 blocks tile the 20000 rows, so the result array is that
  function of the arrays as the launch finds them.
-/
import proofs.«172717_j57543971832738_1_alg».proof.Proof.Gen.KernelIdeal.Frame
import proofs.«172717_j57543971832738_1_alg».proof.Proof.Forms

set_option maxRecDepth 16384

noncomputable section

namespace Cert.KernelIdeal.Blocks5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibSageDense Cert.LibDotPlain

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block product is a plain one: rows by columns. -/
theorem plainK : IsPlain dot_S4000x128_S128x128_S4000x128_1_0_0_1_n_n := ⟨rfl, rfl, rfl, rfl, rfl, rfl⟩

/-- The body's arithmetic at an entry of the block. -/
theorem pay_apply (x nb : Vec Ideal S4000x128 .f32) (ws wn : Vec Ideal S128x128 .f32) (β : Vec Ideal S128 .f32) (j : S4000x128.Idx) :
    k5_pay1 (F := Ideal) x nb ws wn β j = denseAt x nb ws wn β (j 0) (j 1) := by
  obtain ⟨r, q, rfl⟩ : ∃ (r : Fin 4000) (q : Fin 128), j = ix2 r q := ⟨j 0, j 1, eq_ix2 j⟩
  have e : k5_pay1 (F := Ideal) x nb ws wn β = addf (addf (matmul dot_S4000x128_S128x128_S4000x128_1_0_0_1_n_n none (truncf .bf16 (shapeCast S4000x128 x shapeCasts_S4000x128_S4000x128) bitsLt_bf16_f32) (truncf .bf16 ws bitsLt_bf16_f32) (constant (F := Ideal) S4000x128 .f32 0x00000000#32)) (matmul dot_S4000x128_S128x128_S4000x128_1_0_0_1_n_n none (truncf .bf16 (shapeCast S4000x128 nb shapeCasts_S4000x128_S4000x128) bitsLt_bf16_f32) (truncf .bf16 wn bitsLt_bf16_f32) (constant (F := Ideal) S4000x128 .f32 0x00000000#32))) (broadcastTo S4000x128 (shapeCast S1x128 β shapeCasts_S128_S1x128) broadcasts_S1x128_S4000x128) := rfl
  rw [e, shapeCast_self, shapeCast_self, kernelDense_apply dot_S4000x128_S128x128_S4000x128_1_0_0_1_n_n plainK x nb ws wn β bitsLt_bf16_f32 shapeCasts_S128_S1x128 broadcasts_S1x128_S4000x128 r q]

/-- Where each window's block sits at a point: the row blocks move with the point, the weights and the bias stay. -/
theorem idx_facts : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- What point `t` writes back is block `t` of the host's dense step of the arrays as the launch finds them. -/
theorem flushed (c : Dev nD) (t : Fin cfg5.N) :
    (dat5 (F := Ideal) V c).flushed 5 t = ((cfg5.win 5).blk t).view.read (Elt Ideal)
      (Cert.Forms.sage20 (V c main_v69) (V c main_v114) (V c main_arg23) (V c main_arg24) (V c main_arg25)) := by
  show (cfg5.win 5).cut (grid5.coords t) ((dat5 V c).after 5 t) = _
  rw [after5_5]
  unfold out5_5
  rw [View.canon_unit_zero hz2]
  simp only [View.ld_unit_zero (S := S4000x128) hz2, View.ld_unit_zero (S := S128x128) hz2, View.ld_unit_zero (S := S128) hz1]
  obtain ⟨e00, e01, e10, e11, e20, e21, e30, e31, e40, e50, e51⟩ := idx_facts t
  refine funext fun (j : S4000x128.Idx) => ?_
  obtain ⟨r, q, rfl⟩ : ∃ (r : Fin 4000) (q : Fin 128), j = ix2 r q := ⟨j 0, j 1, eq_ix2 j⟩
  show k5_pay1 (iblk5 V c 0 t) (iblk5 V c 1 t) (iblk5 V c 2 t) (iblk5 V c 3 t) (iblk5 V c 4 t) (ix2 r q)
      = (Cert.Forms.sage20 (V c main_v69) (V c main_v114) (V c main_arg23) (V c main_arg24) (V c main_arg25)) (((cfg5.win 5).blk t).view.emb (ix2 r q))
  refine (pay_apply (iblk5 V c 0 t) (iblk5 V c 1 t) (iblk5 V c 2 t) (iblk5 V c 3 t) (iblk5 V c 4 t) (ix2 r q)).trans ?_
  rw [Cert.Forms.sage20_apply]
  refine (denseAt_congr (iblk5 V c 0 t) (iblk5 V c 1 t) (iblk5 V c 2 t) (iblk5 V c 3 t) (iblk5 V c 4 t)
    (V c main_v69) (V c main_v114) (V c main_arg23) (V c main_arg24) (V c main_arg25) r ((((cfg5.win 5).blk t).view.emb (ix2 r q)) 0) q ((((cfg5.win 5).blk t).view.emb (ix2 r q)) 1) ?_ ?_ ?_ ?_ ?_)
  · intro k
    show V c (Pipeline.arrRef spec5 0) (((cfg5.win 0).blk t).view.emb (ix2 r k)) = _
    refine congrArg (V c main_v69) (funext fun a => Fin.ext ?_)
    match a with
    | ⟨0, _⟩ => show win5_0.index t (0 : Fin 2) * 4000 + 1 * r.val = win5_5.index t (0 : Fin 2) * 4000 + 1 * r.val; omega
    | ⟨1, _⟩ => show win5_0.index t (1 : Fin 2) * 128 + 1 * k.val = k.val; omega
  · intro k
    show V c (Pipeline.arrRef spec5 1) (((cfg5.win 1).blk t).view.emb (ix2 r k)) = _
    refine congrArg (V c main_v114) (funext fun a => Fin.ext ?_)
    match a with
    | ⟨0, _⟩ => show win5_1.index t (0 : Fin 2) * 4000 + 1 * r.val = win5_5.index t (0 : Fin 2) * 4000 + 1 * r.val; omega
    | ⟨1, _⟩ => show win5_1.index t (1 : Fin 2) * 128 + 1 * k.val = k.val; omega
  · intro k
    show V c (Pipeline.arrRef spec5 2) (((cfg5.win 2).blk t).view.emb (ix2 k q)) = _
    refine congrArg (V c main_arg23) (funext fun a => Fin.ext ?_)
    match a with
    | ⟨0, _⟩ => show win5_2.index t (0 : Fin 2) * 128 + 1 * k.val = k.val; omega
    | ⟨1, _⟩ => show win5_2.index t (1 : Fin 2) * 128 + 1 * q.val = win5_5.index t (1 : Fin 2) * 128 + 1 * q.val; omega
  · intro k
    show V c (Pipeline.arrRef spec5 3) (((cfg5.win 3).blk t).view.emb (ix2 k q)) = _
    refine congrArg (V c main_arg24) (funext fun a => Fin.ext ?_)
    match a with
    | ⟨0, _⟩ => show win5_3.index t (0 : Fin 2) * 128 + 1 * k.val = k.val; omega
    | ⟨1, _⟩ => show win5_3.index t (1 : Fin 2) * 128 + 1 * q.val = win5_5.index t (1 : Fin 2) * 128 + 1 * q.val; omega
  · show V c (Pipeline.arrRef spec5 4) (((cfg5.win 4).blk t).view.emb (ix1 q)) = _
    refine congrArg (V c main_arg25) (funext fun a => Fin.ext ?_)
    match a with
    | ⟨0, _⟩ => show win5_4.index t (0 : Fin 1) * 128 + 1 * q.val = win5_5.index t (1 : Fin 2) * 128 + 1 * q.val; omega

/-- An index of the result array is in point `t`'s block iff its row is among the point's 4000 rows. -/
theorem mem_blk (t : Fin cfg5.N) (i : S20000x128.Idx) :
    i ∈ ((cfg5.win 5).blk t).view.set ↔ ∀ a : Fin 2, win5_5.index t a * S4000x128.size a ≤ (i a).val ∧ (i a).val < win5_5.index t a * S4000x128.size a + S4000x128.size a := by
  show i ∈ ((View.whole main_v115).slice (win5_5.rect t)).set ↔ _
  rw [View.set_slice_whole, Rect.mem_set_unit]
  exact Iff.rfl

/-- Every row is some point's: row `i` belongs to point `i / 4000`. -/
theorem cover (i : S20000x128.Idx) : ∃ t : Fin cfg5.N, (cfg5.win 5).flush t = true ∧ i ∈ ((cfg5.win 5).blk t).view.set := by
  have hi0 : (i 0).val < 20000 := (i 0).isLt
  have hi1 : (i 1).val < 128 := (i 1).isLt
  obtain ⟨t, ht⟩ : ∃ t : Fin cfg5.N, t.val = (i 0).val / 4000 :=
    ⟨⟨(i 0).val / 4000, by show (i 0).val / 4000 < grid5.N; rw [N_5]; omega⟩, rfl⟩
  obtain ⟨-, -, -, -, -, -, -, -, -, e50, e51⟩ := idx_facts t
  refine ⟨t, flush5_5 t, (mem_blk t i).mpr fun a => ?_⟩
  match a with
  | ⟨0, _⟩ => show win5_5.index t (0 : Fin 2) * 4000 ≤ (i 0).val ∧ (i 0).val < win5_5.index t (0 : Fin 2) * 4000 + 4000; omega
  | ⟨1, _⟩ => show win5_5.index t (1 : Fin 2) * 128 ≤ (i 1).val ∧ (i 1).val < win5_5.index t (1 : Fin 2) * 128 + 128; omega

/-- The result array after the launch. -/
theorem out (c : Dev nD) : (dat5 (F := Ideal) V c).arrAt 5 cfg5.N = Cert.Forms.sage20 (V c main_v69) (V c main_v114) (V c main_arg23) (V c main_arg24) (V c main_arg25) :=
  (dat5 V c).arrAt_eq_of_cover 5 _ (fun t _ => flushed V c t) cover

end Cert.KernelIdeal.Blocks5

end
-- ==== Proof.Region6.lean ====
/-
  Launch 6 of the program: the dense step on the second node type, 4000 rows at a time.
  The grid has 5 points; point `t` reads rows `4000·t … 4000·t + 3999` of the node features and of the neighbour
  features, the whole of both weight matrices and of the bias row, and writes the same rows of the result. An entry
  `(r, q)` of the point's block is
      Σₖ x[4000·t + r, k]·Ws[k, q] + Σₖ n[4000·t + r, k]·Wn[k, q] + β[q]
  which depends on row `4000·t + r` of the features only: the block is the restriction of ONE function of the whole
  arrays, the host's dense step. The 5 blocks tile the 20000 rows, so the result array is that
  function of the arrays as the launch finds them.
-/
import proofs.«172717_j57543971832738_1_alg».proof.Proof.Gen.KernelIdeal.Frame
import proofs.«172717_j57543971832738_1_alg».proof.Proof.Forms

set_option maxRecDepth 16384

noncomputable section

namespace Cert.KernelIdeal.Blocks6

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibSageDense Cert.LibDotPlain

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block product is a plain one: rows by columns. -/
theorem plainK : IsPlain dot_S4000x128_S128x128_S4000x128_1_0_0_1_n_n := ⟨rfl, rfl, rfl, rfl, rfl, rfl⟩

/-- The body's arithmetic at an entry of the block. -/
theorem pay_apply (x nb : Vec Ideal S4000x128 .f32) (ws wn : Vec Ideal S128x128 .f32) (β : Vec Ideal S128 .f32) (j : S4000x128.Idx) :
    k6_pay1 (F := Ideal) x nb ws wn β j = denseAt x nb ws wn β (j 0) (j 1) := by
  obtain ⟨r, q, rfl⟩ : ∃ (r : Fin 4000) (q : Fin 128), j = ix2 r q := ⟨j 0, j 1, eq_ix2 j⟩
  have e : k6_pay1 (F := Ideal) x nb ws wn β = addf (addf (matmul dot_S4000x128_S128x128_S4000x128_1_0_0_1_n_n none (truncf .bf16 (shapeCast S4000x128 x shapeCasts_S4000x128_S4000x128) bitsLt_bf16_f32) (truncf .bf16 ws bitsLt_bf16_f32) (constant (F := Ideal) S4000x128 .f32 0x00000000#32)) (matmul dot_S4000x128_S128x128_S4000x128_1_0_0_1_n_n none (truncf .bf16 (shapeCast S4000x128 nb shapeCasts_S4000x128_S4000x128) bitsLt_bf16_f32) (truncf .bf16 wn bitsLt_bf16_f32) (constant (F := Ideal) S4000x128 .f32 0x00000000#32))) (broadcastTo S4000x128 (shapeCast S1x128 β shapeCasts_S128_S1x128) broadcasts_S1x128_S4000x128) := rfl
  rw [e, shapeCast_self, shapeCast_self, kernelDense_apply dot_S4000x128_S128x128_S4000x128_1_0_0_1_n_n plainK x nb ws wn β bitsLt_bf16_f32 shapeCasts_S128_S1x128 broadcasts_S1x128_S4000x128 r q]

/-- Where each window's block sits at a point: the row blocks move with the point, the weights and the bias stay. -/
theorem idx_facts : ∀ t : Fin cfg6.N,
    win6_0.index t (0 : Fin 2) = win6_5.index t (0 : Fin 2) ∧ win6_0.index t (1 : Fin 2) = 0
    ∧ win6_1.index t (0 : Fin 2) = win6_5.index t (0 : Fin 2) ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 1) = 0
    ∧ win6_5.index t (0 : Fin 2) = t.val ∧ win6_5.index t (1 : Fin 2) = 0 :=
  (by decide +kernel : ∀ t : Fin grid6.N, _)

/-- What point `t` writes back is block `t` of the host's dense step of the arrays as the launch finds them. -/
theorem flushed (c : Dev nD) (t : Fin cfg6.N) :
    (dat6 (F := Ideal) V c).flushed 5 t = ((cfg6.win 5).blk t).view.read (Elt Ideal)
      (Cert.Forms.sage20 (V c main_v69) (V c main_v137) (V c main_arg26) (V c main_arg27) (V c main_arg28)) := by
  show (cfg6.win 5).cut (grid6.coords t) ((dat6 V c).after 5 t) = _
  rw [after6_5]
  unfold out6_5
  rw [View.canon_unit_zero hz2]
  simp only [View.ld_unit_zero (S := S4000x128) hz2, View.ld_unit_zero (S := S128x128) hz2, View.ld_unit_zero (S := S128) hz1]
  obtain ⟨e00, e01, e10, e11, e20, e21, e30, e31, e40, e50, e51⟩ := idx_facts t
  refine funext fun (j : S4000x128.Idx) => ?_
  obtain ⟨r, q, rfl⟩ : ∃ (r : Fin 4000) (q : Fin 128), j = ix2 r q := ⟨j 0, j 1, eq_ix2 j⟩
  show k6_pay1 (iblk6 V c 0 t) (iblk6 V c 1 t) (iblk6 V c 2 t) (iblk6 V c 3 t) (iblk6 V c 4 t) (ix2 r q)
      = (Cert.Forms.sage20 (V c main_v69) (V c main_v137) (V c main_arg26) (V c main_arg27) (V c main_arg28)) (((cfg6.win 5).blk t).view.emb (ix2 r q))
  refine (pay_apply (iblk6 V c 0 t) (iblk6 V c 1 t) (iblk6 V c 2 t) (iblk6 V c 3 t) (iblk6 V c 4 t) (ix2 r q)).trans ?_
  rw [Cert.Forms.sage20_apply]
  refine (denseAt_congr (iblk6 V c 0 t) (iblk6 V c 1 t) (iblk6 V c 2 t) (iblk6 V c 3 t) (iblk6 V c 4 t)
    (V c main_v69) (V c main_v137) (V c main_arg26) (V c main_arg27) (V c main_arg28) r ((((cfg6.win 5).blk t).view.emb (ix2 r q)) 0) q ((((cfg6.win 5).blk t).view.emb (ix2 r q)) 1) ?_ ?_ ?_ ?_ ?_)
  · intro k
    show V c (Pipeline.arrRef spec6 0) (((cfg6.win 0).blk t).view.emb (ix2 r k)) = _
    refine congrArg (V c main_v69) (funext fun a => Fin.ext ?_)
    match a with
    | ⟨0, _⟩ => show win6_0.index t (0 : Fin 2) * 4000 + 1 * r.val = win6_5.index t (0 : Fin 2) * 4000 + 1 * r.val; omega
    | ⟨1, _⟩ => show win6_0.index t (1 : Fin 2) * 128 + 1 * k.val = k.val; omega
  · intro k
    show V c (Pipeline.arrRef spec6 1) (((cfg6.win 1).blk t).view.emb (ix2 r k)) = _
    refine congrArg (V c main_v137) (funext fun a => Fin.ext ?_)
    match a with
    | ⟨0, _⟩ => show win6_1.index t (0 : Fin 2) * 4000 + 1 * r.val = win6_5.index t (0 : Fin 2) * 4000 + 1 * r.val; omega
    | ⟨1, _⟩ => show win6_1.index t (1 : Fin 2) * 128 + 1 * k.val = k.val; omega
  · intro k
    show V c (Pipeline.arrRef spec6 2) (((cfg6.win 2).blk t).view.emb (ix2 k q)) = _
    refine congrArg (V c main_arg26) (funext fun a => Fin.ext ?_)
    match a with
    | ⟨0, _⟩ => show win6_2.index t (0 : Fin 2) * 128 + 1 * k.val = k.val; omega
    | ⟨1, _⟩ => show win6_2.index t (1 : Fin 2) * 128 + 1 * q.val = win6_5.index t (1 : Fin 2) * 128 + 1 * q.val; omega
  · intro k
    show V c (Pipeline.arrRef spec6 3) (((cfg6.win 3).blk t).view.emb (ix2 k q)) = _
    refine congrArg (V c main_arg27) (funext fun a => Fin.ext ?_)
    match a with
    | ⟨0, _⟩ => show win6_3.index t (0 : Fin 2) * 128 + 1 * k.val = k.val; omega
    | ⟨1, _⟩ => show win6_3.index t (1 : Fin 2) * 128 + 1 * q.val = win6_5.index t (1 : Fin 2) * 128 + 1 * q.val; omega
  · show V c (Pipeline.arrRef spec6 4) (((cfg6.win 4).blk t).view.emb (ix1 q)) = _
    refine congrArg (V c main_arg28) (funext fun a => Fin.ext ?_)
    match a with
    | ⟨0, _⟩ => show win6_4.index t (0 : Fin 1) * 128 + 1 * q.val = win6_5.index t (1 : Fin 2) * 128 + 1 * q.val; omega

/-- An index of the result array is in point `t`'s block iff its row is among the point's 4000 rows. -/
theorem mem_blk (t : Fin cfg6.N) (i : S20000x128.Idx) :
    i ∈ ((cfg6.win 5).blk t).view.set ↔ ∀ a : Fin 2, win6_5.index t a * S4000x128.size a ≤ (i a).val ∧ (i a).val < win6_5.index t a * S4000x128.size a + S4000x128.size a := by
  show i ∈ ((View.whole main_v138).slice (win6_5.rect t)).set ↔ _
  rw [View.set_slice_whole, Rect.mem_set_unit]
  exact Iff.rfl

/-- Every row is some point's: row `i` belongs to point `i / 4000`. -/
theorem cover (i : S20000x128.Idx) : ∃ t : Fin cfg6.N, (cfg6.win 5).flush t = true ∧ i ∈ ((cfg6.win 5).blk t).view.set := by
  have hi0 : (i 0).val < 20000 := (i 0).isLt
  have hi1 : (i 1).val < 128 := (i 1).isLt
  obtain ⟨t, ht⟩ : ∃ t : Fin cfg6.N, t.val = (i 0).val / 4000 :=
    ⟨⟨(i 0).val / 4000, by show (i 0).val / 4000 < grid6.N; rw [N_6]; omega⟩, rfl⟩
  obtain ⟨-, -, -, -, -, -, -, -, -, e50, e51⟩ := idx_facts t
  refine ⟨t, flush6_5 t, (mem_blk t i).mpr fun a => ?_⟩
  match a with
  | ⟨0, _⟩ => show win6_5.index t (0 : Fin 2) * 4000 ≤ (i 0).val ∧ (i 0).val < win6_5.index t (0 : Fin 2) * 4000 + 4000; omega
  | ⟨1, _⟩ => show win6_5.index t (1 : Fin 2) * 128 ≤ (i 1).val ∧ (i 1).val < win6_5.index t (1 : Fin 2) * 128 + 128; omega

/-- The result array after the launch. -/
theorem out (c : Dev nD) : (dat6 (F := Ideal) V c).arrAt 5 cfg6.N = Cert.Forms.sage20 (V c main_v69) (V c main_v137) (V c main_arg26) (V c main_arg27) (V c main_arg28) :=
  (dat6 V c).arrAt_eq_of_cover 5 _ (fun t _ => flushed V c t) cover

end Cert.KernelIdeal.Blocks6

end
-- ==== Proof.Region7.lean ====
/-
  Launch 7 of the program: the half sum of the second node type's two edge types, 4000 rows at a time.
  The grid has 5 points; point `t` reads rows `4000·t … 4000·t + 3999` of both operands and writes the same rows of the
  result, entry by entry `½·(u + v)`: the block is the restriction of one entrywise function of the
  whole arrays, and the 5 blocks tile the 20000 rows.
-/
import proofs.«172717_j57543971832738_1_alg».proof.Proof.Gen.KernelIdeal.Frame
import proofs.«172717_j57543971832738_1_alg».proof.Proof.Forms

set_option maxRecDepth 16384

noncomputable section

namespace Cert.KernelIdeal.Blocks7

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body's arithmetic at an entry of the block. -/
theorem pay_apply (u v : Vec Ideal S4000x128 .f32) (j : S4000x128.Idx) :
    k7_pay1 (F := Ideal) u v j = Cert.Forms.halfWord * (u j + v j) := by
  have e : k7_pay1 (F := Ideal) u v = mulf (broadcast S4000x128 (Scalar.ofBits (F := Ideal) .f32 0x3F000000#32)) (addf (shapeCast S4000x128 u shapeCasts_S4000x128_S4000x128) (shapeCast S4000x128 v shapeCasts_S4000x128_S4000x128)) := rfl
  rw [e, shapeCast_self, shapeCast_self]
  rfl

/-- Where each window's block sits at a point: all three move with the point. -/
theorem idx_facts : ∀ t : Fin cfg7.N,
    win7_0.index t (0 : Fin 2) = win7_2.index t (0 : Fin 2) ∧ win7_0.index t (1 : Fin 2) = win7_2.index t (1 : Fin 2)
    ∧ win7_1.index t (0 : Fin 2) = win7_2.index t (0 : Fin 2) ∧ win7_1.index t (1 : Fin 2) = win7_2.index t (1 : Fin 2)
    ∧ win7_2.index t (0 : Fin 2) = t.val ∧ win7_2.index t (1 : Fin 2) = 0 :=
  (by decide +kernel : ∀ t : Fin grid7.N, _)

/-- What point `t` writes back is block `t` of the half sum of the arrays as the launch finds them. -/
theorem flushed (c : Dev nD) (t : Fin cfg7.N) :
    (dat7 (F := Ideal) V c).flushed 2 t = ((cfg7.win 2).blk t).view.read (Elt Ideal)
      (Cert.Forms.half20 (V c main_v115) (V c main_v138)) := by
  show (cfg7.win 2).cut (grid7.coords t) ((dat7 V c).after 2 t) = _
  rw [after7_2]
  unfold out7_2
  rw [View.canon_unit_zero hz2]
  simp only [View.ld_unit_zero (S := S4000x128) hz2]
  obtain ⟨e00, e01, e10, e11, e20, e21⟩ := idx_facts t
  refine funext fun (j : S4000x128.Idx) => ?_
  show k7_pay1 (iblk7 V c 0 t) (iblk7 V c 1 t) j
      = (Cert.Forms.half20 (V c main_v115) (V c main_v138)) (((cfg7.win 2).blk t).view.emb j)
  refine (pay_apply (iblk7 V c 0 t) (iblk7 V c 1 t) j).trans ?_
  rw [Cert.Forms.half20_apply]
  have hj0 : (j 0).val < 4000 := (j 0).isLt
  have hj1 : (j 1).val < 128 := (j 1).isLt
  have h0 : iblk7 V c 0 t j = V c main_v115 (((cfg7.win 2).blk t).view.emb j) := by
    show V c (Pipeline.arrRef spec7 0) (((cfg7.win 0).blk t).view.emb j) = _
    refine congrArg (V c main_v115) (funext fun a => Fin.ext ?_)
    match a with
    | ⟨0, _⟩ => show win7_0.index t (0 : Fin 2) * 4000 + 1 * (j 0).val = win7_2.index t (0 : Fin 2) * 4000 + 1 * (j 0).val; omega
    | ⟨1, _⟩ => show win7_0.index t (1 : Fin 2) * 128 + 1 * (j 1).val = win7_2.index t (1 : Fin 2) * 128 + 1 * (j 1).val; omega
  have h1 : iblk7 V c 1 t j = V c main_v138 (((cfg7.win 2).blk t).view.emb j) := by
    show V c (Pipeline.arrRef spec7 1) (((cfg7.win 1).blk t).view.emb j) = _
    refine congrArg (V c main_v138) (funext fun a => Fin.ext ?_)
    match a with
    | ⟨0, _⟩ => show win7_1.index t (0 : Fin 2) * 4000 + 1 * (j 0).val = win7_2.index t (0 : Fin 2) * 4000 + 1 * (j 0).val; omega
    | ⟨1, _⟩ => show win7_1.index t (1 : Fin 2) * 128 + 1 * (j 1).val = win7_2.index t (1 : Fin 2) * 128 + 1 * (j 1).val; omega
  rw [h0, h1]

/-- An index of the result array is in point `t`'s block iff its row is among the point's 4000 rows. -/
theorem mem_blk (t : Fin cfg7.N) (i : S20000x128.Idx) :
    i ∈ ((cfg7.win 2).blk t).view.set ↔ ∀ a : Fin 2, win7_2.index t a * S4000x128.size a ≤ (i a).val ∧ (i a).val < win7_2.index t a * S4000x128.size a + S4000x128.size a := by
  show i ∈ ((View.whole main_v139).slice (win7_2.rect t)).set ↔ _
  rw [View.set_slice_whole, Rect.mem_set_unit]
  exact Iff.rfl

/-- Every row is some point's: row `i` belongs to point `i / 4000`. -/
theorem cover (i : S20000x128.Idx) : ∃ t : Fin cfg7.N, (cfg7.win 2).flush t = true ∧ i ∈ ((cfg7.win 2).blk t).view.set := by
  have hi0 : (i 0).val < 20000 := (i 0).isLt
  have hi1 : (i 1).val < 128 := (i 1).isLt
  obtain ⟨t, ht⟩ : ∃ t : Fin cfg7.N, t.val = (i 0).val / 4000 :=
    ⟨⟨(i 0).val / 4000, by show (i 0).val / 4000 < grid7.N; rw [N_7]; omega⟩, rfl⟩
  obtain ⟨-, -, -, -, e20, e21⟩ := idx_facts t
  refine ⟨t, flush7_2 t, (mem_blk t i).mpr fun a => ?_⟩
  match a with
  | ⟨0, _⟩ => show win7_2.index t (0 : Fin 2) * 4000 ≤ (i 0).val ∧ (i 0).val < win7_2.index t (0 : Fin 2) * 4000 + 4000; omega
  | ⟨1, _⟩ => show win7_2.index t (1 : Fin 2) * 128 ≤ (i 1).val ∧ (i 1).val < win7_2.index t (1 : Fin 2) * 128 + 128; omega

/-- The result array after the launch. -/
theorem out (c : Dev nD) : (dat7 (F := Ideal) V c).arrAt 2 cfg7.N = Cert.Forms.half20 (V c main_v115) (V c main_v138) :=
  (dat7 V c).arrAt_eq_of_cover 2 _ (fun t _ => flushed V c t) cover

end Cert.KernelIdeal.Blocks7

end
-- ==== Proof.KernelValue.lean ====
/-
  The idealized kernel's two results as functions of the argument arrays.
  The run's buffer contents are a fold: from the launch memory, a stretch of host operations rewrites the buffers it
  writes and leaves the rest; a launch rewrites its result array and leaves the rest. So a buffer is followed from the
  boundary where it is written to the last boundary where it is read by "nothing in between writes it", and
    * a stretch's last buffer is the neighbour aggregation of the buffers the stretch reads (the host operations
      composed: the same ones the reference program runs),
    * a launch's result array is the dense step (or the half sum) of the arrays the launch reads, as those stand when
      it is entered (the per-launch modules).
  Composing these along the program gives each result as the two-layer network of the arguments.
-/
import proofs.«172717_j57543971832738_1_alg».proof.Proof.KernelRun
import proofs.«172717_j57543971832738_1_alg».proof.Proof.Region0
import proofs.«172717_j57543971832738_1_alg».proof.Proof.Region1
import proofs.«172717_j57543971832738_1_alg».proof.Proof.Region2
import proofs.«172717_j57543971832738_1_alg».proof.Proof.Region3
import proofs.«172717_j57543971832738_1_alg».proof.Proof.Region4
import proofs.«172717_j57543971832738_1_alg».proof.Proof.Region5
import proofs.«172717_j57543971832738_1_alg».proof.Proof.Region6
import proofs.«172717_j57543971832738_1_alg».proof.Proof.Region7
import proofs.«172717_j57543971832738_1_alg».proof.Proof.Forms

set_option maxRecDepth 16384

noncomputable section

namespace Cert.KernelIdeal.Whole

open Cert.KernelIdeal Cert.KernelIdeal.Gen
open Idealize.ShloMosaic Idealize.ShloMosaic.TcCoe Idealize.SL.Sem

/-! ## What each stretch of host operations writes -/

/-- The buffers stretch 0 writes. -/
abbrev wr0 : List (Ref sig .tc) := [main_c, main_v0, main_v1, main_c_0, main_v2, main_v3, main_v4, main_v5, main_v6, main_v7, main_v8, main_v9, main_cst, main_v10, main_v11, main_v12, main_cst_1, main_v13, main_cst_2, main_v14, main_v15, main_v16, main_cst_3, main_v17, main_v18, main_v19, main_v20, main_v21]
theorem hostOps0_wr : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map.mpr ⟨_, by decide, rfl⟩
/-- A buffer stretch 0 does not write keeps its contents. -/
theorem keep_h0 (W : Valuation τ sig (Elt Ideal)) (r : Ref sig .tc) (hr : r ∉ wr0) :
    StableHlo.after hostOps0 W (Proc.devRef .tc r) = W (Proc.devRef .tc r) :=
  StableHlo.after_of_writes_sub hostOps0 W hostOps0_wr hr

/-- The buffers stretch 1 writes. -/
abbrev wr1 : List (Ref sig .tc) := [main_c_4, main_v23, main_v24, main_c_5, main_v25, main_v26, main_v27, main_v28, main_v29, main_v30, main_v31, main_v32, main_cst_6, main_v33, main_v34, main_v35, main_cst_7, main_v36, main_cst_8, main_v37, main_v38, main_v39, main_cst_9, main_v40, main_v41, main_v42, main_v43, main_v44]
theorem hostOps1_wr : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map.mpr ⟨_, by decide, rfl⟩
/-- A buffer stretch 1 does not write keeps its contents. -/
theorem keep_h1 (W : Valuation τ sig (Elt Ideal)) (r : Ref sig .tc) (hr : r ∉ wr1) :
    StableHlo.after hostOps1 W (Proc.devRef .tc r) = W (Proc.devRef .tc r) :=
  StableHlo.after_of_writes_sub hostOps1 W hostOps1_wr hr

/-- The buffers stretch 2 writes. -/
abbrev wr2 : List (Ref sig .tc) := [main_c_10, main_v46, main_v47, main_c_11, main_v48, main_v49, main_v50, main_v51, main_v52, main_v53, main_v54, main_v55, main_cst_12, main_v56, main_v57, main_v58, main_cst_13, main_v59, main_cst_14, main_v60, main_v61, main_v62, main_cst_15, main_v63, main_v64, main_v65, main_v66, main_v67]
theorem hostOps2_wr : (hostOps2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map.mpr ⟨_, by decide, rfl⟩
/-- A buffer stretch 2 does not write keeps its contents. -/
theorem keep_h2 (W : Valuation τ sig (Elt Ideal)) (r : Ref sig .tc) (hr : r ∉ wr2) :
    StableHlo.after hostOps2 W (Proc.devRef .tc r) = W (Proc.devRef .tc r) :=
  StableHlo.after_of_writes_sub hostOps2 W hostOps2_wr hr

/-- The buffers stretch 4 writes. -/
abbrev wr4 : List (Ref sig .tc) := [main_c_16, main_v70, main_v71, main_c_17, main_v72, main_v73, main_v74, main_v75, main_v76, main_v77, main_v78, main_v79, main_cst_18, main_v80, main_v81, main_v82, main_cst_19, main_v83, main_cst_20, main_v84, main_v85, main_v86, main_cst_21, main_v87, main_v88, main_v89, main_v90, main_v91]
theorem hostOps4_wr : (hostOps4 : List (HloOp τ sig (Elt Ideal))).Forall fun op => op.writes ⊆ (wr4.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map.mpr ⟨_, by decide, rfl⟩
/-- A buffer stretch 4 does not write keeps its contents. -/
theorem keep_h4 (W : Valuation τ sig (Elt Ideal)) (r : Ref sig .tc) (hr : r ∉ wr4) :
    StableHlo.after hostOps4 W (Proc.devRef .tc r) = W (Proc.devRef .tc r) :=
  StableHlo.after_of_writes_sub hostOps4 W hostOps4_wr hr

/-- The buffers stretch 5 writes. -/
abbrev wr5 : List (Ref sig .tc) := [main_c_22, main_v93, main_v94, main_c_23, main_v95, main_v96, main_v97, main_v98, main_v99, main_v100, main_v101, main_v102, main_cst_24, main_v103, main_v104, main_v105, main_cst_25, main_v106, main_cst_26, main_v107, main_v108, main_v109, main_cst_27, main_v110, main_v111, main_v112, main_v113, main_v114]
theorem hostOps5_wr : (hostOps5 : List (HloOp τ sig (Elt Ideal))).Forall fun op => op.writes ⊆ (wr5.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map.mpr ⟨_, by decide, rfl⟩
/-- A buffer stretch 5 does not write keeps its contents. -/
theorem keep_h5 (W : Valuation τ sig (Elt Ideal)) (r : Ref sig .tc) (hr : r ∉ wr5) :
    StableHlo.after hostOps5 W (Proc.devRef .tc r) = W (Proc.devRef .tc r) :=
  StableHlo.after_of_writes_sub hostOps5 W hostOps5_wr hr

/-- The buffers stretch 6 writes. -/
abbrev wr6 : List (Ref sig .tc) := [main_c_28, main_v116, main_v117, main_c_29, main_v118, main_v119, main_v120, main_v121, main_v122, main_v123, main_v124, main_v125, main_cst_30, main_v126, main_v127, main_v128, main_cst_31, main_v129, main_cst_32, main_v130, main_v131, main_v132, main_cst_33, main_v133, main_v134, main_v135, main_v136, main_v137]
theorem hostOps6_wr : (hostOps6 : List (HloOp τ sig (Elt Ideal))).Forall fun op => op.writes ⊆ (wr6.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map.mpr ⟨_, by decide, rfl⟩
/-- A buffer stretch 6 does not write keeps its contents. -/
theorem keep_h6 (W : Valuation τ sig (Elt Ideal)) (r : Ref sig .tc) (hr : r ∉ wr6) :
    StableHlo.after hostOps6 W (Proc.devRef .tc r) = W (Proc.devRef .tc r) :=
  StableHlo.after_of_writes_sub hostOps6 W hostOps6_wr hr

variable (m : (ℓ : Loc nD τ sig) → Buf (Elt Ideal) ℓ) (ρ : Dev nD → PrngReg) (c : Dev nD)

/-! ## Every buffer at every boundary where it is read -/

/-! ### Boundary 0 -/
theorem at0_main_arg0 : W0 m ρ c (Proc.devRef .tc main_arg0) = (m ((c : Thread nD τ).loc main_arg0)) := rfl
theorem at0_main_arg2 : W0 m ρ c (Proc.devRef .tc main_arg2) = (m ((c : Thread nD τ).loc main_arg2)) := rfl
theorem at0_main_arg5 : W0 m ρ c (Proc.devRef .tc main_arg5) = (m ((c : Thread nD τ).loc main_arg5)) := rfl
theorem at0_main_arg6 : W0 m ρ c (Proc.devRef .tc main_arg6) = (m ((c : Thread nD τ).loc main_arg6)) := rfl
theorem at0_main_arg11 : W0 m ρ c (Proc.devRef .tc main_arg11) = (m ((c : Thread nD τ).loc main_arg11)) := rfl
theorem at0_main_arg12 : W0 m ρ c (Proc.devRef .tc main_arg12) = (m ((c : Thread nD τ).loc main_arg12)) := rfl
theorem at0_main_arg13 : W0 m ρ c (Proc.devRef .tc main_arg13) = (m ((c : Thread nD τ).loc main_arg13)) := rfl
theorem at0_main_arg1 : W0 m ρ c (Proc.devRef .tc main_arg1) = (m ((c : Thread nD τ).loc main_arg1)) := rfl
theorem at0_main_arg3 : W0 m ρ c (Proc.devRef .tc main_arg3) = (m ((c : Thread nD τ).loc main_arg3)) := rfl
theorem at0_main_arg7 : W0 m ρ c (Proc.devRef .tc main_arg7) = (m ((c : Thread nD τ).loc main_arg7)) := rfl
theorem at0_main_arg8 : W0 m ρ c (Proc.devRef .tc main_arg8) = (m ((c : Thread nD τ).loc main_arg8)) := rfl
theorem at0_main_arg14 : W0 m ρ c (Proc.devRef .tc main_arg14) = (m ((c : Thread nD τ).loc main_arg14)) := rfl
theorem at0_main_arg15 : W0 m ρ c (Proc.devRef .tc main_arg15) = (m ((c : Thread nD τ).loc main_arg15)) := rfl
theorem at0_main_arg16 : W0 m ρ c (Proc.devRef .tc main_arg16) = (m ((c : Thread nD τ).loc main_arg16)) := rfl
theorem at0_main_arg4 : W0 m ρ c (Proc.devRef .tc main_arg4) = (m ((c : Thread nD τ).loc main_arg4)) := rfl
theorem at0_main_arg9 : W0 m ρ c (Proc.devRef .tc main_arg9) = (m ((c : Thread nD τ).loc main_arg9)) := rfl
theorem at0_main_arg10 : W0 m ρ c (Proc.devRef .tc main_arg10) = (m ((c : Thread nD τ).loc main_arg10)) := rfl
theorem at0_main_arg17 : W0 m ρ c (Proc.devRef .tc main_arg17) = (m ((c : Thread nD τ).loc main_arg17)) := rfl
theorem at0_main_arg18 : W0 m ρ c (Proc.devRef .tc main_arg18) = (m ((c : Thread nD τ).loc main_arg18)) := rfl
theorem at0_main_arg19 : W0 m ρ c (Proc.devRef .tc main_arg19) = (m ((c : Thread nD τ).loc main_arg19)) := rfl
theorem at0_main_arg20 : W0 m ρ c (Proc.devRef .tc main_arg20) = (m ((c : Thread nD τ).loc main_arg20)) := rfl
theorem at0_main_arg21 : W0 m ρ c (Proc.devRef .tc main_arg21) = (m ((c : Thread nD τ).loc main_arg21)) := rfl
theorem at0_main_arg22 : W0 m ρ c (Proc.devRef .tc main_arg22) = (m ((c : Thread nD τ).loc main_arg22)) := rfl
theorem at0_main_arg23 : W0 m ρ c (Proc.devRef .tc main_arg23) = (m ((c : Thread nD τ).loc main_arg23)) := rfl
theorem at0_main_arg24 : W0 m ρ c (Proc.devRef .tc main_arg24) = (m ((c : Thread nD τ).loc main_arg24)) := rfl
theorem at0_main_arg25 : W0 m ρ c (Proc.devRef .tc main_arg25) = (m ((c : Thread nD τ).loc main_arg25)) := rfl
theorem at0_main_arg26 : W0 m ρ c (Proc.devRef .tc main_arg26) = (m ((c : Thread nD τ).loc main_arg26)) := rfl
theorem at0_main_arg27 : W0 m ρ c (Proc.devRef .tc main_arg27) = (m ((c : Thread nD τ).loc main_arg27)) := rfl
theorem at0_main_arg28 : W0 m ρ c (Proc.devRef .tc main_arg28) = (m ((c : Thread nD τ).loc main_arg28)) := rfl

/-! ### Boundary 1 -/
theorem at1_main_arg0 : W1 m ρ c (Proc.devRef .tc main_arg0) = (m ((c : Thread nD τ).loc main_arg0)) :=
  (keep_h0 (W0 m ρ c) main_arg0 (by decide)).trans (at0_main_arg0 m ρ c)
theorem at1_main_arg2 : W1 m ρ c (Proc.devRef .tc main_arg2) = (m ((c : Thread nD τ).loc main_arg2)) :=
  (keep_h0 (W0 m ρ c) main_arg2 (by decide)).trans (at0_main_arg2 m ρ c)
theorem at1_main_arg5 : W1 m ρ c (Proc.devRef .tc main_arg5) = (m ((c : Thread nD τ).loc main_arg5)) :=
  (keep_h0 (W0 m ρ c) main_arg5 (by decide)).trans (at0_main_arg5 m ρ c)
theorem at1_main_arg6 : W1 m ρ c (Proc.devRef .tc main_arg6) = (m ((c : Thread nD τ).loc main_arg6)) :=
  (keep_h0 (W0 m ρ c) main_arg6 (by decide)).trans (at0_main_arg6 m ρ c)
set_option maxHeartbeats 4000000 in
/-- Stretch 0's last buffer: the neighbour aggregation of what the stretch reads. -/
theorem at1_main_v21 : W1 m ρ c (Proc.devRef .tc main_v21) = (Cert.Forms.aggA (m ((c : Thread nD τ).loc main_arg0)) (m ((c : Thread nD τ).loc main_arg2)) (m ((c : Thread nD τ).loc main_arg5)) (m ((c : Thread nD τ).loc main_arg6))) := by
  show StableHlo.after hostOps0 (W0 m ρ c) (Proc.devRef .tc main_v21) = _
  after_results_simp
  rw [at0_main_arg0 m ρ c, at0_main_arg2 m ρ c, at0_main_arg5 m ρ c, at0_main_arg6 m ρ c]
  rfl
theorem at1_main_arg11 : W1 m ρ c (Proc.devRef .tc main_arg11) = (m ((c : Thread nD τ).loc main_arg11)) :=
  (keep_h0 (W0 m ρ c) main_arg11 (by decide)).trans (at0_main_arg11 m ρ c)
theorem at1_main_arg12 : W1 m ρ c (Proc.devRef .tc main_arg12) = (m ((c : Thread nD τ).loc main_arg12)) :=
  (keep_h0 (W0 m ρ c) main_arg12 (by decide)).trans (at0_main_arg12 m ρ c)
theorem at1_main_arg13 : W1 m ρ c (Proc.devRef .tc main_arg13) = (m ((c : Thread nD τ).loc main_arg13)) :=
  (keep_h0 (W0 m ρ c) main_arg13 (by decide)).trans (at0_main_arg13 m ρ c)
theorem at1_main_arg1 : W1 m ρ c (Proc.devRef .tc main_arg1) = (m ((c : Thread nD τ).loc main_arg1)) :=
  (keep_h0 (W0 m ρ c) main_arg1 (by decide)).trans (at0_main_arg1 m ρ c)
theorem at1_main_arg3 : W1 m ρ c (Proc.devRef .tc main_arg3) = (m ((c : Thread nD τ).loc main_arg3)) :=
  (keep_h0 (W0 m ρ c) main_arg3 (by decide)).trans (at0_main_arg3 m ρ c)
theorem at1_main_arg7 : W1 m ρ c (Proc.devRef .tc main_arg7) = (m ((c : Thread nD τ).loc main_arg7)) :=
  (keep_h0 (W0 m ρ c) main_arg7 (by decide)).trans (at0_main_arg7 m ρ c)
theorem at1_main_arg8 : W1 m ρ c (Proc.devRef .tc main_arg8) = (m ((c : Thread nD τ).loc main_arg8)) :=
  (keep_h0 (W0 m ρ c) main_arg8 (by decide)).trans (at0_main_arg8 m ρ c)
theorem at1_main_arg14 : W1 m ρ c (Proc.devRef .tc main_arg14) = (m ((c : Thread nD τ).loc main_arg14)) :=
  (keep_h0 (W0 m ρ c) main_arg14 (by decide)).trans (at0_main_arg14 m ρ c)
theorem at1_main_arg15 : W1 m ρ c (Proc.devRef .tc main_arg15) = (m ((c : Thread nD τ).loc main_arg15)) :=
  (keep_h0 (W0 m ρ c) main_arg15 (by decide)).trans (at0_main_arg15 m ρ c)
theorem at1_main_arg16 : W1 m ρ c (Proc.devRef .tc main_arg16) = (m ((c : Thread nD τ).loc main_arg16)) :=
  (keep_h0 (W0 m ρ c) main_arg16 (by decide)).trans (at0_main_arg16 m ρ c)
theorem at1_main_arg4 : W1 m ρ c (Proc.devRef .tc main_arg4) = (m ((c : Thread nD τ).loc main_arg4)) :=
  (keep_h0 (W0 m ρ c) main_arg4 (by decide)).trans (at0_main_arg4 m ρ c)
theorem at1_main_arg9 : W1 m ρ c (Proc.devRef .tc main_arg9) = (m ((c : Thread nD τ).loc main_arg9)) :=
  (keep_h0 (W0 m ρ c) main_arg9 (by decide)).trans (at0_main_arg9 m ρ c)
theorem at1_main_arg10 : W1 m ρ c (Proc.devRef .tc main_arg10) = (m ((c : Thread nD τ).loc main_arg10)) :=
  (keep_h0 (W0 m ρ c) main_arg10 (by decide)).trans (at0_main_arg10 m ρ c)
theorem at1_main_arg17 : W1 m ρ c (Proc.devRef .tc main_arg17) = (m ((c : Thread nD τ).loc main_arg17)) :=
  (keep_h0 (W0 m ρ c) main_arg17 (by decide)).trans (at0_main_arg17 m ρ c)
theorem at1_main_arg18 : W1 m ρ c (Proc.devRef .tc main_arg18) = (m ((c : Thread nD τ).loc main_arg18)) :=
  (keep_h0 (W0 m ρ c) main_arg18 (by decide)).trans (at0_main_arg18 m ρ c)
theorem at1_main_arg19 : W1 m ρ c (Proc.devRef .tc main_arg19) = (m ((c : Thread nD τ).loc main_arg19)) :=
  (keep_h0 (W0 m ρ c) main_arg19 (by decide)).trans (at0_main_arg19 m ρ c)
theorem at1_main_arg20 : W1 m ρ c (Proc.devRef .tc main_arg20) = (m ((c : Thread nD τ).loc main_arg20)) :=
  (keep_h0 (W0 m ρ c) main_arg20 (by decide)).trans (at0_main_arg20 m ρ c)
theorem at1_main_arg21 : W1 m ρ c (Proc.devRef .tc main_arg21) = (m ((c : Thread nD τ).loc main_arg21)) :=
  (keep_h0 (W0 m ρ c) main_arg21 (by decide)).trans (at0_main_arg21 m ρ c)
theorem at1_main_arg22 : W1 m ρ c (Proc.devRef .tc main_arg22) = (m ((c : Thread nD τ).loc main_arg22)) :=
  (keep_h0 (W0 m ρ c) main_arg22 (by decide)).trans (at0_main_arg22 m ρ c)
theorem at1_main_arg23 : W1 m ρ c (Proc.devRef .tc main_arg23) = (m ((c : Thread nD τ).loc main_arg23)) :=
  (keep_h0 (W0 m ρ c) main_arg23 (by decide)).trans (at0_main_arg23 m ρ c)
theorem at1_main_arg24 : W1 m ρ c (Proc.devRef .tc main_arg24) = (m ((c : Thread nD τ).loc main_arg24)) :=
  (keep_h0 (W0 m ρ c) main_arg24 (by decide)).trans (at0_main_arg24 m ρ c)
theorem at1_main_arg25 : W1 m ρ c (Proc.devRef .tc main_arg25) = (m ((c : Thread nD τ).loc main_arg25)) :=
  (keep_h0 (W0 m ρ c) main_arg25 (by decide)).trans (at0_main_arg25 m ρ c)
theorem at1_main_arg26 : W1 m ρ c (Proc.devRef .tc main_arg26) = (m ((c : Thread nD τ).loc main_arg26)) :=
  (keep_h0 (W0 m ρ c) main_arg26 (by decide)).trans (at0_main_arg26 m ρ c)
theorem at1_main_arg27 : W1 m ρ c (Proc.devRef .tc main_arg27) = (m ((c : Thread nD τ).loc main_arg27)) :=
  (keep_h0 (W0 m ρ c) main_arg27 (by decide)).trans (at0_main_arg27 m ρ c)
theorem at1_main_arg28 : W1 m ρ c (Proc.devRef .tc main_arg28) = (m ((c : Thread nD τ).loc main_arg28)) :=
  (keep_h0 (W0 m ρ c) main_arg28 (by decide)).trans (at0_main_arg28 m ρ c)

/-! ### Boundary 2 -/
theorem at2_main_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (at1_main_arg0 m ρ c)
theorem at2_main_arg2 : W2 m ρ c (Proc.devRef .tc main_arg2) = (m ((c : Thread nD τ).loc main_arg2)) :=
  (W2_of_ne m ρ c main_arg2 (by decide)).trans (at1_main_arg2 m ρ c)
theorem at2_main_arg5 : W2 m ρ c (Proc.devRef .tc main_arg5) = (m ((c : Thread nD τ).loc main_arg5)) :=
  (W2_of_ne m ρ c main_arg5 (by decide)).trans (at1_main_arg5 m ρ c)
theorem at2_main_arg6 : W2 m ρ c (Proc.devRef .tc main_arg6) = (m ((c : Thread nD τ).loc main_arg6)) :=
  (W2_of_ne m ρ c main_arg6 (by decide)).trans (at1_main_arg6 m ρ c)
theorem at2_main_arg1 : W2 m ρ c (Proc.devRef .tc main_arg1) = (m ((c : Thread nD τ).loc main_arg1)) :=
  (W2_of_ne m ρ c main_arg1 (by decide)).trans (at1_main_arg1 m ρ c)
theorem at2_main_arg3 : W2 m ρ c (Proc.devRef .tc main_arg3) = (m ((c : Thread nD τ).loc main_arg3)) :=
  (W2_of_ne m ρ c main_arg3 (by decide)).trans (at1_main_arg3 m ρ c)
theorem at2_main_arg7 : W2 m ρ c (Proc.devRef .tc main_arg7) = (m ((c : Thread nD τ).loc main_arg7)) :=
  (W2_of_ne m ρ c main_arg7 (by decide)).trans (at1_main_arg7 m ρ c)
theorem at2_main_arg8 : W2 m ρ c (Proc.devRef .tc main_arg8) = (m ((c : Thread nD τ).loc main_arg8)) :=
  (W2_of_ne m ρ c main_arg8 (by decide)).trans (at1_main_arg8 m ρ c)
theorem at2_main_arg14 : W2 m ρ c (Proc.devRef .tc main_arg14) = (m ((c : Thread nD τ).loc main_arg14)) :=
  (W2_of_ne m ρ c main_arg14 (by decide)).trans (at1_main_arg14 m ρ c)
theorem at2_main_arg15 : W2 m ρ c (Proc.devRef .tc main_arg15) = (m ((c : Thread nD τ).loc main_arg15)) :=
  (W2_of_ne m ρ c main_arg15 (by decide)).trans (at1_main_arg15 m ρ c)
theorem at2_main_arg16 : W2 m ρ c (Proc.devRef .tc main_arg16) = (m ((c : Thread nD τ).loc main_arg16)) :=
  (W2_of_ne m ρ c main_arg16 (by decide)).trans (at1_main_arg16 m ρ c)
theorem at2_main_arg4 : W2 m ρ c (Proc.devRef .tc main_arg4) = (m ((c : Thread nD τ).loc main_arg4)) :=
  (W2_of_ne m ρ c main_arg4 (by decide)).trans (at1_main_arg4 m ρ c)
theorem at2_main_arg9 : W2 m ρ c (Proc.devRef .tc main_arg9) = (m ((c : Thread nD τ).loc main_arg9)) :=
  (W2_of_ne m ρ c main_arg9 (by decide)).trans (at1_main_arg9 m ρ c)
theorem at2_main_arg10 : W2 m ρ c (Proc.devRef .tc main_arg10) = (m ((c : Thread nD τ).loc main_arg10)) :=
  (W2_of_ne m ρ c main_arg10 (by decide)).trans (at1_main_arg10 m ρ c)
theorem at2_main_arg17 : W2 m ρ c (Proc.devRef .tc main_arg17) = (m ((c : Thread nD τ).loc main_arg17)) :=
  (W2_of_ne m ρ c main_arg17 (by decide)).trans (at1_main_arg17 m ρ c)
theorem at2_main_arg18 : W2 m ρ c (Proc.devRef .tc main_arg18) = (m ((c : Thread nD τ).loc main_arg18)) :=
  (W2_of_ne m ρ c main_arg18 (by decide)).trans (at1_main_arg18 m ρ c)
theorem at2_main_arg19 : W2 m ρ c (Proc.devRef .tc main_arg19) = (m ((c : Thread nD τ).loc main_arg19)) :=
  (W2_of_ne m ρ c main_arg19 (by decide)).trans (at1_main_arg19 m ρ c)
/-- Launch 0's result array, from the arrays it reads as they stand at its entry. -/
theorem at2_main_v22 : W2 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  (W2_arr m ρ c 5).trans ((Blocks0.out (V1 m ρ) c).trans (by
    show Cert.Forms.relu50 (Cert.Forms.sage50 (W1 m ρ c (Proc.devRef .tc main_arg0)) (W1 m ρ c (Proc.devRef .tc main_v21)) (W1 m ρ c (Proc.devRef .tc main_arg11)) (W1 m ρ c (Proc.devRef .tc main_arg12)) (W1 m ρ c (Proc.devRef .tc main_arg13))) = _
    rw [at1_main_arg0 m ρ c, at1_main_v21 m ρ c, at1_main_arg11 m ρ c, at1_main_arg12 m ρ c, at1_main_arg13 m ρ c]))
theorem at2_main_arg20 : W2 m ρ c (Proc.devRef .tc main_arg20) = (m ((c : Thread nD τ).loc main_arg20)) :=
  (W2_of_ne m ρ c main_arg20 (by decide)).trans (at1_main_arg20 m ρ c)
theorem at2_main_arg21 : W2 m ρ c (Proc.devRef .tc main_arg21) = (m ((c : Thread nD τ).loc main_arg21)) :=
  (W2_of_ne m ρ c main_arg21 (by decide)).trans (at1_main_arg21 m ρ c)
theorem at2_main_arg22 : W2 m ρ c (Proc.devRef .tc main_arg22) = (m ((c : Thread nD τ).loc main_arg22)) :=
  (W2_of_ne m ρ c main_arg22 (by decide)).trans (at1_main_arg22 m ρ c)
theorem at2_main_arg23 : W2 m ρ c (Proc.devRef .tc main_arg23) = (m ((c : Thread nD τ).loc main_arg23)) :=
  (W2_of_ne m ρ c main_arg23 (by decide)).trans (at1_main_arg23 m ρ c)
theorem at2_main_arg24 : W2 m ρ c (Proc.devRef .tc main_arg24) = (m ((c : Thread nD τ).loc main_arg24)) :=
  (W2_of_ne m ρ c main_arg24 (by decide)).trans (at1_main_arg24 m ρ c)
theorem at2_main_arg25 : W2 m ρ c (Proc.devRef .tc main_arg25) = (m ((c : Thread nD τ).loc main_arg25)) :=
  (W2_of_ne m ρ c main_arg25 (by decide)).trans (at1_main_arg25 m ρ c)
theorem at2_main_arg26 : W2 m ρ c (Proc.devRef .tc main_arg26) = (m ((c : Thread nD τ).loc main_arg26)) :=
  (W2_of_ne m ρ c main_arg26 (by decide)).trans (at1_main_arg26 m ρ c)
theorem at2_main_arg27 : W2 m ρ c (Proc.devRef .tc main_arg27) = (m ((c : Thread nD τ).loc main_arg27)) :=
  (W2_of_ne m ρ c main_arg27 (by decide)).trans (at1_main_arg27 m ρ c)
theorem at2_main_arg28 : W2 m ρ c (Proc.devRef .tc main_arg28) = (m ((c : Thread nD τ).loc main_arg28)) :=
  (W2_of_ne m ρ c main_arg28 (by decide)).trans (at1_main_arg28 m ρ c)

/-! ### Boundary 3 -/
theorem at3_main_arg0 : W3 m ρ c (Proc.devRef .tc main_arg0) = (m ((c : Thread nD τ).loc main_arg0)) :=
  (keep_h1 (W2 m ρ c) main_arg0 (by decide)).trans (at2_main_arg0 m ρ c)
theorem at3_main_arg2 : W3 m ρ c (Proc.devRef .tc main_arg2) = (m ((c : Thread nD τ).loc main_arg2)) :=
  (keep_h1 (W2 m ρ c) main_arg2 (by decide)).trans (at2_main_arg2 m ρ c)
theorem at3_main_arg5 : W3 m ρ c (Proc.devRef .tc main_arg5) = (m ((c : Thread nD τ).loc main_arg5)) :=
  (keep_h1 (W2 m ρ c) main_arg5 (by decide)).trans (at2_main_arg5 m ρ c)
theorem at3_main_arg6 : W3 m ρ c (Proc.devRef .tc main_arg6) = (m ((c : Thread nD τ).loc main_arg6)) :=
  (keep_h1 (W2 m ρ c) main_arg6 (by decide)).trans (at2_main_arg6 m ρ c)
theorem at3_main_arg1 : W3 m ρ c (Proc.devRef .tc main_arg1) = (m ((c : Thread nD τ).loc main_arg1)) :=
  (keep_h1 (W2 m ρ c) main_arg1 (by decide)).trans (at2_main_arg1 m ρ c)
theorem at3_main_arg3 : W3 m ρ c (Proc.devRef .tc main_arg3) = (m ((c : Thread nD τ).loc main_arg3)) :=
  (keep_h1 (W2 m ρ c) main_arg3 (by decide)).trans (at2_main_arg3 m ρ c)
theorem at3_main_arg7 : W3 m ρ c (Proc.devRef .tc main_arg7) = (m ((c : Thread nD τ).loc main_arg7)) :=
  (keep_h1 (W2 m ρ c) main_arg7 (by decide)).trans (at2_main_arg7 m ρ c)
theorem at3_main_arg8 : W3 m ρ c (Proc.devRef .tc main_arg8) = (m ((c : Thread nD τ).loc main_arg8)) :=
  (keep_h1 (W2 m ρ c) main_arg8 (by decide)).trans (at2_main_arg8 m ρ c)
set_option maxHeartbeats 4000000 in
/-- Stretch 1's last buffer: the neighbour aggregation of what the stretch reads. -/
theorem at3_main_v44 : W3 m ρ c (Proc.devRef .tc main_v44) = (Cert.Forms.aggB (m ((c : Thread nD τ).loc main_arg1)) (m ((c : Thread nD τ).loc main_arg3)) (m ((c : Thread nD τ).loc main_arg7)) (m ((c : Thread nD τ).loc main_arg8))) := by
  show StableHlo.after hostOps1 (W2 m ρ c) (Proc.devRef .tc main_v44) = _
  after_results_simp
  rw [at2_main_arg1 m ρ c, at2_main_arg3 m ρ c, at2_main_arg7 m ρ c, at2_main_arg8 m ρ c]
  rfl
theorem at3_main_arg14 : W3 m ρ c (Proc.devRef .tc main_arg14) = (m ((c : Thread nD τ).loc main_arg14)) :=
  (keep_h1 (W2 m ρ c) main_arg14 (by decide)).trans (at2_main_arg14 m ρ c)
theorem at3_main_arg15 : W3 m ρ c (Proc.devRef .tc main_arg15) = (m ((c : Thread nD τ).loc main_arg15)) :=
  (keep_h1 (W2 m ρ c) main_arg15 (by decide)).trans (at2_main_arg15 m ρ c)
theorem at3_main_arg16 : W3 m ρ c (Proc.devRef .tc main_arg16) = (m ((c : Thread nD τ).loc main_arg16)) :=
  (keep_h1 (W2 m ρ c) main_arg16 (by decide)).trans (at2_main_arg16 m ρ c)
theorem at3_main_arg4 : W3 m ρ c (Proc.devRef .tc main_arg4) = (m ((c : Thread nD τ).loc main_arg4)) :=
  (keep_h1 (W2 m ρ c) main_arg4 (by decide)).trans (at2_main_arg4 m ρ c)
theorem at3_main_arg9 : W3 m ρ c (Proc.devRef .tc main_arg9) = (m ((c : Thread nD τ).loc main_arg9)) :=
  (keep_h1 (W2 m ρ c) main_arg9 (by decide)).trans (at2_main_arg9 m ρ c)
theorem at3_main_arg10 : W3 m ρ c (Proc.devRef .tc main_arg10) = (m ((c : Thread nD τ).loc main_arg10)) :=
  (keep_h1 (W2 m ρ c) main_arg10 (by decide)).trans (at2_main_arg10 m ρ c)
theorem at3_main_arg17 : W3 m ρ c (Proc.devRef .tc main_arg17) = (m ((c : Thread nD τ).loc main_arg17)) :=
  (keep_h1 (W2 m ρ c) main_arg17 (by decide)).trans (at2_main_arg17 m ρ c)
theorem at3_main_arg18 : W3 m ρ c (Proc.devRef .tc main_arg18) = (m ((c : Thread nD τ).loc main_arg18)) :=
  (keep_h1 (W2 m ρ c) main_arg18 (by decide)).trans (at2_main_arg18 m ρ c)
theorem at3_main_arg19 : W3 m ρ c (Proc.devRef .tc main_arg19) = (m ((c : Thread nD τ).loc main_arg19)) :=
  (keep_h1 (W2 m ρ c) main_arg19 (by decide)).trans (at2_main_arg19 m ρ c)
theorem at3_main_v22 : W3 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  (keep_h1 (W2 m ρ c) main_v22 (by decide)).trans (at2_main_v22 m ρ c)
theorem at3_main_arg20 : W3 m ρ c (Proc.devRef .tc main_arg20) = (m ((c : Thread nD τ).loc main_arg20)) :=
  (keep_h1 (W2 m ρ c) main_arg20 (by decide)).trans (at2_main_arg20 m ρ c)
theorem at3_main_arg21 : W3 m ρ c (Proc.devRef .tc main_arg21) = (m ((c : Thread nD τ).loc main_arg21)) :=
  (keep_h1 (W2 m ρ c) main_arg21 (by decide)).trans (at2_main_arg21 m ρ c)
theorem at3_main_arg22 : W3 m ρ c (Proc.devRef .tc main_arg22) = (m ((c : Thread nD τ).loc main_arg22)) :=
  (keep_h1 (W2 m ρ c) main_arg22 (by decide)).trans (at2_main_arg22 m ρ c)
theorem at3_main_arg23 : W3 m ρ c (Proc.devRef .tc main_arg23) = (m ((c : Thread nD τ).loc main_arg23)) :=
  (keep_h1 (W2 m ρ c) main_arg23 (by decide)).trans (at2_main_arg23 m ρ c)
theorem at3_main_arg24 : W3 m ρ c (Proc.devRef .tc main_arg24) = (m ((c : Thread nD τ).loc main_arg24)) :=
  (keep_h1 (W2 m ρ c) main_arg24 (by decide)).trans (at2_main_arg24 m ρ c)
theorem at3_main_arg25 : W3 m ρ c (Proc.devRef .tc main_arg25) = (m ((c : Thread nD τ).loc main_arg25)) :=
  (keep_h1 (W2 m ρ c) main_arg25 (by decide)).trans (at2_main_arg25 m ρ c)
theorem at3_main_arg26 : W3 m ρ c (Proc.devRef .tc main_arg26) = (m ((c : Thread nD τ).loc main_arg26)) :=
  (keep_h1 (W2 m ρ c) main_arg26 (by decide)).trans (at2_main_arg26 m ρ c)
theorem at3_main_arg27 : W3 m ρ c (Proc.devRef .tc main_arg27) = (m ((c : Thread nD τ).loc main_arg27)) :=
  (keep_h1 (W2 m ρ c) main_arg27 (by decide)).trans (at2_main_arg27 m ρ c)
theorem at3_main_arg28 : W3 m ρ c (Proc.devRef .tc main_arg28) = (m ((c : Thread nD τ).loc main_arg28)) :=
  (keep_h1 (W2 m ρ c) main_arg28 (by decide)).trans (at2_main_arg28 m ρ c)

/-! ### Boundary 4 -/
theorem at4_main_arg0 : W4 m ρ c (Proc.devRef .tc main_arg0) = (m ((c : Thread nD τ).loc main_arg0)) :=
  (W4_of_ne m ρ c main_arg0 (by decide)).trans (at3_main_arg0 m ρ c)
theorem at4_main_arg2 : W4 m ρ c (Proc.devRef .tc main_arg2) = (m ((c : Thread nD τ).loc main_arg2)) :=
  (W4_of_ne m ρ c main_arg2 (by decide)).trans (at3_main_arg2 m ρ c)
theorem at4_main_arg5 : W4 m ρ c (Proc.devRef .tc main_arg5) = (m ((c : Thread nD τ).loc main_arg5)) :=
  (W4_of_ne m ρ c main_arg5 (by decide)).trans (at3_main_arg5 m ρ c)
theorem at4_main_arg6 : W4 m ρ c (Proc.devRef .tc main_arg6) = (m ((c : Thread nD τ).loc main_arg6)) :=
  (W4_of_ne m ρ c main_arg6 (by decide)).trans (at3_main_arg6 m ρ c)
theorem at4_main_arg1 : W4 m ρ c (Proc.devRef .tc main_arg1) = (m ((c : Thread nD τ).loc main_arg1)) :=
  ((W4_arr m ρ c 0).trans (((dat1 (V3 m ρ) c).arrAt_in 0 rfl _).trans (A_eq1 (V3 m ρ) c 0))).trans (at3_main_arg1 m ρ c)
theorem at4_main_arg3 : W4 m ρ c (Proc.devRef .tc main_arg3) = (m ((c : Thread nD τ).loc main_arg3)) :=
  (W4_of_ne m ρ c main_arg3 (by decide)).trans (at3_main_arg3 m ρ c)
theorem at4_main_arg7 : W4 m ρ c (Proc.devRef .tc main_arg7) = (m ((c : Thread nD τ).loc main_arg7)) :=
  (W4_of_ne m ρ c main_arg7 (by decide)).trans (at3_main_arg7 m ρ c)
theorem at4_main_arg8 : W4 m ρ c (Proc.devRef .tc main_arg8) = (m ((c : Thread nD τ).loc main_arg8)) :=
  (W4_of_ne m ρ c main_arg8 (by decide)).trans (at3_main_arg8 m ρ c)
theorem at4_main_arg4 : W4 m ρ c (Proc.devRef .tc main_arg4) = (m ((c : Thread nD τ).loc main_arg4)) :=
  (W4_of_ne m ρ c main_arg4 (by decide)).trans (at3_main_arg4 m ρ c)
theorem at4_main_arg9 : W4 m ρ c (Proc.devRef .tc main_arg9) = (m ((c : Thread nD τ).loc main_arg9)) :=
  (W4_of_ne m ρ c main_arg9 (by decide)).trans (at3_main_arg9 m ρ c)
theorem at4_main_arg10 : W4 m ρ c (Proc.devRef .tc main_arg10) = (m ((c : Thread nD τ).loc main_arg10)) :=
  (W4_of_ne m ρ c main_arg10 (by decide)).trans (at3_main_arg10 m ρ c)
theorem at4_main_arg17 : W4 m ρ c (Proc.devRef .tc main_arg17) = (m ((c : Thread nD τ).loc main_arg17)) :=
  (W4_of_ne m ρ c main_arg17 (by decide)).trans (at3_main_arg17 m ρ c)
theorem at4_main_arg18 : W4 m ρ c (Proc.devRef .tc main_arg18) = (m ((c : Thread nD τ).loc main_arg18)) :=
  (W4_of_ne m ρ c main_arg18 (by decide)).trans (at3_main_arg18 m ρ c)
theorem at4_main_arg19 : W4 m ρ c (Proc.devRef .tc main_arg19) = (m ((c : Thread nD τ).loc main_arg19)) :=
  (W4_of_ne m ρ c main_arg19 (by decide)).trans (at3_main_arg19 m ρ c)
/-- Launch 1's result array, from the arrays it reads as they stand at its entry. -/
theorem at4_main_v45 : W4 m ρ c (Proc.devRef .tc main_v45) = (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) :=
  (W4_arr m ρ c 5).trans ((Blocks1.out (V3 m ρ) c).trans (by
    show Cert.Forms.sage20 (W3 m ρ c (Proc.devRef .tc main_arg1)) (W3 m ρ c (Proc.devRef .tc main_v44)) (W3 m ρ c (Proc.devRef .tc main_arg14)) (W3 m ρ c (Proc.devRef .tc main_arg15)) (W3 m ρ c (Proc.devRef .tc main_arg16)) = _
    rw [at3_main_arg1 m ρ c, at3_main_v44 m ρ c, at3_main_arg14 m ρ c, at3_main_arg15 m ρ c, at3_main_arg16 m ρ c]))
theorem at4_main_v22 : W4 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  (W4_of_ne m ρ c main_v22 (by decide)).trans (at3_main_v22 m ρ c)
theorem at4_main_arg20 : W4 m ρ c (Proc.devRef .tc main_arg20) = (m ((c : Thread nD τ).loc main_arg20)) :=
  (W4_of_ne m ρ c main_arg20 (by decide)).trans (at3_main_arg20 m ρ c)
theorem at4_main_arg21 : W4 m ρ c (Proc.devRef .tc main_arg21) = (m ((c : Thread nD τ).loc main_arg21)) :=
  (W4_of_ne m ρ c main_arg21 (by decide)).trans (at3_main_arg21 m ρ c)
theorem at4_main_arg22 : W4 m ρ c (Proc.devRef .tc main_arg22) = (m ((c : Thread nD τ).loc main_arg22)) :=
  (W4_of_ne m ρ c main_arg22 (by decide)).trans (at3_main_arg22 m ρ c)
theorem at4_main_arg23 : W4 m ρ c (Proc.devRef .tc main_arg23) = (m ((c : Thread nD τ).loc main_arg23)) :=
  (W4_of_ne m ρ c main_arg23 (by decide)).trans (at3_main_arg23 m ρ c)
theorem at4_main_arg24 : W4 m ρ c (Proc.devRef .tc main_arg24) = (m ((c : Thread nD τ).loc main_arg24)) :=
  (W4_of_ne m ρ c main_arg24 (by decide)).trans (at3_main_arg24 m ρ c)
theorem at4_main_arg25 : W4 m ρ c (Proc.devRef .tc main_arg25) = (m ((c : Thread nD τ).loc main_arg25)) :=
  (W4_of_ne m ρ c main_arg25 (by decide)).trans (at3_main_arg25 m ρ c)
theorem at4_main_arg26 : W4 m ρ c (Proc.devRef .tc main_arg26) = (m ((c : Thread nD τ).loc main_arg26)) :=
  (W4_of_ne m ρ c main_arg26 (by decide)).trans (at3_main_arg26 m ρ c)
theorem at4_main_arg27 : W4 m ρ c (Proc.devRef .tc main_arg27) = (m ((c : Thread nD τ).loc main_arg27)) :=
  (W4_of_ne m ρ c main_arg27 (by decide)).trans (at3_main_arg27 m ρ c)
theorem at4_main_arg28 : W4 m ρ c (Proc.devRef .tc main_arg28) = (m ((c : Thread nD τ).loc main_arg28)) :=
  (W4_of_ne m ρ c main_arg28 (by decide)).trans (at3_main_arg28 m ρ c)

/-! ### Boundary 5 -/
theorem at5_main_arg2 : W5 m ρ c (Proc.devRef .tc main_arg2) = (m ((c : Thread nD τ).loc main_arg2)) :=
  (keep_h2 (W4 m ρ c) main_arg2 (by decide)).trans (at4_main_arg2 m ρ c)
theorem at5_main_arg5 : W5 m ρ c (Proc.devRef .tc main_arg5) = (m ((c : Thread nD τ).loc main_arg5)) :=
  (keep_h2 (W4 m ρ c) main_arg5 (by decide)).trans (at4_main_arg5 m ρ c)
theorem at5_main_arg6 : W5 m ρ c (Proc.devRef .tc main_arg6) = (m ((c : Thread nD τ).loc main_arg6)) :=
  (keep_h2 (W4 m ρ c) main_arg6 (by decide)).trans (at4_main_arg6 m ρ c)
theorem at5_main_arg1 : W5 m ρ c (Proc.devRef .tc main_arg1) = (m ((c : Thread nD τ).loc main_arg1)) :=
  (keep_h2 (W4 m ρ c) main_arg1 (by decide)).trans (at4_main_arg1 m ρ c)
theorem at5_main_arg3 : W5 m ρ c (Proc.devRef .tc main_arg3) = (m ((c : Thread nD τ).loc main_arg3)) :=
  (keep_h2 (W4 m ρ c) main_arg3 (by decide)).trans (at4_main_arg3 m ρ c)
theorem at5_main_arg7 : W5 m ρ c (Proc.devRef .tc main_arg7) = (m ((c : Thread nD τ).loc main_arg7)) :=
  (keep_h2 (W4 m ρ c) main_arg7 (by decide)).trans (at4_main_arg7 m ρ c)
theorem at5_main_arg8 : W5 m ρ c (Proc.devRef .tc main_arg8) = (m ((c : Thread nD τ).loc main_arg8)) :=
  (keep_h2 (W4 m ρ c) main_arg8 (by decide)).trans (at4_main_arg8 m ρ c)
theorem at5_main_arg4 : W5 m ρ c (Proc.devRef .tc main_arg4) = (m ((c : Thread nD τ).loc main_arg4)) :=
  (keep_h2 (W4 m ρ c) main_arg4 (by decide)).trans (at4_main_arg4 m ρ c)
theorem at5_main_arg9 : W5 m ρ c (Proc.devRef .tc main_arg9) = (m ((c : Thread nD τ).loc main_arg9)) :=
  (keep_h2 (W4 m ρ c) main_arg9 (by decide)).trans (at4_main_arg9 m ρ c)
theorem at5_main_arg10 : W5 m ρ c (Proc.devRef .tc main_arg10) = (m ((c : Thread nD τ).loc main_arg10)) :=
  (keep_h2 (W4 m ρ c) main_arg10 (by decide)).trans (at4_main_arg10 m ρ c)
set_option maxHeartbeats 4000000 in
/-- Stretch 2's last buffer: the neighbour aggregation of what the stretch reads. -/
theorem at5_main_v67 : W5 m ρ c (Proc.devRef .tc main_v67) = (Cert.Forms.aggC (m ((c : Thread nD τ).loc main_arg0)) (m ((c : Thread nD τ).loc main_arg4)) (m ((c : Thread nD τ).loc main_arg9)) (m ((c : Thread nD τ).loc main_arg10))) := by
  show StableHlo.after hostOps2 (W4 m ρ c) (Proc.devRef .tc main_v67) = _
  after_results_simp
  rw [at4_main_arg0 m ρ c, at4_main_arg4 m ρ c, at4_main_arg9 m ρ c, at4_main_arg10 m ρ c]
  rfl
theorem at5_main_arg17 : W5 m ρ c (Proc.devRef .tc main_arg17) = (m ((c : Thread nD τ).loc main_arg17)) :=
  (keep_h2 (W4 m ρ c) main_arg17 (by decide)).trans (at4_main_arg17 m ρ c)
theorem at5_main_arg18 : W5 m ρ c (Proc.devRef .tc main_arg18) = (m ((c : Thread nD τ).loc main_arg18)) :=
  (keep_h2 (W4 m ρ c) main_arg18 (by decide)).trans (at4_main_arg18 m ρ c)
theorem at5_main_arg19 : W5 m ρ c (Proc.devRef .tc main_arg19) = (m ((c : Thread nD τ).loc main_arg19)) :=
  (keep_h2 (W4 m ρ c) main_arg19 (by decide)).trans (at4_main_arg19 m ρ c)
theorem at5_main_v45 : W5 m ρ c (Proc.devRef .tc main_v45) = (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) :=
  (keep_h2 (W4 m ρ c) main_v45 (by decide)).trans (at4_main_v45 m ρ c)
theorem at5_main_v22 : W5 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  (keep_h2 (W4 m ρ c) main_v22 (by decide)).trans (at4_main_v22 m ρ c)
theorem at5_main_arg20 : W5 m ρ c (Proc.devRef .tc main_arg20) = (m ((c : Thread nD τ).loc main_arg20)) :=
  (keep_h2 (W4 m ρ c) main_arg20 (by decide)).trans (at4_main_arg20 m ρ c)
theorem at5_main_arg21 : W5 m ρ c (Proc.devRef .tc main_arg21) = (m ((c : Thread nD τ).loc main_arg21)) :=
  (keep_h2 (W4 m ρ c) main_arg21 (by decide)).trans (at4_main_arg21 m ρ c)
theorem at5_main_arg22 : W5 m ρ c (Proc.devRef .tc main_arg22) = (m ((c : Thread nD τ).loc main_arg22)) :=
  (keep_h2 (W4 m ρ c) main_arg22 (by decide)).trans (at4_main_arg22 m ρ c)
theorem at5_main_arg23 : W5 m ρ c (Proc.devRef .tc main_arg23) = (m ((c : Thread nD τ).loc main_arg23)) :=
  (keep_h2 (W4 m ρ c) main_arg23 (by decide)).trans (at4_main_arg23 m ρ c)
theorem at5_main_arg24 : W5 m ρ c (Proc.devRef .tc main_arg24) = (m ((c : Thread nD τ).loc main_arg24)) :=
  (keep_h2 (W4 m ρ c) main_arg24 (by decide)).trans (at4_main_arg24 m ρ c)
theorem at5_main_arg25 : W5 m ρ c (Proc.devRef .tc main_arg25) = (m ((c : Thread nD τ).loc main_arg25)) :=
  (keep_h2 (W4 m ρ c) main_arg25 (by decide)).trans (at4_main_arg25 m ρ c)
theorem at5_main_arg26 : W5 m ρ c (Proc.devRef .tc main_arg26) = (m ((c : Thread nD τ).loc main_arg26)) :=
  (keep_h2 (W4 m ρ c) main_arg26 (by decide)).trans (at4_main_arg26 m ρ c)
theorem at5_main_arg27 : W5 m ρ c (Proc.devRef .tc main_arg27) = (m ((c : Thread nD τ).loc main_arg27)) :=
  (keep_h2 (W4 m ρ c) main_arg27 (by decide)).trans (at4_main_arg27 m ρ c)
theorem at5_main_arg28 : W5 m ρ c (Proc.devRef .tc main_arg28) = (m ((c : Thread nD τ).loc main_arg28)) :=
  (keep_h2 (W4 m ρ c) main_arg28 (by decide)).trans (at4_main_arg28 m ρ c)

/-! ### Boundary 6 -/
theorem at6_main_arg2 : W6 m ρ c (Proc.devRef .tc main_arg2) = (m ((c : Thread nD τ).loc main_arg2)) :=
  (W6_of_ne m ρ c main_arg2 (by decide)).trans (at5_main_arg2 m ρ c)
theorem at6_main_arg5 : W6 m ρ c (Proc.devRef .tc main_arg5) = (m ((c : Thread nD τ).loc main_arg5)) :=
  (W6_of_ne m ρ c main_arg5 (by decide)).trans (at5_main_arg5 m ρ c)
theorem at6_main_arg6 : W6 m ρ c (Proc.devRef .tc main_arg6) = (m ((c : Thread nD τ).loc main_arg6)) :=
  (W6_of_ne m ρ c main_arg6 (by decide)).trans (at5_main_arg6 m ρ c)
theorem at6_main_arg3 : W6 m ρ c (Proc.devRef .tc main_arg3) = (m ((c : Thread nD τ).loc main_arg3)) :=
  (W6_of_ne m ρ c main_arg3 (by decide)).trans (at5_main_arg3 m ρ c)
theorem at6_main_arg7 : W6 m ρ c (Proc.devRef .tc main_arg7) = (m ((c : Thread nD τ).loc main_arg7)) :=
  (W6_of_ne m ρ c main_arg7 (by decide)).trans (at5_main_arg7 m ρ c)
theorem at6_main_arg8 : W6 m ρ c (Proc.devRef .tc main_arg8) = (m ((c : Thread nD τ).loc main_arg8)) :=
  (W6_of_ne m ρ c main_arg8 (by decide)).trans (at5_main_arg8 m ρ c)
theorem at6_main_arg4 : W6 m ρ c (Proc.devRef .tc main_arg4) = (m ((c : Thread nD τ).loc main_arg4)) :=
  (W6_of_ne m ρ c main_arg4 (by decide)).trans (at5_main_arg4 m ρ c)
theorem at6_main_arg9 : W6 m ρ c (Proc.devRef .tc main_arg9) = (m ((c : Thread nD τ).loc main_arg9)) :=
  (W6_of_ne m ρ c main_arg9 (by decide)).trans (at5_main_arg9 m ρ c)
theorem at6_main_arg10 : W6 m ρ c (Proc.devRef .tc main_arg10) = (m ((c : Thread nD τ).loc main_arg10)) :=
  (W6_of_ne m ρ c main_arg10 (by decide)).trans (at5_main_arg10 m ρ c)
theorem at6_main_v45 : W6 m ρ c (Proc.devRef .tc main_v45) = (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) :=
  (W6_of_ne m ρ c main_v45 (by decide)).trans (at5_main_v45 m ρ c)
/-- Launch 2's result array, from the arrays it reads as they stand at its entry. -/
theorem at6_main_v68 : W6 m ρ c (Proc.devRef .tc main_v68) = (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))) :=
  (W6_arr m ρ c 5).trans ((Blocks2.out (V5 m ρ) c).trans (by
    show Cert.Forms.sage20 (W5 m ρ c (Proc.devRef .tc main_arg1)) (W5 m ρ c (Proc.devRef .tc main_v67)) (W5 m ρ c (Proc.devRef .tc main_arg17)) (W5 m ρ c (Proc.devRef .tc main_arg18)) (W5 m ρ c (Proc.devRef .tc main_arg19)) = _
    rw [at5_main_arg1 m ρ c, at5_main_v67 m ρ c, at5_main_arg17 m ρ c, at5_main_arg18 m ρ c, at5_main_arg19 m ρ c]))
theorem at6_main_v22 : W6 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  (W6_of_ne m ρ c main_v22 (by decide)).trans (at5_main_v22 m ρ c)
theorem at6_main_arg20 : W6 m ρ c (Proc.devRef .tc main_arg20) = (m ((c : Thread nD τ).loc main_arg20)) :=
  (W6_of_ne m ρ c main_arg20 (by decide)).trans (at5_main_arg20 m ρ c)
theorem at6_main_arg21 : W6 m ρ c (Proc.devRef .tc main_arg21) = (m ((c : Thread nD τ).loc main_arg21)) :=
  (W6_of_ne m ρ c main_arg21 (by decide)).trans (at5_main_arg21 m ρ c)
theorem at6_main_arg22 : W6 m ρ c (Proc.devRef .tc main_arg22) = (m ((c : Thread nD τ).loc main_arg22)) :=
  (W6_of_ne m ρ c main_arg22 (by decide)).trans (at5_main_arg22 m ρ c)
theorem at6_main_arg23 : W6 m ρ c (Proc.devRef .tc main_arg23) = (m ((c : Thread nD τ).loc main_arg23)) :=
  (W6_of_ne m ρ c main_arg23 (by decide)).trans (at5_main_arg23 m ρ c)
theorem at6_main_arg24 : W6 m ρ c (Proc.devRef .tc main_arg24) = (m ((c : Thread nD τ).loc main_arg24)) :=
  (W6_of_ne m ρ c main_arg24 (by decide)).trans (at5_main_arg24 m ρ c)
theorem at6_main_arg25 : W6 m ρ c (Proc.devRef .tc main_arg25) = (m ((c : Thread nD τ).loc main_arg25)) :=
  (W6_of_ne m ρ c main_arg25 (by decide)).trans (at5_main_arg25 m ρ c)
theorem at6_main_arg26 : W6 m ρ c (Proc.devRef .tc main_arg26) = (m ((c : Thread nD τ).loc main_arg26)) :=
  (W6_of_ne m ρ c main_arg26 (by decide)).trans (at5_main_arg26 m ρ c)
theorem at6_main_arg27 : W6 m ρ c (Proc.devRef .tc main_arg27) = (m ((c : Thread nD τ).loc main_arg27)) :=
  (W6_of_ne m ρ c main_arg27 (by decide)).trans (at5_main_arg27 m ρ c)
theorem at6_main_arg28 : W6 m ρ c (Proc.devRef .tc main_arg28) = (m ((c : Thread nD τ).loc main_arg28)) :=
  (W6_of_ne m ρ c main_arg28 (by decide)).trans (at5_main_arg28 m ρ c)

/-! ### Boundary 7 -/
theorem at7_main_arg2 : W7 m ρ c (Proc.devRef .tc main_arg2) = (m ((c : Thread nD τ).loc main_arg2)) :=
  (W7_of_ne m ρ c main_arg2 (by decide)).trans (at6_main_arg2 m ρ c)
theorem at7_main_arg5 : W7 m ρ c (Proc.devRef .tc main_arg5) = (m ((c : Thread nD τ).loc main_arg5)) :=
  (W7_of_ne m ρ c main_arg5 (by decide)).trans (at6_main_arg5 m ρ c)
theorem at7_main_arg6 : W7 m ρ c (Proc.devRef .tc main_arg6) = (m ((c : Thread nD τ).loc main_arg6)) :=
  (W7_of_ne m ρ c main_arg6 (by decide)).trans (at6_main_arg6 m ρ c)
theorem at7_main_arg3 : W7 m ρ c (Proc.devRef .tc main_arg3) = (m ((c : Thread nD τ).loc main_arg3)) :=
  (W7_of_ne m ρ c main_arg3 (by decide)).trans (at6_main_arg3 m ρ c)
theorem at7_main_arg7 : W7 m ρ c (Proc.devRef .tc main_arg7) = (m ((c : Thread nD τ).loc main_arg7)) :=
  (W7_of_ne m ρ c main_arg7 (by decide)).trans (at6_main_arg7 m ρ c)
theorem at7_main_arg8 : W7 m ρ c (Proc.devRef .tc main_arg8) = (m ((c : Thread nD τ).loc main_arg8)) :=
  (W7_of_ne m ρ c main_arg8 (by decide)).trans (at6_main_arg8 m ρ c)
theorem at7_main_arg4 : W7 m ρ c (Proc.devRef .tc main_arg4) = (m ((c : Thread nD τ).loc main_arg4)) :=
  (W7_of_ne m ρ c main_arg4 (by decide)).trans (at6_main_arg4 m ρ c)
theorem at7_main_arg9 : W7 m ρ c (Proc.devRef .tc main_arg9) = (m ((c : Thread nD τ).loc main_arg9)) :=
  (W7_of_ne m ρ c main_arg9 (by decide)).trans (at6_main_arg9 m ρ c)
theorem at7_main_arg10 : W7 m ρ c (Proc.devRef .tc main_arg10) = (m ((c : Thread nD τ).loc main_arg10)) :=
  (W7_of_ne m ρ c main_arg10 (by decide)).trans (at6_main_arg10 m ρ c)
theorem at7_main_v22 : W7 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  (W7_of_ne m ρ c main_v22 (by decide)).trans (at6_main_v22 m ρ c)
theorem at7_main_arg20 : W7 m ρ c (Proc.devRef .tc main_arg20) = (m ((c : Thread nD τ).loc main_arg20)) :=
  (W7_of_ne m ρ c main_arg20 (by decide)).trans (at6_main_arg20 m ρ c)
theorem at7_main_arg21 : W7 m ρ c (Proc.devRef .tc main_arg21) = (m ((c : Thread nD τ).loc main_arg21)) :=
  (W7_of_ne m ρ c main_arg21 (by decide)).trans (at6_main_arg21 m ρ c)
theorem at7_main_arg22 : W7 m ρ c (Proc.devRef .tc main_arg22) = (m ((c : Thread nD τ).loc main_arg22)) :=
  (W7_of_ne m ρ c main_arg22 (by decide)).trans (at6_main_arg22 m ρ c)
/-- Launch 3's result array, from the arrays it reads as they stand at its entry. -/
theorem at7_main_v69 : W7 m ρ c (Proc.devRef .tc main_v69) = (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) :=
  (W7_arr m ρ c 2).trans ((Blocks3.out (V6 m ρ) c).trans (by
    show Cert.Forms.relu20 (Cert.Forms.half20 (W6 m ρ c (Proc.devRef .tc main_v45)) (W6 m ρ c (Proc.devRef .tc main_v68))) = _
    rw [at6_main_v45 m ρ c, at6_main_v68 m ρ c]))
theorem at7_main_arg23 : W7 m ρ c (Proc.devRef .tc main_arg23) = (m ((c : Thread nD τ).loc main_arg23)) :=
  (W7_of_ne m ρ c main_arg23 (by decide)).trans (at6_main_arg23 m ρ c)
theorem at7_main_arg24 : W7 m ρ c (Proc.devRef .tc main_arg24) = (m ((c : Thread nD τ).loc main_arg24)) :=
  (W7_of_ne m ρ c main_arg24 (by decide)).trans (at6_main_arg24 m ρ c)
theorem at7_main_arg25 : W7 m ρ c (Proc.devRef .tc main_arg25) = (m ((c : Thread nD τ).loc main_arg25)) :=
  (W7_of_ne m ρ c main_arg25 (by decide)).trans (at6_main_arg25 m ρ c)
theorem at7_main_arg26 : W7 m ρ c (Proc.devRef .tc main_arg26) = (m ((c : Thread nD τ).loc main_arg26)) :=
  (W7_of_ne m ρ c main_arg26 (by decide)).trans (at6_main_arg26 m ρ c)
theorem at7_main_arg27 : W7 m ρ c (Proc.devRef .tc main_arg27) = (m ((c : Thread nD τ).loc main_arg27)) :=
  (W7_of_ne m ρ c main_arg27 (by decide)).trans (at6_main_arg27 m ρ c)
theorem at7_main_arg28 : W7 m ρ c (Proc.devRef .tc main_arg28) = (m ((c : Thread nD τ).loc main_arg28)) :=
  (W7_of_ne m ρ c main_arg28 (by decide)).trans (at6_main_arg28 m ρ c)

/-! ### Boundary 8 -/
theorem at8_main_arg3 : W8 m ρ c (Proc.devRef .tc main_arg3) = (m ((c : Thread nD τ).loc main_arg3)) :=
  (keep_h4 (W7 m ρ c) main_arg3 (by decide)).trans (at7_main_arg3 m ρ c)
theorem at8_main_arg7 : W8 m ρ c (Proc.devRef .tc main_arg7) = (m ((c : Thread nD τ).loc main_arg7)) :=
  (keep_h4 (W7 m ρ c) main_arg7 (by decide)).trans (at7_main_arg7 m ρ c)
theorem at8_main_arg8 : W8 m ρ c (Proc.devRef .tc main_arg8) = (m ((c : Thread nD τ).loc main_arg8)) :=
  (keep_h4 (W7 m ρ c) main_arg8 (by decide)).trans (at7_main_arg8 m ρ c)
theorem at8_main_arg4 : W8 m ρ c (Proc.devRef .tc main_arg4) = (m ((c : Thread nD τ).loc main_arg4)) :=
  (keep_h4 (W7 m ρ c) main_arg4 (by decide)).trans (at7_main_arg4 m ρ c)
theorem at8_main_arg9 : W8 m ρ c (Proc.devRef .tc main_arg9) = (m ((c : Thread nD τ).loc main_arg9)) :=
  (keep_h4 (W7 m ρ c) main_arg9 (by decide)).trans (at7_main_arg9 m ρ c)
theorem at8_main_arg10 : W8 m ρ c (Proc.devRef .tc main_arg10) = (m ((c : Thread nD τ).loc main_arg10)) :=
  (keep_h4 (W7 m ρ c) main_arg10 (by decide)).trans (at7_main_arg10 m ρ c)
theorem at8_main_v22 : W8 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  (keep_h4 (W7 m ρ c) main_v22 (by decide)).trans (at7_main_v22 m ρ c)
set_option maxHeartbeats 4000000 in
/-- Stretch 4's last buffer: the neighbour aggregation of what the stretch reads. -/
theorem at8_main_v91 : W8 m ρ c (Proc.devRef .tc main_v91) = (Cert.Forms.aggA (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg2)) (m ((c : Thread nD τ).loc main_arg5)) (m ((c : Thread nD τ).loc main_arg6))) := by
  show StableHlo.after hostOps4 (W7 m ρ c) (Proc.devRef .tc main_v91) = _
  after_results_simp
  rw [at7_main_v22 m ρ c, at7_main_arg2 m ρ c, at7_main_arg5 m ρ c, at7_main_arg6 m ρ c]
  rfl
theorem at8_main_arg20 : W8 m ρ c (Proc.devRef .tc main_arg20) = (m ((c : Thread nD τ).loc main_arg20)) :=
  (keep_h4 (W7 m ρ c) main_arg20 (by decide)).trans (at7_main_arg20 m ρ c)
theorem at8_main_arg21 : W8 m ρ c (Proc.devRef .tc main_arg21) = (m ((c : Thread nD τ).loc main_arg21)) :=
  (keep_h4 (W7 m ρ c) main_arg21 (by decide)).trans (at7_main_arg21 m ρ c)
theorem at8_main_arg22 : W8 m ρ c (Proc.devRef .tc main_arg22) = (m ((c : Thread nD τ).loc main_arg22)) :=
  (keep_h4 (W7 m ρ c) main_arg22 (by decide)).trans (at7_main_arg22 m ρ c)
theorem at8_main_v69 : W8 m ρ c (Proc.devRef .tc main_v69) = (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) :=
  (keep_h4 (W7 m ρ c) main_v69 (by decide)).trans (at7_main_v69 m ρ c)
theorem at8_main_arg23 : W8 m ρ c (Proc.devRef .tc main_arg23) = (m ((c : Thread nD τ).loc main_arg23)) :=
  (keep_h4 (W7 m ρ c) main_arg23 (by decide)).trans (at7_main_arg23 m ρ c)
theorem at8_main_arg24 : W8 m ρ c (Proc.devRef .tc main_arg24) = (m ((c : Thread nD τ).loc main_arg24)) :=
  (keep_h4 (W7 m ρ c) main_arg24 (by decide)).trans (at7_main_arg24 m ρ c)
theorem at8_main_arg25 : W8 m ρ c (Proc.devRef .tc main_arg25) = (m ((c : Thread nD τ).loc main_arg25)) :=
  (keep_h4 (W7 m ρ c) main_arg25 (by decide)).trans (at7_main_arg25 m ρ c)
theorem at8_main_arg26 : W8 m ρ c (Proc.devRef .tc main_arg26) = (m ((c : Thread nD τ).loc main_arg26)) :=
  (keep_h4 (W7 m ρ c) main_arg26 (by decide)).trans (at7_main_arg26 m ρ c)
theorem at8_main_arg27 : W8 m ρ c (Proc.devRef .tc main_arg27) = (m ((c : Thread nD τ).loc main_arg27)) :=
  (keep_h4 (W7 m ρ c) main_arg27 (by decide)).trans (at7_main_arg27 m ρ c)
theorem at8_main_arg28 : W8 m ρ c (Proc.devRef .tc main_arg28) = (m ((c : Thread nD τ).loc main_arg28)) :=
  (keep_h4 (W7 m ρ c) main_arg28 (by decide)).trans (at7_main_arg28 m ρ c)

/-! ### Boundary 9 -/
theorem at9_main_arg3 : W9 m ρ c (Proc.devRef .tc main_arg3) = (m ((c : Thread nD τ).loc main_arg3)) :=
  (W9_of_ne m ρ c main_arg3 (by decide)).trans (at8_main_arg3 m ρ c)
theorem at9_main_arg7 : W9 m ρ c (Proc.devRef .tc main_arg7) = (m ((c : Thread nD τ).loc main_arg7)) :=
  (W9_of_ne m ρ c main_arg7 (by decide)).trans (at8_main_arg7 m ρ c)
theorem at9_main_arg8 : W9 m ρ c (Proc.devRef .tc main_arg8) = (m ((c : Thread nD τ).loc main_arg8)) :=
  (W9_of_ne m ρ c main_arg8 (by decide)).trans (at8_main_arg8 m ρ c)
theorem at9_main_arg4 : W9 m ρ c (Proc.devRef .tc main_arg4) = (m ((c : Thread nD τ).loc main_arg4)) :=
  (W9_of_ne m ρ c main_arg4 (by decide)).trans (at8_main_arg4 m ρ c)
theorem at9_main_arg9 : W9 m ρ c (Proc.devRef .tc main_arg9) = (m ((c : Thread nD τ).loc main_arg9)) :=
  (W9_of_ne m ρ c main_arg9 (by decide)).trans (at8_main_arg9 m ρ c)
theorem at9_main_arg10 : W9 m ρ c (Proc.devRef .tc main_arg10) = (m ((c : Thread nD τ).loc main_arg10)) :=
  (W9_of_ne m ρ c main_arg10 (by decide)).trans (at8_main_arg10 m ρ c)
theorem at9_main_v22 : W9 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  ((W9_arr m ρ c 0).trans (((dat4 (V8 m ρ) c).arrAt_in 0 rfl _).trans (A_eq4 (V8 m ρ) c 0))).trans (at8_main_v22 m ρ c)
theorem at9_main_v69 : W9 m ρ c (Proc.devRef .tc main_v69) = (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) :=
  (W9_of_ne m ρ c main_v69 (by decide)).trans (at8_main_v69 m ρ c)
theorem at9_main_arg23 : W9 m ρ c (Proc.devRef .tc main_arg23) = (m ((c : Thread nD τ).loc main_arg23)) :=
  (W9_of_ne m ρ c main_arg23 (by decide)).trans (at8_main_arg23 m ρ c)
theorem at9_main_arg24 : W9 m ρ c (Proc.devRef .tc main_arg24) = (m ((c : Thread nD τ).loc main_arg24)) :=
  (W9_of_ne m ρ c main_arg24 (by decide)).trans (at8_main_arg24 m ρ c)
theorem at9_main_arg25 : W9 m ρ c (Proc.devRef .tc main_arg25) = (m ((c : Thread nD τ).loc main_arg25)) :=
  (W9_of_ne m ρ c main_arg25 (by decide)).trans (at8_main_arg25 m ρ c)
theorem at9_main_arg26 : W9 m ρ c (Proc.devRef .tc main_arg26) = (m ((c : Thread nD τ).loc main_arg26)) :=
  (W9_of_ne m ρ c main_arg26 (by decide)).trans (at8_main_arg26 m ρ c)
theorem at9_main_arg27 : W9 m ρ c (Proc.devRef .tc main_arg27) = (m ((c : Thread nD τ).loc main_arg27)) :=
  (W9_of_ne m ρ c main_arg27 (by decide)).trans (at8_main_arg27 m ρ c)
theorem at9_main_arg28 : W9 m ρ c (Proc.devRef .tc main_arg28) = (m ((c : Thread nD τ).loc main_arg28)) :=
  (W9_of_ne m ρ c main_arg28 (by decide)).trans (at8_main_arg28 m ρ c)
/-- Launch 4's result array, from the arrays it reads as they stand at its entry. -/
theorem at9_main_v92 : W9 m ρ c (Proc.devRef .tc main_v92) = (Cert.Forms.sage50 (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (Cert.Forms.aggA (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg2)) (m ((c : Thread nD τ).loc main_arg5)) (m ((c : Thread nD τ).loc main_arg6))) (m ((c : Thread nD τ).loc main_arg20)) (m ((c : Thread nD τ).loc main_arg21)) (m ((c : Thread nD τ).loc main_arg22))) :=
  (W9_arr m ρ c 5).trans ((Blocks4.out (V8 m ρ) c).trans (by
    show Cert.Forms.sage50 (W8 m ρ c (Proc.devRef .tc main_v22)) (W8 m ρ c (Proc.devRef .tc main_v91)) (W8 m ρ c (Proc.devRef .tc main_arg20)) (W8 m ρ c (Proc.devRef .tc main_arg21)) (W8 m ρ c (Proc.devRef .tc main_arg22)) = _
    rw [at8_main_v22 m ρ c, at8_main_v91 m ρ c, at8_main_arg20 m ρ c, at8_main_arg21 m ρ c, at8_main_arg22 m ρ c]))

/-! ### Boundary 10 -/
theorem at10_main_arg4 : W10 m ρ c (Proc.devRef .tc main_arg4) = (m ((c : Thread nD τ).loc main_arg4)) :=
  (keep_h5 (W9 m ρ c) main_arg4 (by decide)).trans (at9_main_arg4 m ρ c)
theorem at10_main_arg9 : W10 m ρ c (Proc.devRef .tc main_arg9) = (m ((c : Thread nD τ).loc main_arg9)) :=
  (keep_h5 (W9 m ρ c) main_arg9 (by decide)).trans (at9_main_arg9 m ρ c)
theorem at10_main_arg10 : W10 m ρ c (Proc.devRef .tc main_arg10) = (m ((c : Thread nD τ).loc main_arg10)) :=
  (keep_h5 (W9 m ρ c) main_arg10 (by decide)).trans (at9_main_arg10 m ρ c)
theorem at10_main_v22 : W10 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  (keep_h5 (W9 m ρ c) main_v22 (by decide)).trans (at9_main_v22 m ρ c)
theorem at10_main_v69 : W10 m ρ c (Proc.devRef .tc main_v69) = (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) :=
  (keep_h5 (W9 m ρ c) main_v69 (by decide)).trans (at9_main_v69 m ρ c)
set_option maxHeartbeats 4000000 in
/-- Stretch 5's last buffer: the neighbour aggregation of what the stretch reads. -/
theorem at10_main_v114 : W10 m ρ c (Proc.devRef .tc main_v114) = (Cert.Forms.aggB (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (m ((c : Thread nD τ).loc main_arg3)) (m ((c : Thread nD τ).loc main_arg7)) (m ((c : Thread nD τ).loc main_arg8))) := by
  show StableHlo.after hostOps5 (W9 m ρ c) (Proc.devRef .tc main_v114) = _
  after_results_simp
  rw [at9_main_v69 m ρ c, at9_main_arg3 m ρ c, at9_main_arg7 m ρ c, at9_main_arg8 m ρ c]
  rfl
theorem at10_main_arg23 : W10 m ρ c (Proc.devRef .tc main_arg23) = (m ((c : Thread nD τ).loc main_arg23)) :=
  (keep_h5 (W9 m ρ c) main_arg23 (by decide)).trans (at9_main_arg23 m ρ c)
theorem at10_main_arg24 : W10 m ρ c (Proc.devRef .tc main_arg24) = (m ((c : Thread nD τ).loc main_arg24)) :=
  (keep_h5 (W9 m ρ c) main_arg24 (by decide)).trans (at9_main_arg24 m ρ c)
theorem at10_main_arg25 : W10 m ρ c (Proc.devRef .tc main_arg25) = (m ((c : Thread nD τ).loc main_arg25)) :=
  (keep_h5 (W9 m ρ c) main_arg25 (by decide)).trans (at9_main_arg25 m ρ c)
theorem at10_main_arg26 : W10 m ρ c (Proc.devRef .tc main_arg26) = (m ((c : Thread nD τ).loc main_arg26)) :=
  (keep_h5 (W9 m ρ c) main_arg26 (by decide)).trans (at9_main_arg26 m ρ c)
theorem at10_main_arg27 : W10 m ρ c (Proc.devRef .tc main_arg27) = (m ((c : Thread nD τ).loc main_arg27)) :=
  (keep_h5 (W9 m ρ c) main_arg27 (by decide)).trans (at9_main_arg27 m ρ c)
theorem at10_main_arg28 : W10 m ρ c (Proc.devRef .tc main_arg28) = (m ((c : Thread nD τ).loc main_arg28)) :=
  (keep_h5 (W9 m ρ c) main_arg28 (by decide)).trans (at9_main_arg28 m ρ c)
theorem at10_main_v92 : W10 m ρ c (Proc.devRef .tc main_v92) = (Cert.Forms.sage50 (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (Cert.Forms.aggA (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg2)) (m ((c : Thread nD τ).loc main_arg5)) (m ((c : Thread nD τ).loc main_arg6))) (m ((c : Thread nD τ).loc main_arg20)) (m ((c : Thread nD τ).loc main_arg21)) (m ((c : Thread nD τ).loc main_arg22))) :=
  (keep_h5 (W9 m ρ c) main_v92 (by decide)).trans (at9_main_v92 m ρ c)

/-! ### Boundary 11 -/
theorem at11_main_arg4 : W11 m ρ c (Proc.devRef .tc main_arg4) = (m ((c : Thread nD τ).loc main_arg4)) :=
  (W11_of_ne m ρ c main_arg4 (by decide)).trans (at10_main_arg4 m ρ c)
theorem at11_main_arg9 : W11 m ρ c (Proc.devRef .tc main_arg9) = (m ((c : Thread nD τ).loc main_arg9)) :=
  (W11_of_ne m ρ c main_arg9 (by decide)).trans (at10_main_arg9 m ρ c)
theorem at11_main_arg10 : W11 m ρ c (Proc.devRef .tc main_arg10) = (m ((c : Thread nD τ).loc main_arg10)) :=
  (W11_of_ne m ρ c main_arg10 (by decide)).trans (at10_main_arg10 m ρ c)
theorem at11_main_v22 : W11 m ρ c (Proc.devRef .tc main_v22) = (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) :=
  (W11_of_ne m ρ c main_v22 (by decide)).trans (at10_main_v22 m ρ c)
theorem at11_main_v69 : W11 m ρ c (Proc.devRef .tc main_v69) = (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) :=
  ((W11_arr m ρ c 0).trans (((dat5 (V10 m ρ) c).arrAt_in 0 rfl _).trans (A_eq5 (V10 m ρ) c 0))).trans (at10_main_v69 m ρ c)
theorem at11_main_arg26 : W11 m ρ c (Proc.devRef .tc main_arg26) = (m ((c : Thread nD τ).loc main_arg26)) :=
  (W11_of_ne m ρ c main_arg26 (by decide)).trans (at10_main_arg26 m ρ c)
theorem at11_main_arg27 : W11 m ρ c (Proc.devRef .tc main_arg27) = (m ((c : Thread nD τ).loc main_arg27)) :=
  (W11_of_ne m ρ c main_arg27 (by decide)).trans (at10_main_arg27 m ρ c)
theorem at11_main_arg28 : W11 m ρ c (Proc.devRef .tc main_arg28) = (m ((c : Thread nD τ).loc main_arg28)) :=
  (W11_of_ne m ρ c main_arg28 (by decide)).trans (at10_main_arg28 m ρ c)
/-- Launch 5's result array, from the arrays it reads as they stand at its entry. -/
theorem at11_main_v115 : W11 m ρ c (Proc.devRef .tc main_v115) = (Cert.Forms.sage20 (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (Cert.Forms.aggB (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (m ((c : Thread nD τ).loc main_arg3)) (m ((c : Thread nD τ).loc main_arg7)) (m ((c : Thread nD τ).loc main_arg8))) (m ((c : Thread nD τ).loc main_arg23)) (m ((c : Thread nD τ).loc main_arg24)) (m ((c : Thread nD τ).loc main_arg25))) :=
  (W11_arr m ρ c 5).trans ((Blocks5.out (V10 m ρ) c).trans (by
    show Cert.Forms.sage20 (W10 m ρ c (Proc.devRef .tc main_v69)) (W10 m ρ c (Proc.devRef .tc main_v114)) (W10 m ρ c (Proc.devRef .tc main_arg23)) (W10 m ρ c (Proc.devRef .tc main_arg24)) (W10 m ρ c (Proc.devRef .tc main_arg25)) = _
    rw [at10_main_v69 m ρ c, at10_main_v114 m ρ c, at10_main_arg23 m ρ c, at10_main_arg24 m ρ c, at10_main_arg25 m ρ c]))
theorem at11_main_v92 : W11 m ρ c (Proc.devRef .tc main_v92) = (Cert.Forms.sage50 (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (Cert.Forms.aggA (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg2)) (m ((c : Thread nD τ).loc main_arg5)) (m ((c : Thread nD τ).loc main_arg6))) (m ((c : Thread nD τ).loc main_arg20)) (m ((c : Thread nD τ).loc main_arg21)) (m ((c : Thread nD τ).loc main_arg22))) :=
  (W11_of_ne m ρ c main_v92 (by decide)).trans (at10_main_v92 m ρ c)

/-! ### Boundary 12 -/
theorem at12_main_v69 : W12 m ρ c (Proc.devRef .tc main_v69) = (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) :=
  (keep_h6 (W11 m ρ c) main_v69 (by decide)).trans (at11_main_v69 m ρ c)
set_option maxHeartbeats 4000000 in
/-- Stretch 6's last buffer: the neighbour aggregation of what the stretch reads. -/
theorem at12_main_v137 : W12 m ρ c (Proc.devRef .tc main_v137) = (Cert.Forms.aggC (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg4)) (m ((c : Thread nD τ).loc main_arg9)) (m ((c : Thread nD τ).loc main_arg10))) := by
  show StableHlo.after hostOps6 (W11 m ρ c) (Proc.devRef .tc main_v137) = _
  after_results_simp
  rw [at11_main_v22 m ρ c, at11_main_arg4 m ρ c, at11_main_arg9 m ρ c, at11_main_arg10 m ρ c]
  rfl
theorem at12_main_arg26 : W12 m ρ c (Proc.devRef .tc main_arg26) = (m ((c : Thread nD τ).loc main_arg26)) :=
  (keep_h6 (W11 m ρ c) main_arg26 (by decide)).trans (at11_main_arg26 m ρ c)
theorem at12_main_arg27 : W12 m ρ c (Proc.devRef .tc main_arg27) = (m ((c : Thread nD τ).loc main_arg27)) :=
  (keep_h6 (W11 m ρ c) main_arg27 (by decide)).trans (at11_main_arg27 m ρ c)
theorem at12_main_arg28 : W12 m ρ c (Proc.devRef .tc main_arg28) = (m ((c : Thread nD τ).loc main_arg28)) :=
  (keep_h6 (W11 m ρ c) main_arg28 (by decide)).trans (at11_main_arg28 m ρ c)
theorem at12_main_v115 : W12 m ρ c (Proc.devRef .tc main_v115) = (Cert.Forms.sage20 (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (Cert.Forms.aggB (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (m ((c : Thread nD τ).loc main_arg3)) (m ((c : Thread nD τ).loc main_arg7)) (m ((c : Thread nD τ).loc main_arg8))) (m ((c : Thread nD τ).loc main_arg23)) (m ((c : Thread nD τ).loc main_arg24)) (m ((c : Thread nD τ).loc main_arg25))) :=
  (keep_h6 (W11 m ρ c) main_v115 (by decide)).trans (at11_main_v115 m ρ c)
theorem at12_main_v92 : W12 m ρ c (Proc.devRef .tc main_v92) = (Cert.Forms.sage50 (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (Cert.Forms.aggA (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg2)) (m ((c : Thread nD τ).loc main_arg5)) (m ((c : Thread nD τ).loc main_arg6))) (m ((c : Thread nD τ).loc main_arg20)) (m ((c : Thread nD τ).loc main_arg21)) (m ((c : Thread nD τ).loc main_arg22))) :=
  (keep_h6 (W11 m ρ c) main_v92 (by decide)).trans (at11_main_v92 m ρ c)

/-! ### Boundary 13 -/
theorem at13_main_v115 : W13 m ρ c (Proc.devRef .tc main_v115) = (Cert.Forms.sage20 (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (Cert.Forms.aggB (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (m ((c : Thread nD τ).loc main_arg3)) (m ((c : Thread nD τ).loc main_arg7)) (m ((c : Thread nD τ).loc main_arg8))) (m ((c : Thread nD τ).loc main_arg23)) (m ((c : Thread nD τ).loc main_arg24)) (m ((c : Thread nD τ).loc main_arg25))) :=
  (W13_of_ne m ρ c main_v115 (by decide)).trans (at12_main_v115 m ρ c)
/-- Launch 6's result array, from the arrays it reads as they stand at its entry. -/
theorem at13_main_v138 : W13 m ρ c (Proc.devRef .tc main_v138) = (Cert.Forms.sage20 (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (Cert.Forms.aggC (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg4)) (m ((c : Thread nD τ).loc main_arg9)) (m ((c : Thread nD τ).loc main_arg10))) (m ((c : Thread nD τ).loc main_arg26)) (m ((c : Thread nD τ).loc main_arg27)) (m ((c : Thread nD τ).loc main_arg28))) :=
  (W13_arr m ρ c 5).trans ((Blocks6.out (V12 m ρ) c).trans (by
    show Cert.Forms.sage20 (W12 m ρ c (Proc.devRef .tc main_v69)) (W12 m ρ c (Proc.devRef .tc main_v137)) (W12 m ρ c (Proc.devRef .tc main_arg26)) (W12 m ρ c (Proc.devRef .tc main_arg27)) (W12 m ρ c (Proc.devRef .tc main_arg28)) = _
    rw [at12_main_v69 m ρ c, at12_main_v137 m ρ c, at12_main_arg26 m ρ c, at12_main_arg27 m ρ c, at12_main_arg28 m ρ c]))
theorem at13_main_v92 : W13 m ρ c (Proc.devRef .tc main_v92) = (Cert.Forms.sage50 (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (Cert.Forms.aggA (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg2)) (m ((c : Thread nD τ).loc main_arg5)) (m ((c : Thread nD τ).loc main_arg6))) (m ((c : Thread nD τ).loc main_arg20)) (m ((c : Thread nD τ).loc main_arg21)) (m ((c : Thread nD τ).loc main_arg22))) :=
  (W13_of_ne m ρ c main_v92 (by decide)).trans (at12_main_v92 m ρ c)

/-! ### Boundary 14 -/
theorem at14_main_v92 : W14 m ρ c (Proc.devRef .tc main_v92) = (Cert.Forms.sage50 (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (Cert.Forms.aggA (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg2)) (m ((c : Thread nD τ).loc main_arg5)) (m ((c : Thread nD τ).loc main_arg6))) (m ((c : Thread nD τ).loc main_arg20)) (m ((c : Thread nD τ).loc main_arg21)) (m ((c : Thread nD τ).loc main_arg22))) :=
  (W14_of_ne m ρ c main_v92 (by decide)).trans (at13_main_v92 m ρ c)
/-- Launch 7's result array, from the arrays it reads as they stand at its entry. -/
theorem at14_main_v139 : W14 m ρ c (Proc.devRef .tc main_v139) = (Cert.Forms.half20 (Cert.Forms.sage20 (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (Cert.Forms.aggB (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (m ((c : Thread nD τ).loc main_arg3)) (m ((c : Thread nD τ).loc main_arg7)) (m ((c : Thread nD τ).loc main_arg8))) (m ((c : Thread nD τ).loc main_arg23)) (m ((c : Thread nD τ).loc main_arg24)) (m ((c : Thread nD τ).loc main_arg25))) (Cert.Forms.sage20 (Cert.Forms.relu20 (Cert.Forms.half20 (Cert.Forms.sage20 (m ((c : Thread nD τ).loc main_arg1)) (Cert.Forms.aggB (m ((c : Thread nD τ).loc main_arg1)) (m ((c : Thread nD τ).loc main_arg3)) (m ((c : Thread nD τ).loc main_arg7)) (m ((c : Thread nD τ).loc main_arg8))) (m ((c : Thread nD τ).loc main_arg14)) (m ((c : Thread nD τ).loc main_arg15)) (m ((c : Thread nD τ).loc main_arg16))) (Cert.Forms.sage20 (m ((c : Thread nD τ).loc main_arg1)) (Cert.Forms.aggC (m ((c : Thread nD τ).loc main_arg0)) (m ((c : Thread nD τ).loc main_arg4)) (m ((c : Thread nD τ).loc main_arg9)) (m ((c : Thread nD τ).loc main_arg10))) (m ((c : Thread nD τ).loc main_arg17)) (m ((c : Thread nD τ).loc main_arg18)) (m ((c : Thread nD τ).loc main_arg19))))) (Cert.Forms.aggC (Cert.Forms.relu50 (Cert.Forms.sage50 (m ((c : Thread nD τ).loc main_arg0)) (Cert.Forms.aggA (m ((c : Thread nD τ).loc main_arg0)) (m ((c : Thread nD τ).loc main_arg2)) (m ((c : Thread nD τ).loc main_arg5)) (m ((c : Thread nD τ).loc main_arg6))) (m ((c : Thread nD τ).loc main_arg11)) (m ((c : Thread nD τ).loc main_arg12)) (m ((c : Thread nD τ).loc main_arg13)))) (m ((c : Thread nD τ).loc main_arg4)) (m ((c : Thread nD τ).loc main_arg9)) (m ((c : Thread nD τ).loc main_arg10))) (m ((c : Thread nD τ).loc main_arg26)) (m ((c : Thread nD τ).loc main_arg27)) (m ((c : Thread nD τ).loc main_arg28)))) :=
  (W14_arr m ρ c 2).trans ((Blocks7.out (V13 m ρ) c).trans (by
    show Cert.Forms.half20 (W13 m ρ c (Proc.devRef .tc main_v115)) (W13 m ρ c (Proc.devRef .tc main_v138)) = _
    rw [at13_main_v115 m ρ c, at13_main_v138 m ρ c]))

/-! ## The results -/

/-- The first result at the return. -/
theorem res_A : W14 m ρ c (Proc.devRef .tc main_v92)
    = Cert.Forms.netA (m ((c : Thread nD τ).loc main_arg0)) (m ((c : Thread nD τ).loc main_arg2)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg20)) (m ((c : Thread nD τ).loc main_arg21)) (m ((c : Thread nD τ).loc main_arg22)) :=
  (at14_main_v92 m ρ c).trans rfl

/-- The second result at the return. -/
theorem res_B : W14 m ρ c (Proc.devRef .tc main_v139)
    = Cert.Forms.netB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) :=
  (at14_main_v139 m ρ c).trans rfl

end Cert.KernelIdeal.Whole

end
-- ==== Proof.lean ====
/-
  The certificate of a two-layer graph convolution over two node types and three edge types.

  Both programs compute, per edge type, a weighted mean of in-neighbour features (a row gather, a scatter-add of the
  weighted rows, a scatter-add of ones for the in-degree, its maximum with 1, a quotient) by the same host operations.
  They differ in the dense step that follows: the kernel launches compute `(x·Ws + n·Wn) + β` block of rows by block of
  rows, with operands narrowed to a shorter float format and each product taken into a zero accumulator, and fold the
  rectifier of the first layer into the launch; the reference computes `(x·Ws + β) + n·Wn` on whole arrays and
  rectifies afterwards. On the extended reals the narrowing is the identity, a product into a zero accumulator is the
  product, addition is commutative and associative, and the blocks of rows tile the arrays, so each launch's result
  array is the reference's dense step of the arrays the launch reads. Composing along the two programs, both results
  are the same two functions `netA`, `netB` of the argument arrays. No finiteness of the inputs is used.

  The three frames: the two kernels' are the generated frame certificates; the reference's is its generated run with the
  results dropped. The idealization rewrote nothing, so its conjunct is `True`.
-/
import proofs.«172717_j57543971832738_1_alg».proof.Proof.Gen.Kernel.Frame
import proofs.«172717_j57543971832738_1_alg».proof.Defs
import proofs.«172717_j57543971832738_1_alg».proof.Proof.Gen.Kernel
import proofs.«172717_j57543971832738_1_alg».proof.Proof.Gen.KernelIdeal
import proofs.«172717_j57543971832738_1_alg».proof.Proof.Gen.KernelIdeal.Frame
import proofs.«172717_j57543971832738_1_alg».proof.Proof.Gen.ReferenceIdeal
import proofs.«172717_j57543971832738_1_alg».proof.Proof.Gen.Pre_finite_inputs
import proofs.«172717_j57543971832738_1_alg».proof.Proof.Gen.ReferenceIdeal.Run
import proofs.«172717_j57543971832738_1_alg».proof.Proof.Gen.ReferenceIdeal.Read
import proofs.«172717_j57543971832738_1_alg».proof.Proof.KernelValue
import proofs.«172717_j57543971832738_1_alg».proof.Proof.Forms
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
/-- The reference's first result, from a memory that agrees with the kernel's on the arguments. -/
theorem ref_res_A (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧       m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧       m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧       m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧       m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧       m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧       m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧       m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧       m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧       m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧       m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧       m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧       m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧       m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧       m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧       m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧       m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) (c : Dev Cert.ReferenceIdeal.nD) :
    Cert.ReferenceIdeal.Value.res_main_v116 m' c = Cert.Forms.netA (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  obtain ⟨g0, g1, g2, g3, g4, g5, g6, g7, g8, g9, g10, g11, g12, g13, g14, g15, g16, g17, g18, g19, g20, g21, g22, g23, g24, g25, g26, g27, g28⟩ := hagree c
  rw [Cert.ReferenceIdeal.Read.val_main_v116_eq, Cert.Forms.ref_netA, g0, g2, g5, g6, g11, g12, g13, g20, g21, g22]

set_option maxHeartbeats 4000000 in
/-- The reference's second result, from a memory that agrees with the kernel's on the arguments. -/
theorem ref_res_B (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧       m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧       m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧       m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧       m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧       m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧       m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧       m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧       m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧       m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧       m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧       m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧       m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧       m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧       m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧       m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧       m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) (c : Dev Cert.ReferenceIdeal.nD) :
    Cert.ReferenceIdeal.Value.res_main_v175 m' c = Cert.Forms.netB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) := by
  obtain ⟨g0, g1, g2, g3, g4, g5, g6, g7, g8, g9, g10, g11, g12, g13, g14, g15, g16, g17, g18, g19, g20, g21, g22, g23, g24, g25, g26, g27, g28⟩ := hagree c
  rw [Cert.ReferenceIdeal.Read.val_main_v175_eq, Cert.Forms.ref_netB, g0, g1, g2, g3, g4, g5, g6, g7, g8, g9, g10, g11, g12, g13, g14, g15, g16, g17, g18, g19, g23, g24, g25, g26, g27, g28]

set_option maxHeartbeats 1000000 in
/-- Both programs, from memories that agree on the arguments, end with the first result at `netA` and the second at
    `netB` of the arguments. -/
theorem algebraic : Cert.algebraic_KernelIdeal_ReferenceIdeal := by
  intro m ρ m' ρ' _ hagree
  refine ⟨fun c => Cert.Forms.netA (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    fun c => Cert.Forms.netB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · refine (θ_run Cert.KernelIdeal.defs _ _).mono (fun r h c => ?_) (Cert.KernelIdeal.Whole.run_at (F := Ideal) m ρ)
    exact ⟨(h c Cert.KernelIdeal.main_v92 (by decide)).trans (Cert.KernelIdeal.Whole.res_A m ρ c),
      (h c Cert.KernelIdeal.main_v139 (by decide)).trans (Cert.KernelIdeal.Whole.res_B m ρ c),
      (h c Cert.KernelIdeal.main_arg0 (by decide)).trans (Cert.KernelIdeal.Gen.W14_main_arg0 m ρ c),
      (h c Cert.KernelIdeal.main_arg1 (by decide)).trans (Cert.KernelIdeal.Gen.W14_main_arg1 m ρ c),
      (h c Cert.KernelIdeal.main_arg2 (by decide)).trans (Cert.KernelIdeal.Gen.W14_main_arg2 m ρ c),
      (h c Cert.KernelIdeal.main_arg3 (by decide)).trans (Cert.KernelIdeal.Gen.W14_main_arg3 m ρ c),
      (h c Cert.KernelIdeal.main_arg4 (by decide)).trans (Cert.KernelIdeal.Gen.W14_main_arg4 m ρ c),
      (h c Cert.KernelIdeal.main_arg5 (by decide)).trans (Cert.KernelIdeal.Gen.W14_main_arg5 m ρ c),
      (h c Cert.KernelIdeal.main_arg6 (by decide)).trans (Cert.KernelIdeal.Gen.W14_main_arg6 m ρ c),
      (h c Cert.KernelIdeal.main_arg7 (by decide)).trans (Cert.KernelIdeal.Gen.W14_main_arg7 m ρ c),
      (h c Cert.KernelIdeal.main_arg8 (by decide)).trans (Cert.KernelIdeal.Gen.W14_main_arg8 m ρ c),
      (h c Cert.KernelIdeal.main_arg9 (by decide)).trans (Cert.KernelIdeal.Gen.W14_main_arg9 m ρ c),
      (h c Cert.KernelIdeal.main_arg10 (by decide)).trans (Cert.KernelIdeal.Gen.W14_main_arg10 m ρ c),
      (h c Cert.KernelIdeal.main_arg11 (by decide)).trans (Cert.KernelIdeal.Gen.W14_main_arg11 m ρ c),
      (h c Cert.KernelIdeal.main_arg12 (by decide)).trans (Cert.KernelIdeal.Gen.W14_main_arg12 m ρ c),
      (h c Cert.KernelIdeal.main_arg13 (by decide)).trans (Cert.KernelIdeal.Gen.W14_main_arg13 m ρ c),
      (h c Cert.KernelIdeal.main_arg14 (by decide)).trans (Cert.KernelIdeal.Gen.W14_main_arg14 m ρ c),
      (h c Cert.KernelIdeal.main_arg15 (by decide)).trans (Cert.KernelIdeal.Gen.W14_main_arg15 m ρ c),
      (h c Cert.KernelIdeal.main_arg16 (by decide)).trans (Cert.KernelIdeal.Gen.W14_main_arg16 m ρ c),
      (h c Cert.KernelIdeal.main_arg17 (by decide)).trans (Cert.KernelIdeal.Gen.W14_main_arg17 m ρ c),
      (h c Cert.KernelIdeal.main_arg18 (by decide)).trans (Cert.KernelIdeal.Gen.W14_main_arg18 m ρ c),
      (h c Cert.KernelIdeal.main_arg19 (by decide)).trans (Cert.KernelIdeal.Gen.W14_main_arg19 m ρ c),
      (h c Cert.KernelIdeal.main_arg20 (by decide)).trans (Cert.KernelIdeal.Gen.W14_main_arg20 m ρ c),
      (h c Cert.KernelIdeal.main_arg21 (by decide)).trans (Cert.KernelIdeal.Gen.W14_main_arg21 m ρ c),
      (h c Cert.KernelIdeal.main_arg22 (by decide)).trans (Cert.KernelIdeal.Gen.W14_main_arg22 m ρ c),
      (h c Cert.KernelIdeal.main_arg23 (by decide)).trans (Cert.KernelIdeal.Gen.W14_main_arg23 m ρ c),
      (h c Cert.KernelIdeal.main_arg24 (by decide)).trans (Cert.KernelIdeal.Gen.W14_main_arg24 m ρ c),
      (h c Cert.KernelIdeal.main_arg25 (by decide)).trans (Cert.KernelIdeal.Gen.W14_main_arg25 m ρ c),
      (h c Cert.KernelIdeal.main_arg26 (by decide)).trans (Cert.KernelIdeal.Gen.W14_main_arg26 m ρ c),
      (h c Cert.KernelIdeal.main_arg27 (by decide)).trans (Cert.KernelIdeal.Gen.W14_main_arg27 m ρ c),
      (h c Cert.KernelIdeal.main_arg28 (by decide)).trans (Cert.KernelIdeal.Gen.W14_main_arg28 m ρ c)⟩
  · exact (θ_run Cert.ReferenceIdeal.defs _ _).mono (fun r h c => ⟨(h c).1.trans (ref_res_A m m' hagree c), (h c).2.1.trans (ref_res_B m m' hagree c), (h c).2.2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
